-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4 : Shape := ⟨2, ![1024, 4]⟩
abbrev S1024x2 : Shape := ⟨2, ![1024, 2]⟩
abbrev S64x5 : Shape := ⟨2, ![64, 5]⟩
abbrev S64 : Shape := ⟨1, ![64]⟩
abbrev S128x64 : Shape := ⟨2, ![128, 64]⟩
abbrev S128 : Shape := ⟨1, ![128]⟩
abbrev S64x132 : Shape := ⟨2, ![64, 132]⟩
abbrev S64x128 : Shape := ⟨2, ![64, 128]⟩
abbrev S4x64 : Shape := ⟨2, ![4, 64]⟩
abbrev S4 : Shape := ⟨1, ![4]⟩
abbrev S_ : Shape := ⟨0, ![]⟩

class Facts : Prop where
  bcast_S_S1024x4 : S_.BroadcastsInDim S1024x4 (![] : Fin 0 → Fin S1024x4.rank)
  reducesTo_S1024x4_S_d0_1 : S1024x4.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S64x5 : S_.BroadcastsInDim S64x5 (![] : Fin 0 → Fin S64x5.rank)
  reducesTo_S64x5_S_d0_1 : S64x5.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x132 : S_.BroadcastsInDim S64x132 (![] : Fin 0 → Fin S64x132.rank)
  reducesTo_S64x132_S_d0_1 : S64x132.ReducesTo [0, 1] S_
  bcast_S_S64x128 : S_.BroadcastsInDim S64x128 (![] : Fin 0 → Fin S64x128.rank)
  reducesTo_S64x128_S_d0_1 : S64x128.ReducesTo [0, 1] S_
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S4x64 .f32) (main_arg13 : FVec F S4 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S4x64 .f32 := Host.absf main_arg12
  let main_cst_22 : FVec F S_ .f32 := constant S_ .f32 0x7F800000#32
  let main_v60 : FVec F S4x64 .f32 := broadcastInDim S4x64 ![] bcast_S_S4x64 main_cst_22
  let main_v61 : IVec S4x64 1 := cmpf .olt main_v59 main_v60
  let main_c_23 : IVec S_ 1 := constantI S_ 1 1#1
  let main_v62 : IVec S_ 1 := (fun x v => Host.reduce IntOp.andi x v reducesTo_S4x64_S_d0_1 h_S_) main_v61 main_c_23
  let main_v63 : IVec S_ 1 := andi main_v58 main_v62
  let main_v64 : FVec F S4 .f32 := Host.absf main_arg13
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_v63 main_v67

def fn_part2 {F : FTy → Type} [FloatOps F] (main_arg7 : FVec F S64 .f32) (main_arg8 : FVec F S128x64 .f32) (main_arg9 : FVec F S128 .f32) (main_arg10 : FVec F S64x128 .f32) (main_arg11 : FVec F S64 .f32) (main_arg12 : FVec F S4x64 .f32) (main_arg13 : FVec F S4 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg10
  let main_cst_18 : FVec F S_ .f32 := constant S_ .f32 0x7F800000#32
  let main_v50 : FVec F S64x128 .f32 := broadcastInDim S64x128 ![] bcast_S_S64x128 main_cst_18
  fn_part3 (F := F) main_arg11 main_arg12 main_arg13 main_v48 main_v49 main_v50

def fn_part1 {F : FTy → Type} [FloatOps F] (main_arg4 : FVec F S128x64 .f32) (main_arg5 : FVec F S128 .f32) (main_arg6 : FVec F S64x132 .f32) (main_arg7 : FVec F S64 .f32) (main_arg8 : FVec F S128x64 .f32) (main_arg9 : FVec F S128 .f32) (main_arg10 : FVec F S64x128 .f32) (main_arg11 : FVec F S64 .f32) (main_arg12 : FVec F S4x64 .f32) (main_arg13 : FVec F S4 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x132 .f32 := Host.absf main_arg6
  let main_cst_10 : FVec F S_ .f32 := constant S_ .f32 0x7F800000#32
  let main_v30 : FVec F S64x132 .f32 := broadcastInDim S64x132 ![] bcast_S_S64x132 main_cst_10
  let main_v31 : IVec S64x132 1 := cmpf .olt main_v29 main_v30
  let main_c_11 : IVec S_ 1 := constantI S_ 1 1#1
  let main_v32 : IVec S_ 1 := (fun x v => Host.reduce IntOp.andi x v reducesTo_S64x132_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x4 .f32) (main_arg1 : FVec F S1024x2 .f32) (main_arg2 : FVec F S64x5 .f32) (main_arg3 : FVec F S64 .f32) (main_arg4 : FVec F S128x64 .f32) (main_arg5 : FVec F S128 .f32) (main_arg6 : FVec F S64x132 .f32) (main_arg7 : FVec F S64 .f32) (main_arg8 : FVec F S128x64 .f32) (main_arg9 : FVec F S128 .f32) (main_arg10 : FVec F S64x128 .f32) (main_arg11 : FVec F S64 .f32) (main_arg12 : FVec F S4x64 .f32) (main_arg13 : FVec F S4 .f32) : IVec S_ 1 :=
  let main_v0 : FVec F S1024x4 .f32 := Host.absf main_arg0
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S64x5 .f32 := Host.absf main_arg2
  let main_cst_2 : FVec F S_ .f32 := constant S_ .f32 0x7F800000#32
  let main_v10 : FVec F S64x5 .f32 := broadcastInDim S64x5 ![] bcast_S_S64x5 main_cst_2
  let main_v11 : IVec S64x5 1 := cmpf .olt main_v9 main_v10
  let main_c_3 : IVec S_ 1 := constantI S_ 1 1#1
  let main_v12 : IVec S_ 1 := (fun x v => Host.reduce IntOp.andi x v reducesTo_S64x5_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x4 : Shape := ⟨2, ![1024, 4]⟩
abbrev S1024x2 : Shape := ⟨2, ![1024, 2]⟩
abbrev S64x5 : Shape := ⟨2, ![64, 5]⟩
abbrev S64 : Shape := ⟨1, ![64]⟩
abbrev S128x64 : Shape := ⟨2, ![128, 64]⟩
abbrev S128 : Shape := ⟨1, ![128]⟩
abbrev S64x132 : Shape := ⟨2, ![64, 132]⟩
abbrev S64x128 : Shape := ⟨2, ![64, 128]⟩
abbrev S4x64 : Shape := ⟨2, ![4, 64]⟩
abbrev S4 : Shape := ⟨1, ![4]⟩
abbrev S128x4 : Shape := ⟨2, ![128, 4]⟩
abbrev S64x4 : Shape := ⟨2, ![64, 4]⟩
abbrev S128x2 : Shape := ⟨2, ![128, 2]⟩
abbrev S128x128 : Shape := ⟨2, ![128, 128]⟩
abbrev S128x1x4 : Shape := ⟨3, ![128, 1, 4]⟩
abbrev S128x64x4 : Shape := ⟨3, ![128, 64, 4]⟩
abbrev S1x64x4 : Shape := ⟨3, ![1, 64, 4]⟩
abbrev S128x64x1 : Shape := ⟨3, ![128, 64, 1]⟩
abbrev S128x64x5 : Shape := ⟨3, ![128, 64, 5]⟩
abbrev S8192x5 : Shape := ⟨2, ![8192, 5]⟩
abbrev S5x64 : Shape := ⟨2, ![5, 64]⟩
abbrev S8192x64 : Shape := ⟨2, ![8192, 64]⟩
abbrev S1x64 : Shape := ⟨2, ![1, 64]⟩
abbrev S8192x128 : Shape := ⟨2, ![8192, 128]⟩
abbrev S1x128 : Shape := ⟨2, ![1, 128]⟩
abbrev S128x64x128 : Shape := ⟨3, ![128, 64, 128]⟩
abbrev S128x132 : Shape := ⟨2, ![128, 132]⟩
abbrev S132x64 : Shape := ⟨2, ![132, 64]⟩
abbrev S1x4 : Shape := ⟨2, ![1, 4]⟩
abbrev S128x1 : Shape := ⟨2, ![128, 1]⟩

abbrev nBuf : Space → Nat
  | .hbm => 15
  | .vmem => 21
  | .smem => 0
  | _ => 0

abbrev bufTy : (tb : Table) → Fin (tcTables nBuf tb) → BufTy
  | .hbm, ⟨0, _⟩ => ⟨S1024x4, .f32⟩
  | .hbm, ⟨1, _⟩ => ⟨S1024x2, .f32⟩
  | .hbm, ⟨2, _⟩ => ⟨S64x5, .f32⟩
  | .hbm, ⟨3, _⟩ => ⟨S64, .f32⟩
  | .hbm, ⟨4, _⟩ => ⟨S128x64, .f32⟩
  | .hbm, ⟨5, _⟩ => ⟨S128, .f32⟩
  | .hbm, ⟨6, _⟩ => ⟨S64x132, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S4x64, .f32⟩
  | .hbm, ⟨13, _⟩ => ⟨S4, .f32⟩
  | .hbm, ⟨14, _⟩ => ⟨S1024x2, .f32⟩
  | .local _ .vmem, ⟨0, _⟩ => ⟨S128x4, .f32⟩
  | .local _ .vmem, ⟨1, _⟩ => ⟨S128x4, .f32⟩
  | .local _ .vmem, ⟨2, _⟩ => ⟨S64x4, .f32⟩
  | .local _ .vmem, ⟨3, _⟩ => ⟨S64x4, .f32⟩
  | .local _ .vmem, ⟨4, _⟩ => ⟨S128x2, .f32⟩
  | .local _ .vmem, ⟨5, _⟩ => ⟨S128x2, .f32⟩
  | .local _ .vmem, ⟨6, _⟩ => ⟨S64x5, .f32⟩
  | .local _ .vmem, ⟨7, _⟩ => ⟨S64, .f32⟩
  | .local _ .vmem, ⟨8, _⟩ => ⟨S128x64, .f32⟩
  | .local _ .vmem, ⟨9, _⟩ => ⟨S128, .f32⟩
  | .local _ .vmem, ⟨10, _⟩ => ⟨S64x132, .f32⟩
  | .local _ .vmem, ⟨11, _⟩ => ⟨S64, .f32⟩
  | .local _ .vmem, ⟨12, _⟩ => ⟨S128x64, .f32⟩
  | .local _ .vmem, ⟨13, _⟩ => ⟨S128, .f32⟩
  | .local _ .vmem, ⟨14, _⟩ => ⟨S64x128, .f32⟩
  | .local _ .vmem, ⟨15, _⟩ => ⟨S64, .f32⟩
  | .local _ .vmem, ⟨16, _⟩ => ⟨S4x64, .f32⟩
  | .local _ .vmem, ⟨17, _⟩ => ⟨S4, .f32⟩
  | .local _ .vmem, ⟨18, _⟩ => ⟨S128x2, .f32⟩
  | .local _ .vmem, ⟨19, _⟩ => ⟨S128x2, .f32⟩
  | .local _ .vmem, ⟨20, _⟩ => ⟨S128x128, .f32⟩
  | _, _ => ⟨S1024x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v74 : BitVec 1 := Scalar.cmpi .eq arg1 c15_i32
  let v75 : BitVec 32 := Scalar.extui v74
  let c0_i32_19 : BitVec 32 := 0#32
  let v76 : BitVec 1 := Scalar.cmpi .ne v75 c0_i32_19
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x132 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S4x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x2 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

class Facts₀ : Prop where
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x4_S128x4_0_0 : ∀ a, (![0, 0] : Fin 2 → Nat) a + S128x4.size a ≤ S128x4.size a
  h_S128x4 : 0 < S128x4.numel
  inb_S64x4_S64x4_0_0 : ∀ a, (![0, 0] : Fin 2 → Nat) a + S64x4.size a ≤ S64x4.size a
  h_S64x4 : 0 < S64x4.numel
  shapeCasts_S128x4_S128x1x4 : S128x4.ShapeCasts S128x1x4
  shapeCasts_S128x1x4_S128x1x4 : S128x1x4.ShapeCasts S128x1x4
  broadcasts_S128x1x4_S128x64x4 : S128x1x4.Broadcasts S128x64x4
  shapeCasts_S64x4_S1x64x4 : S64x4.ShapeCasts S1x64x4
  shapeCasts_S1x64x4_S1x64x4 : S1x64x4.ShapeCasts S1x64x4
  broadcasts_S1x64x4_S128x64x4 : S1x64x4.Broadcasts S128x64x4
  iota_S128x64_d0_w32 : S128x64.Iotas .tc 32 [0]
  iota_S128x64_d1_w32 : S128x64.Iotas .tc 32 [1]
  natLt_1_32 : 1 < 32
  shapeCasts_S128x64_S128x64x1 : S128x64.ShapeCasts S128x64x1
  concatenates_S128x64x4_S128x64x1_S128x64x5_d2 : Shape.Concatenates [S128x64x4, S128x64x1] S128x64x5 2
  slices_S128x64x4_o0_0_0_S128x64x1 : S128x64x4.Slices ![0, 0, 0] S128x64x1
  shapeCasts_S128x64x1_S128x64 : S128x64x1.ShapeCasts S128x64
  slices_S128x64x4_o0_0_1_S128x64x1 : S128x64x4.Slices ![0, 0, 1] S128x64x1
  shapeCasts_S128x64x5_S8192x5 : S128x64x5.ShapeCasts S8192x5
  bitsLt_bf16_f32 : FTy.bits .bf16 < FTy.bits .f32
  inb_S64x5_S64x5_0_0 : ∀ a, (![0, 0] : Fin 2 → Nat) a + S64x5.size a ≤ S64x5.size a
  h_S64x5 : 0 < S64x5.numel
  inb_S64_S64_0 : ∀ a, (![0] : Fin 1 → Nat) a + S64.size a ≤ S64.size a
  h_S64 : 0 < S64.numel
  transposes_S64x5_p1_0_S5x64 : S64x5.Transposes [1, 0] S5x64
  shapeCasts_S64_S1x64 : S64.ShapeCasts S1x64
  broadcasts_S1x64_S8192x64 : S1x64.Broadcasts S8192x64
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  transposes_S128x64_p1_0_S64x128 : S128x64.Transposes [1, 0] S64x128
  shapeCasts_S128_S1x128 : S128.ShapeCasts S1x128
  broadcasts_S1x128_S8192x128 : S1x128.Broadcasts S8192x128
  shapeCasts_S8192x128_S128x64x128 : S8192x128.ShapeCasts S128x64x128
  broadcasts_S128x64x1_S128x64x128 : S128x64x1.Broadcasts S128x64x128
  reduces_S128x64x128_S128x128 : S128x64x128.Reduces [1] S128x128
  inb_S128x2_S128x2_0_0 : ∀ a, (![0, 0] : Fin 2 → Nat) a + S128x2.size a ≤ S128x2.size a
  h_S128x2 : 0 < S128x2.numel
  slices_S128x4_o0_0_S128x2 : S128x4.Slices ![0, 0] S128x2
  slices_S128x4_o0_2_S128x2 : S128x4.Slices ![0, 2] S128x2
  concatenates_S128x128_S128x2_S128x2_S128x132_d1 : Shape.Concatenates [S128x128, S128x2, S128x2] S128x132 1
  inb_S64x132_S64x132_0_0 : ∀ a, (![0, 0] : Fin 2 → Nat) a + S64x132.size a ≤ S64x132.size a
  h_S64x132 : 0 < S64x132.numel
  transposes_S64x132_p1_0_S132x64 : S64x132.Transposes [1, 0] S132x64
  broadcasts_S1x64_S128x64 : S1x64.Broadcasts S128x64
  broadcasts_S1x128_S128x128 : S1x128.Broadcasts S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S4x64_S4x64_0_0 : ∀ a, (![0, 0] : Fin 2 → Nat) a + S4x64.size a ≤ S4x64.size a
  h_S4x64 : 0 < S4x64.numel
  transposes_S4x64_p1_0_S64x4 : S4x64.Transposes [1, 0] S64x4
  inb_S4_S4_0 : ∀ a, (![0] : Fin 1 → Nat) a + S4.size a ≤ S4.size a
  h_S4 : 0 < S4.numel
  shapeCasts_S4_S1x4 : S4.ShapeCasts S1x4
  broadcasts_S1x4_S128x4 : S1x4.Broadcasts S128x4
  slices_S128x4_o0_0_S128x1 : S128x4.Slices ![0, 0] S128x1
  slices_S128x4_o0_1_S128x1 : S128x4.Slices ![0, 1] S128x1
  slices_S128x4_o0_2_S128x1 : S128x4.Slices ![0, 2] S128x1
  slices_S128x4_o0_3_S128x1 : S128x4.Slices ![0, 3] S128x1
  concatenates_S128x1_S128x1_S128x1_S128x1_S128x4_d1 : Shape.Concatenates [S128x1, S128x1, S128x1, S128x1] S128x4 1
  concatenates_S128x2_S128x2_S128x4_d1 : Shape.Concatenates [S128x2, S128x2] S128x4 1
  reduces_S128x4_S128 : S128x4.Reduces [1] S128
  shapeCasts_S128_S128x1 : S128.ShapeCasts S128x1
  concatenates_S128x1_S128x1_S128x2_d1 : Shape.Concatenates [S128x1, S128x1] S128x2 1
  dot_S8192x5_S5x64_S8192x64_1_0_0_1_n_n_wf : DotDims.WF S8192x5 S5x64 S8192x64 [1] [0] [0] [1] [] []
  dot_S8192x64_S64x128_S8192x128_1_0_0_1_n_n_wf : DotDims.WF S8192x64 S64x128 S8192x128 [1] [0] [0] [1] [] []
  dot_S128x132_S132x64_S128x64_1_0_0_1_n_n_wf : DotDims.WF S128x132 S132x64 S128x64 [1] [0] [0] [1] [] []
  dot_S128x64_S64x128_S128x128_1_0_0_1_n_n_wf : DotDims.WF S128x64 S64x128 S128x128 [1] [0] [0] [1] [] []
  dot_S128x128_S128x64_S128x64_1_0_0_1_n_n_wf : DotDims.WF S128x128 S128x64 S128x64 [1] [0] [0] [1] [] []
  dot_S128x64_S64x4_S128x4_1_0_0_1_n_n_wf : DotDims.WF S128x64 S64x4 S128x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4.size a ≤ S1024x4.size a
  hwx0_0 : ∀ i : grid0.Coords, EltTy.bits .f32 = 32 ∨ (Rect.block (s := S1024x4) S128x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S1024x4.size a
  hwx0_1 : ∀ i : grid0.Coords, EltTy.bits .f32 = 32 ∨ (Rect.block (s := S1024x4) S64x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2.size a ≤ S1024x2.size a
  hwx0_2 : ∀ i : grid0.Coords, EltTy.bits .f32 = 32 ∨ (Rect.block (s := S1024x2) S128x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x5.size a ≤ S64x5.size a
  hwx0_3 : ∀ i : grid0.Coords, EltTy.bits .f32 = 32 ∨ (Rect.block (s := S64x5) S64x5.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x132.size a ≤ S64x132.size a
  hwx0_7 : ∀ i : grid0.Coords, EltTy.bits .f32 = 32 ∨ (Rect.block (s := S64x132) S64x132.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x128.size a ≤ S64x128.size a
  hwx0_11 : ∀ i : grid0.Coords, EltTy.bits .f32 = 32 ∨ (Rect.block (s := S64x128) S64x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x64.size a ≤ S4x64.size a
  hwx0_13 : ∀ i : grid0.Coords, EltTy.bits .f32 = 32 ∨ (Rect.block (s := S4x64) S4x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4.size a ≤ S4.size a
  hwx0_14 : ∀ i : grid0.Coords, EltTy.bits .f32 = 32 ∨ (Rect.block (s := S4) S4.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x2.size a ≤ S1024x2.size a
  hwx0_15 : ∀ i : grid0.Coords, EltTy.bits .f32 = 32 ∨ (Rect.block (s := S1024x2) S128x2.size (cc0_transform_15 i) (hinb0_15 i)).WholeWords (EltTy.packing .f32)

variable [Facts₀]

def dot_S8192x5_S5x64_S8192x64_1_0_0_1_n_n : DotDims S8192x5 S5x64 S8192x64 where
  lhsContracting := [1]
  rhsContracting := [0]
  lhsNonContracting := [0]
  rhsNonContracting := [1]
  lhsBatch := []
  rhsBatch := []
  wf := dot_S8192x5_S5x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S128x132_S132x64_S128x64_1_0_0_1_n_n : DotDims S128x132 S132x64 S128x64 where
  lhsContracting := [1]
  rhsContracting := [0]
  lhsNonContracting := [0]
  rhsNonContracting := [1]
  lhsBatch := []
  rhsBatch := []
  wf := dot_S128x132_S132x64_S128x64_1_0_0_1_n_n_wf
def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S128x64_S64x4_S128x4_1_0_0_1_n_n : DotDims S128x64 S64x4 S128x4 where
  lhsContracting := [1]
  rhsContracting := [0]
  lhsNonContracting := [0]
  rhsNonContracting := [1]
  lhsBatch := []
  rhsBatch := []
  wf := dot_S128x64_S64x4_S128x4_1_0_0_1_n_n_wf

abbrev win0_0 : Pipeline.Window sig grid0 :=
  Pipeline.Window.ofSpec (Memref.whole main_arg0) S128x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S64x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x132.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S4x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S4.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v0) S128x2.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S1024x4 : Shape := ⟨2, ![1024, 4]⟩
abbrev S1024x2 : Shape := ⟨2, ![1024, 2]⟩
abbrev S64x5 : Shape := ⟨2, ![64, 5]⟩
abbrev S64 : Shape := ⟨1, ![64]⟩
abbrev S128x64 : Shape := ⟨2, ![128, 64]⟩
abbrev S128 : Shape := ⟨1, ![128]⟩
abbrev S64x132 : Shape := ⟨2, ![64, 132]⟩
abbrev S64x128 : Shape := ⟨2, ![64, 128]⟩
abbrev S4x64 : Shape := ⟨2, ![4, 64]⟩
abbrev S4 : Shape := ⟨1, ![4]⟩
abbrev S1024x1x4 : Shape := ⟨3, ![1024, 1, 4]⟩
abbrev S1x1024x4 : Shape := ⟨3, ![1, 1024, 4]⟩
abbrev S1024x1024x4 : Shape := ⟨3, ![1024, 1024, 4]⟩
abbrev S1024x1024 : Shape := ⟨2, ![1024, 1024]⟩
abbrev S_ : Shape := ⟨0, ![]⟩
abbrev S1024x1024x1 : Shape := ⟨3, ![1024, 1024, 1]⟩
abbrev S1024x1024x5 : Shape := ⟨3, ![1024, 1024, 5]⟩
abbrev S1024x1024x2 : Shape := ⟨3, ![1024, 1024, 2]⟩
abbrev S1024x1024x64 : Shape := ⟨3, ![1024, 1024, 64]⟩
abbrev S1x1x64 : Shape := ⟨3, ![1, 1, 64]⟩
abbrev S1024x1024x128 : Shape := ⟨3, ![1024, 1024, 128]⟩
abbrev S1x1x128 : Shape := ⟨3, ![1, 1, 128]⟩
abbrev S1024x128 : Shape := ⟨2, ![1024, 128]⟩
abbrev S1024x132 : Shape := ⟨2, ![1024, 132]⟩
abbrev S132x64 : Shape := ⟨2, ![132, 64]⟩
abbrev S1024x64 : Shape := ⟨2, ![1024, 64]⟩
abbrev S1x64 : Shape := ⟨2, ![1, 64]⟩
abbrev S1x128 : Shape := ⟨2, ![1, 128]⟩
abbrev S64x4 : Shape := ⟨2, ![64, 4]⟩
abbrev S1x4 : Shape := ⟨2, ![1, 4]⟩
abbrev S1024x1 : Shape := ⟨2, ![1024, 1]⟩
abbrev S1024 : Shape := ⟨1, ![1024]⟩

abbrev nBuf : Space → Nat
  | .hbm => 124
  | .vmem => 0
  | .smem => 0
  | _ => 0

abbrev bufTy : (tb : Table) → Fin (tcTables nBuf tb) → BufTy
  | .hbm, ⟨0, _⟩ => ⟨S1024x4, .f32⟩
  | .hbm, ⟨1, _⟩ => ⟨S1024x2, .f32⟩
  | .hbm, ⟨2, _⟩ => ⟨S64x5, .f32⟩
  | .hbm, ⟨3, _⟩ => ⟨S64, .f32⟩
  | .hbm, ⟨4, _⟩ => ⟨S128x64, .f32⟩
  | .hbm, ⟨5, _⟩ => ⟨S128, .f32⟩
  | .hbm, ⟨6, _⟩ => ⟨S64x132, .f32⟩
  | .hbm, ⟨7, _⟩ => ⟨S64, .f32⟩
  | .hbm, ⟨8, _⟩ => ⟨S128x64, .f32⟩
  | .hbm, ⟨9, _⟩ => ⟨S128, .f32⟩
  | .hbm, ⟨10, _⟩ => ⟨S64x128, .f32⟩
  | .hbm, ⟨11, _⟩ => ⟨S64, .f32⟩
  | .hbm, ⟨12, _⟩ => ⟨S4x64, .f32⟩
  | .hbm, ⟨13, _⟩ => ⟨S4, .f32⟩
  | .hbm, ⟨14, _⟩ => ⟨S1024x1x4, .f32⟩
  | .hbm, ⟨15, _⟩ => ⟨S1x1024x4, .f32⟩
  | .hbm, ⟨16, _⟩ => ⟨S1024x1024x4, .f32⟩
  | .hbm, ⟨17, _⟩ => ⟨S1024x1024x4, .f32⟩
  | .hbm, ⟨18, _⟩ => ⟨S1024x1024x4, .f32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .f32⟩
  | .hbm, ⟨26, _⟩ => ⟨S1024x1024x1, .f32⟩
  | .hbm, ⟨27, _⟩ => ⟨S1024x1024x5, .f32⟩
  | .hbm, ⟨28, _⟩ => ⟨S1024x1024x2, .f32⟩
  | .hbm, ⟨29, _⟩ => ⟨S1024x1024x2, .f32⟩
  | .hbm, ⟨30, _⟩ => ⟨S_, .f32⟩
  | .hbm, ⟨31, _⟩ => ⟨S1024x1024, .f32⟩
  | .hbm, ⟨32, _⟩ => ⟨S1024x1024x1, .f32⟩
  | .hbm, ⟨33, _⟩ => ⟨S1024x1024x1, .f32⟩
  | .hbm, ⟨34, _⟩ => ⟨S_, .f32⟩
  | .hbm, ⟨35, _⟩ => ⟨S1024x1024x1, .f32⟩
  | .hbm, ⟨36, _⟩ => ⟨S1024x1024x1, .i1⟩
  | .hbm, ⟨37, _⟩ => ⟨S1024x1024x1, .f32⟩
  | .hbm, ⟨38, _⟩ => ⟨S1024x1024x64, .f32⟩
  | .hbm, ⟨39, _⟩ => ⟨S1x1x64, .f32⟩
  | .hbm, ⟨40, _⟩ => ⟨S1024x1024x64, .f32⟩
  | .hbm, ⟨41, _⟩ => ⟨S1024x1024x64, .f32⟩
  | .hbm, ⟨42, _⟩ => ⟨S_, .f32⟩
  | .hbm, ⟨43, _⟩ => ⟨S1024x1024x64, .f32⟩
  | .hbm, ⟨44, _⟩ => ⟨S1024x1024x64, .f32⟩
  | .hbm, ⟨45, _⟩ => ⟨S1024x1024x128, .f32⟩
  | .hbm, ⟨46, _⟩ => ⟨S1x1x128, .f32⟩
  | .hbm, ⟨47, _⟩ => ⟨S1024x1024x128, .f32⟩
  | .hbm, ⟨48, _⟩ => ⟨S1024x1024x128, .f32⟩
  | .hbm, ⟨49, _⟩ => ⟨S_, .f32⟩
  | .hbm, ⟨50, _⟩ => ⟨S1024x1024x128, .f32⟩
  | .hbm, ⟨51, _⟩ => ⟨S1024x1024x128, .f32⟩
  | .hbm, ⟨52, _⟩ => ⟨S1024x1024x128, .f32⟩
  | .hbm, ⟨53, _⟩ => ⟨S1024x1024x128, .f32⟩
  | .hbm, ⟨54, _⟩ => ⟨S_, .f32⟩
  | .hbm, ⟨55, _⟩ => ⟨S1024x128, .f32⟩
  | .hbm, ⟨56, _⟩ => ⟨S1024x2, .f32⟩
  | .hbm, ⟨57, _⟩ => ⟨S1024x2, .f32⟩
  | .hbm, ⟨58, _⟩ => ⟨S1024x2, .f32⟩
  | .hbm, ⟨59, _⟩ => ⟨S1024x132, .f32⟩
  | .hbm, ⟨60, _⟩ => ⟨S132x64, .f32⟩
  | .hbm, ⟨61, _⟩ => ⟨S1024x64, .f32⟩
  | .hbm, ⟨62, _⟩ => ⟨S1x64, .f32⟩
  | .hbm, ⟨63, _⟩ => ⟨S1024x64, .f32⟩
  | .hbm, ⟨64, _⟩ => ⟨S1024x64, .f32⟩
  | .hbm, ⟨65, _⟩ => ⟨S_, .f32⟩
  | .hbm, ⟨66, _⟩ => ⟨S1024x64, .f32⟩
  | .hbm, ⟨67, _⟩ => ⟨S1024x64, .f32⟩
  | .hbm, ⟨68, _⟩ => ⟨S64x128, .f32⟩
  | .hbm, ⟨69, _⟩ => ⟨S1024x128, .f32⟩
  | .hbm, ⟨70, _⟩ => ⟨S1x128, .f32⟩
  | .hbm, ⟨71, _⟩ => ⟨S1024x128, .f32⟩
  | .hbm, ⟨72, _⟩ => ⟨S1024x128, .f32⟩
  | .hbm, ⟨73, _⟩ => ⟨S_, .f32⟩
  | .hbm, ⟨74, _⟩ => ⟨S1024x128, .f32⟩
  | .hbm, ⟨75, _⟩ => ⟨S1024x128, .f32⟩
  | .hbm, ⟨76, _⟩ => ⟨S128x64, .f32⟩
  | .hbm, ⟨77, _⟩ => ⟨S1024x64, .f32⟩
  | .hbm, ⟨78, _⟩ => ⟨S1x64, .f32⟩
  | .hbm, ⟨79, _⟩ => ⟨S1024x64, .f32⟩
  | .hbm, ⟨80, _⟩ => ⟨S1024x64, .f32⟩
  | .hbm, ⟨81, _⟩ => ⟨S_, .f32⟩
  | .hbm, ⟨82, _⟩ => ⟨S1024x64, .f32⟩
  | .hbm, ⟨83, _⟩ => ⟨S1024x64, .f32⟩
  | .hbm, ⟨84, _⟩ => ⟨S64x4, .f32⟩
  | .hbm, ⟨85, _⟩ => ⟨S1024x4, .f32⟩
  | .hbm, ⟨86, _⟩ => ⟨S1x4, .f32⟩
  | .hbm, ⟨87, _⟩ => ⟨S1024x4, .f32⟩
  | .hbm, ⟨88, _⟩ => ⟨S1024x4, .f32⟩
  | .hbm, ⟨89, _⟩ => ⟨S1024x4, .f32⟩
  | .hbm, ⟨90, _⟩ => ⟨S1024x4, .f32⟩
  | .hbm, ⟨91, _⟩ => ⟨S_, .f32⟩
  | .hbm, ⟨92, _⟩ => ⟨S1024x4, .f32⟩
  | .hbm, ⟨93, _⟩ => ⟨S1024x4, .f32⟩
  | .hbm, ⟨94, _⟩ => ⟨S_, .f32⟩
  | .hbm, ⟨95, _⟩ => ⟨S1024x4, .f32⟩
  | .hbm, ⟨96, _⟩ => ⟨S1024x4, .f32⟩
  | .hbm, ⟨97, _⟩ => ⟨S_, .f32⟩
  | .hbm, ⟨98, _⟩ => ⟨S1024x4, .f32⟩
  | .hbm, ⟨99, _⟩ => ⟨S1024x4, .f32⟩
  | .hbm, ⟨100, _⟩ => ⟨S_, .f32⟩
  | .hbm, ⟨101, _⟩ => ⟨S1024x4, .f32⟩
  | .hbm, ⟨102, _⟩ => ⟨S1024x4, .f32⟩
  | .hbm, ⟨103, _⟩ => ⟨S1024x1, .f32⟩
  | .hbm, ⟨104, _⟩ => ⟨S1024x1, .f32⟩
  | .hbm, ⟨105, _⟩ => ⟨S1024x1, .f32⟩
  | .hbm, ⟨106, _⟩ => ⟨S1024x1, .f32⟩
  | .hbm, ⟨107, _⟩ => ⟨S_, .f32⟩
  | .hbm, ⟨108, _⟩ => ⟨S1024x1, .f32⟩
  | .hbm, ⟨109, _⟩ => ⟨S1024x4, .f32⟩
  | .hbm, ⟨110, _⟩ => ⟨S1024x4, .f32⟩
  | .hbm, ⟨111, _⟩ => ⟨S1024x4, .f32⟩
  | .hbm, ⟨112, _⟩ => ⟨S1024x4, .f32⟩
  | .hbm, ⟨113, _⟩ => ⟨S1024x2, .f32⟩
  | .hbm, ⟨114, _⟩ => ⟨S1024x4, .f32⟩
  | .hbm, ⟨115, _⟩ => ⟨S1024x4, .f32⟩
  | .hbm, ⟨116, _⟩ => ⟨S_, .f32⟩
  | .hbm, ⟨117, _⟩ => ⟨S1024, .f32⟩
  | .hbm, ⟨118, _⟩ => ⟨S1024x1, .f32⟩
  | .hbm, ⟨119, _⟩ => ⟨S1024x4, .f32⟩
  | .hbm, ⟨120, _⟩ => ⟨S_, .f32⟩
  | .hbm, ⟨121, _⟩ => ⟨S1024, .f32⟩
  | .hbm, ⟨122, _⟩ => ⟨S1024x1, .f32⟩
  | .hbm, ⟨123, _⟩ => ⟨S1024x2, .f32⟩
  | _, _ => ⟨S1024x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call1_cst : Ref sig .tc := ⟨.hbm, 42, rfl⟩
abbrev main_call1_v0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call2_cst : Ref sig .tc := ⟨.hbm, 49, rfl⟩
abbrev main_call2_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call3_cst : Ref sig .tc := ⟨.hbm, 65, rfl⟩
abbrev main_call3_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call4_cst : Ref sig .tc := ⟨.hbm, 73, rfl⟩
abbrev main_call4_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_call5_cst : Ref sig .tc := ⟨.hbm, 81, rfl⟩
abbrev main_call5_v0 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_1 : Ref sig .tc := ⟨.hbm, 91, rfl⟩
abbrev main_v60 : Ref sig .tc := ⟨.hbm, 92, rfl⟩
abbrev main_v61 : Ref sig .tc := ⟨.hbm, 93, rfl⟩
abbrev main_cst_2 : Ref sig .tc := ⟨.hbm, 94, rfl⟩
abbrev main_v62 : Ref sig .tc := ⟨.hbm, 95, rfl⟩
abbrev main_v63 : Ref sig .tc := ⟨.hbm, 96, rfl⟩
abbrev main_cst_3 : Ref sig .tc := ⟨.hbm, 97, rfl⟩
abbrev main_v64 : Ref sig .tc := ⟨.hbm, 98, rfl⟩
abbrev main_v65 : Ref sig .tc := ⟨.hbm, 99, rfl⟩
abbrev main_cst_4 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_5 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_6 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_7 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]

class Facts₀ : Prop where
  bcast_S1024x4_S1024x1x4_0_2 : S1024x4.BroadcastsInDim S1024x1x4 (![0, 2] : Fin 2 → Fin S1024x1x4.rank)
  bcast_S1024x4_S1x1024x4_1_2 : S1024x4.BroadcastsInDim S1x1024x4 (![1, 2] : Fin 2 → Fin S1x1024x4.rank)
  bcast_S1024x1x4_S1024x1024x4_0_1_2 : S1024x1x4.BroadcastsInDim S1024x1024x4 (![0, 1, 2] : Fin 3 → Fin S1024x1024x4.rank)
  bcast_S1x1024x4_S1024x1024x4_0_1_2 : S1x1024x4.BroadcastsInDim S1024x1024x4 (![0, 1, 2] : Fin 3 → Fin S1024x1024x4.rank)
  bcast_S_S1024x1024 : S_.BroadcastsInDim S1024x1024 (![] : Fin 0 → Fin S1024x1024.rank)
  bcast_S1024x1024_S1024x1024x1_0_1 : S1024x1024.BroadcastsInDim S1024x1024x1 (![0, 1] : Fin 2 → Fin S1024x1024x1.rank)
  concatenates_S1024x1024x4_S1024x1024x1_S1024x1024x5_d2 : Shape.Concatenates [S1024x1024x4, S1024x1024x1] S1024x1024x5 2
  slices_S1024x1024x5_S1024x1024x2_0_0_0 : S1024x1024x5.Slices ![0, 0, 0] S1024x1024x2
  reducesTo_S1024x1024x2_S1024x1024_d2 : S1024x1024x2.ReducesTo [2] S1024x1024
  h_S_ : 0 < S_.numel
  bcast_S_S1024x1024x1 : S_.BroadcastsInDim S1024x1024x1 (![] : Fin 0 → Fin S1024x1024x1.rank)
  bcast_S64_S1x1x64_2 : S64.BroadcastsInDim S1x1x64 (![2] : Fin 1 → Fin S1x1x64.rank)
  bcast_S1x1x64_S1024x1024x64_0_1_2 : S1x1x64.BroadcastsInDim S1024x1024x64 (![0, 1, 2] : Fin 3 → Fin S1024x1024x64.rank)
  bcast_S_S1024x1024x64 : S_.BroadcastsInDim S1024x1024x64 (![] : Fin 0 → Fin S1024x1024x64.rank)
  bcast_S128_S1x1x128_2 : S128.BroadcastsInDim S1x1x128 (![2] : Fin 1 → Fin S1x1x128.rank)
  bcast_S1x1x128_S1024x1024x128_0_1_2 : S1x1x128.BroadcastsInDim S1024x1024x128 (![0, 1, 2] : Fin 3 → Fin S1024x1024x128.rank)
  bcast_S_S1024x1024x128 : S_.BroadcastsInDim S1024x1024x128 (![] : Fin 0 → Fin S1024x1024x128.rank)
  bcast_S1024x1024x1_S1024x1024x128_0_1_2 : S1024x1024x1.BroadcastsInDim S1024x1024x128 (![0, 1, 2] : Fin 3 → Fin S1024x1024x128.rank)
  reducesTo_S1024x1024x128_S1024x128_d1 : S1024x1024x128.ReducesTo [1] S1024x128
  slices_S1024x4_S1024x2_0_0 : S1024x4.Slices ![0, 0] S1024x2
  slices_S1024x4_S1024x2_0_2 : S1024x4.Slices ![0, 2] S1024x2
  concatenates_S1024x128_S1024x2_S1024x2_S1024x132_d1 : Shape.Concatenates [S1024x128, S1024x2, S1024x2] S1024x132 1
  transposes_S64x132_S132x64_1_0 : S64x132.Transposes [1, 0] S132x64
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  transposes_S128x64_S64x128_1_0 : S128x64.Transposes [1, 0] S64x128
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  transposes_S64x128_S128x64_1_0 : S64x128.Transposes [1, 0] S128x64
  transposes_S4x64_S64x4_1_0 : S4x64.Transposes [1, 0] S64x4
  bcast_S4_S1x4_1 : S4.BroadcastsInDim S1x4 (![1] : Fin 1 → Fin S1x4.rank)
  bcast_S1x4_S1024x4_0_1 : S1x4.BroadcastsInDim S1024x4 (![0, 1] : Fin 2 → Fin S1024x4.rank)
  bcast_S_S1024x4 : S_.BroadcastsInDim S1024x4 (![] : Fin 0 → Fin S1024x4.rank)
  slices_S1024x4_S1024x1_0_0 : S1024x4.Slices ![0, 0] S1024x1
  slices_S1024x4_S1024x1_0_1 : S1024x4.Slices ![0, 1] S1024x1
  slices_S1024x4_S1024x1_0_2 : S1024x4.Slices ![0, 2] S1024x1
  slices_S1024x4_S1024x1_0_3 : S1024x4.Slices ![0, 3] S1024x1
  bcast_S_S1024x1 : S_.BroadcastsInDim S1024x1 (![] : Fin 0 → Fin S1024x1.rank)
  concatenates_S1024x1_S1024x1_S1024x1_S1024x1_S1024x4_d1 : Shape.Concatenates [S1024x1, S1024x1, S1024x1, S1024x1] S1024x4 1
  concatenates_S1024x2_S1024x2_S1024x4_d1 : Shape.Concatenates [S1024x2, S1024x2] S1024x4 1
  reducesTo_S1024x4_S1024_d1 : S1024x4.ReducesTo [1] S1024
  bcast_S1024_S1024x1_0 : S1024.BroadcastsInDim S1024x1 (![0] : Fin 1 → Fin S1024x1.rank)
  concatenates_S1024x1_S1024x1_S1024x2_d1 : Shape.Concatenates [S1024x1, S1024x1] S1024x2 1
  dot_S1024x1024x5_S64x5_S1024x1024x64_2_1_01_0_n_n_wf : DotDims.WF S1024x1024x5 S64x5 S1024x1024x64 [2] [1] [0, 1] [0] [] []
  dot_S1024x1024x64_S128x64_S1024x1024x128_2_1_01_0_n_n_wf : DotDims.WF S1024x1024x64 S128x64 S1024x1024x128 [2] [1] [0, 1] [0] [] []
  dot_S1024x132_S132x64_S1024x64_1_0_0_1_n_n_wf : DotDims.WF S1024x132 S132x64 S1024x64 [1] [0] [0] [1] [] []
  dot_S1024x64_S64x128_S1024x128_1_0_0_1_n_n_wf : DotDims.WF S1024x64 S64x128 S1024x128 [1] [0] [0] [1] [] []
  dot_S1024x128_S128x64_S1024x64_1_0_0_1_n_n_wf : DotDims.WF S1024x128 S128x64 S1024x64 [1] [0] [0] [1] [] []
  dot_S1024x64_S64x4_S1024x4_1_0_0_1_n_n_wf : DotDims.WF S1024x64 S64x4 S1024x4 [1] [0] [0] [1] [] []

variable [Facts₀]

def dot_S1024x1024x5_S64x5_S1024x1024x64_2_1_01_0_n_n : DotDims S1024x1024x5 S64x5 S1024x1024x64 where
  lhsContracting := [2]
  rhsContracting := [1]
  lhsNonContracting := [0, 1]
  rhsNonContracting := [0]
  lhsBatch := []
  rhsBatch := []
  wf := dot_S1024x1024x5_S64x5_S1024x1024x64_2_1_01_0_n_n_wf
def dot_S1024x1024x64_S128x64_S1024x1024x128_2_1_01_0_n_n : DotDims S1024x1024x64 S128x64 S1024x1024x128 where
  lhsContracting := [2]
  rhsContracting := [1]
  lhsNonContracting := [0, 1]
  rhsNonContracting := [0]
  lhsBatch := []
  rhsBatch := []
  wf := dot_S1024x1024x64_S128x64_S1024x1024x128_2_1_01_0_n_n_wf
def dot_S1024x132_S132x64_S1024x64_1_0_0_1_n_n : DotDims S1024x132 S132x64 S1024x64 where
  lhsContracting := [1]
  rhsContracting := [0]
  lhsNonContracting := [0]
  rhsNonContracting := [1]
  lhsBatch := []
  rhsBatch := []
  wf := dot_S1024x132_S132x64_S1024x64_1_0_0_1_n_n_wf
def dot_S1024x64_S64x128_S1024x128_1_0_0_1_n_n : DotDims S1024x64 S64x128 S1024x128 where
  lhsContracting := [1]
  rhsContracting := [0]
  lhsNonContracting := [0]
  rhsNonContracting := [1]
  lhsBatch := []
  rhsBatch := []
  wf := dot_S1024x64_S64x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x4_S1024x4_1_0_0_1_n_n : DotDims S1024x64 S64x4 S1024x4 where
  lhsContracting := [1]
  rhsContracting := [0]
  lhsNonContracting := [0]
  rhsNonContracting := [1]
  lhsBatch := []
  rhsBatch := []
  wf := dot_S1024x64_S64x4_S1024x4_1_0_0_1_n_n_wf

class Facts : Prop extends Facts₀ where

variable [Facts]
-- ==== Proof.FrameDefsW.lean ====
/-
  The frame of the one region, first part: what the later modules are stated over. The region is entered with every
  buffer at its launch contents (no host operation precedes it). Each of the fifteen input windows holds, at every
  grid point, the block of its array that the window's index map selects there, whether or not the point fetched it
  (an unfetched window's index has not moved). The body branches twice on the second grid coordinate j: the
  accumulator is reset where j = 0, and the head of the network is evaluated and the output block stored where j = 15;
  both conditions are decided over the 8 × 16 grid in closed form. The output window is idle, and not written back,
  at every point with j ≠ 15.
-/
import proofs.«105093_j86131274154571_1_alg».proof.Proof.Gen.Kernel.Launch
import proofs.«105093_j86131274154571_1_alg».proof.Proof.Gen.Kernel.Skeleton
import proofs.«105093_j86131274154571_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The buffers' contents when the region is entered: the launch contents. -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data over the entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, for any proof data over the entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, for any proof data over the entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, for any proof data over the entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, for any proof data over the entry contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, for any proof data over the entry contents whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block at every point, for any proof data over the entry contents whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block at every point, for any proof data over the entry contents whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block at every point, for any proof data over the entry contents whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block at every point, for any proof data over the entry contents whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The accumulator is reset: the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The head is evaluated and the output stored: the second grid coordinate is the last, 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
/-- Where j = 0 the body stores nothing into the output window, and its block is not written back there. -/
theorem idleAt0_15_A : ∀ t : Fin cfg0.N, cond0_0 (grid0.coords t) → ¬cond0_1 (grid0.coords t) → cfg0.idle 15 (grid0.coords t) = true := by decide +kernel
theorem noFlush0_15_A : ∀ t : Fin cfg0.N, cond0_0 (grid0.coords t) → ¬cond0_1 (grid0.coords t) → (cfg0.win 15).flush t = false := by decide +kernel
/-- The same where 0 < j < 15. -/
theorem idleAt0_15_B : ∀ t : Fin cfg0.N, ¬cond0_0 (grid0.coords t) → ¬cond0_1 (grid0.coords t) → cfg0.idle 15 (grid0.coords t) = true := by decide +kernel
theorem noFlush0_15_B : ∀ t : Fin cfg0.N, ¬cond0_0 (grid0.coords t) → ¬cond0_1 (grid0.coords t) → (cfg0.win 15).flush t = false := by decide +kernel
/-- Where j = 15 the output window is live. -/
theorem liveAt0_15_C : ∀ t : Fin cfg0.N, ¬cond0_0 (grid0.coords t) → cond0_1 (grid0.coords t) → cfg0.idle 15 (grid0.coords t) = false := by decide +kernel

/-! ## The staging memrefs at a point, the scratch, and the class invariant -/

/-- One staging buffer of the output window, through which its contents are stated. -/
abbrev VO0_15 : View sig .tc .vmem S128x2 .f32 := (Memref.whole cc0_stg15_0 : Memref sig .tc .vmem S128x2 .f32).view
abbrev ms0_0 (t : Fin cfg0.N) : Memref sig .tc .vmem S128x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x132 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x2 .f32 := win0_15.stage (cfg0.slots t 15)
abbrev hs0_15 (t : Fin cfg0.N) : (ms0_15 t).IsWhole := hstage0_15 ((cfg0.slots t 15).cast nbuf0_15)
/-- The scratch accumulator: a whole scoped buffer of the kernel's own, carried from point to point. -/
abbrev scM0_0 : Memref sig .tc .vmem S128x128 .f32 := Memref.whole cc0_scratch0
abbrev VS0_0 : View sig .tc .vmem S128x128 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.FrameRunAW.lean ====
/-
  The body's run where j = 0 (the accumulator is reset first; the output window is left untouched).
  On whole staging memrefs — each input's at its contents, the output's at contents handed back untouched, the scratch at anything — the body runs to its
  end holding the inputs' as they were, and the scratch with the stored pieces written. The stored pieces are found by
  running the body; they are the first components of the result.
-/
import proofs.«105093_j86131274154571_1_alg».proof.Proof.FrameDefsW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) :
    Σ' (L15 : List (View.Piece (Elt F) S128x2 .f32)), { LS0 : List (View.Piece (Elt F) S128x128 .f32) //
      ∀ (xi15 : Vec F S128x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi15 E K => ?run⟩
  case run =>
    haveI : Fact (cond0_0 i) := ⟨hc0⟩
    haveI : Fact (¬cond0_1 i) := ⟨hc1⟩
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15;
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.Kernel.Frm

end
-- ==== Proof.FrameRunBW.lean ====
/-
  The body's run where 0 < j < 15 (no reset; the output window is left untouched).
  On whole staging memrefs — each input's at its contents, the output's at contents handed back untouched, the scratch at the contents the point before left — the body runs to its
  end holding the inputs' as they were, and the scratch with the stored pieces written. The stored pieces are found by
  running the body; they are the first components of the result.
-/
import proofs.«105093_j86131274154571_1_alg».proof.Proof.FrameRunAW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    Σ' (L15 : List (View.Piece (Elt F) S128x2 .f32)), { LS0 : List (View.Piece (Elt F) S128x128 .f32) //
      ∀ (xi15 : Vec F S128x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi15 E K => ?run⟩
  case run =>
    haveI : Fact (¬cond0_0 i) := ⟨hc0⟩
    haveI : Fact (¬cond0_1 i) := ⟨hc1⟩
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.Kernel.Frm

end
-- ==== Proof.FrameRunCW.lean ====
/-
  The body's run where j = 15 (no reset; the head is evaluated and the output block stored).
  On whole staging memrefs — each input's at its contents, the output's at anything, the scratch at the contents the point before left — the body runs to its
  end holding the inputs' as they were, the output's buffer with the stored pieces written, and the scratch with the stored pieces written. The stored pieces are found by
  running the body; they are the first components of the result.
-/
import proofs.«105093_j86131274154571_1_alg».proof.Proof.FrameRunBW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    Σ' (L15 : List (View.Piece (Elt F) S128x2 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    haveI : Fact (¬cond0_0 i) := ⟨hc0⟩
    haveI : Fact (cond0_1 i) := ⟨hc1⟩
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; iexact HS0

end Cert.Kernel.Frm

end
-- ==== Proof.FrameBodyW.lean ====
/-
  The frame of the one region, the proof data and the body obligation. After the body at grid point t each input
  window's buffer holds its block; the output window's buffer and the scratch accumulator hold what the case of
  the point (j = 0, 0 < j < 15, j = 15) leaves, the accumulator read from what the point before left: a recursion on
  the point. The invariant between points is the accumulator at that contents and the generator register at some state.
-/
import proofs.«105093_j86131274154571_1_alg».proof.Proof.FrameRunCW

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the case j = 0 leaves in the output window's buffer (nothing is stored: a placeholder nothing consults). -/
def out0_A_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) : Vec F S128x2 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).1)

/-- Where j = 0 the stored pieces of the accumulator tile it. -/
theorem scover0_A_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).2.1 S128x128.size (by sl_kernel_rfl) y

/-- What the case j = 0 leaves in the accumulator. -/
def sout0_A_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).2.1)

/-- What the case 0 < j < 15 leaves in the output window's buffer (nothing is stored: a placeholder nothing consults). -/
def out0_B_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x2 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1)

/-- Where 0 < j < 15 the stored pieces of the accumulator tile it. -/
theorem scover0_B_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1 S128x128.size (by sl_kernel_rfl) y

/-- What the case 0 < j < 15 leaves in the accumulator. -/
def sout0_B_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1)

/-- Where j = 15 the stored pieces of the output window tile its block. -/
theorem cover0_C_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) (y : S128x2.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1 S128x2.size (by sl_kernel_rfl) y

/-- What the case j = 15 leaves in the output window's buffer. -/
def out0_C_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x2 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1)

/-- Where j = 15 the stored pieces of the accumulator tile it. -/
theorem scover0_C_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) (y : S128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1 S128x128.size (by sl_kernel_rfl) y

/-- What the case j = 15 leaves in the accumulator. -/
def sout0_C_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1)

/-! ## What the output window and the accumulator hold after each point -/

/-- After the body at position `n`: the output window's buffer and the accumulator, by recursion on the point. -/
def outsAt0 (c : Dev nD) : (n : ℕ) → n < cfg0.N → Vec F S128x2 .f32 × Vec F S128x128 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 16 = 0 then
      if h1 : (n + 1) % 16 = 15 then
        False.elim (by omega)
      else
        (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 16 = 15 then
        (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2)
      else
        (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data of the pipeline on core `c`: the arrays as the region finds them; after the body at point `t` each
    input's buffer at its block, the output's at `outsAt0`; the invariant `PhiS`; nothing owed. The array read by the
    two windows 0 and 1 is held half and half; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨_ + 16, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 16000000 in
/-- The body at any point: the inputs' buffers hold their blocks; the closed forms of the two conditions say which case
    the point is in, and that case's run applies; the invariant hands the body the accumulator at what the point before
    left (at anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      rw [Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS0]; · iexact HS0
        iintro ⟨H0, H1, H2, H3, H4, H5, H6, H7, H8, H9, H10, H11, H12, H13, H14, H15, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS0]; · iexists _; iexact HS0
        iintro ⟨H0, H1, H2, H3, H4, H5, H6, H7, H8, H9, H10, H11, H12, H13, H14, H15, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      rw [show (dats m 0 c).leavesExact 15 t = owns (c : Thread nD τ) (ms0_15 t) fullShare ((dats m 0 c).after 15 t) from by
        unfold Dat.leavesExact; rw [liveAt0_15_C t (fun h => h0 ((hcond0_0 t).mp h)) ((hcond0_1 t).mpr h1)], after0_15]
      rw [outsAt0_C m c t h0 h1]
      unfold out0_C_15 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS0]; · iexact HS0
        iintro ⟨H0, H1, H2, H3, H4, H5, H6, H7, H8, H9, H10, H11, H12, H13, H14, ⟨%e15, H15⟩, ⟨%es0, HS0⟩⟩
        isplitl [HS0 Hg]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        unfold owns; iexists _; isplitr
        swap; · iexact H15
        ipureintro; exact View.read_writes_of_cover _ _ _ _ _ (cover0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      rw [Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS0]; · iexact HS0
        iintro ⟨H0, H1, H2, H3, H4, H5, H6, H7, H8, H9, H10, H11, H12, H13, H14, H15, ⟨%es0, HS0⟩⟩
        isplitl [HS0 Hg]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

end Cert.Kernel.Frm

end
-- ==== Proof.LibSharedFrame.lean ====
/-
  The frame run of a pipeline kernel whose windows may SHARE ARRAYS (one array handed to the kernel through
  several input windows), for a body that carries a scratch buffer between grid points.

  The library's frame run with a tracking invariant takes the layout bundled with the windows' arrays pairwise
  distinct, and uses that distinctness in one place only: to turn the buffers behind the arrays, each whole at the
  full share, into the proof data's arrays at entry. Here that entailment is an argument (`hsplit`), and the layout
  is given by its fields with the distinctness left out.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

/-- A buffer held at the full share is the same buffer held twice, at the left and at the right half of the full
    share, at the same contents (on any set of elements `I`). -/
theorem pointsTo_fullShare_halves {Ix : Type} [DecidableEq Ix] {Name : Type} [DecidableEq Name] {U : Type} [URA U] {Lvl : Type}
    (ℓ : Loc nD τ sig) (I : Finset (Idx ℓ)) (f : Buf Val ℓ) :
    (ℓ ↦[I]{fullShare} f : sProp (MT nD τ sig Ix Val Name U Lvl))
      ⊣⊢ iprop((ℓ ↦[I]{fullShare.left} f) ∗ ℓ ↦[I]{fullShare.right} f) :=
  pointsTo_share (PosShare.mem_left_op_right fullShare)

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (hinj : Function.Injective (cellOf (nD := nD) (τ := τ) cfgs))
  (hw : WinFacts₀ (cfgs p).spec)
  (hne : ∀ w : Fin (cfgs p).W, 0 < ((cfgs p).spec w).block.numel)
  (harr : ∀ w : Fin (cfgs p).W, ((cfgs p).spec w).arr.IsWhole)
  (hstage : ∀ (w : Fin (cfgs p).W) (s : Fin ((cfgs p).spec w).nbuf), (((cfgs p).spec w).stage s).IsWhole)
  (defs₀ : Defs nD τ sig Val Λ₀) (𝒱₀ : Variants)

local notation "cfg" => cfgs p
local notation "𝔻" => Pipeline.defs (fun q => Cfg.toPCfg (Val := Val) (cfgs q)) defs₀

include hinj hw hne harr hstage in
/-- THE FRAME RUN with a TRACKING invariant for a kernel whose windows may SHARE ARRAYS. As the library's
    `θ_run_frame_track`: one region on a static grid, no semaphore or transfer of the kernel's own, the proof data's
    `Φ` any invariant stated point by point (what the body carries in its scratch), entered from the class invariant
    `ΦA` before point 0 (`hin`) and returned to it after the last point (`hout`). In place of the bundled layout it
    takes the layout's fields without the arrays' distinctness (`hinj`: the staging cells pairwise distinct; `hw`:
    arrays unscoped, staging buffers and semaphores scoped and distinct; `hne`: no block empty; `harr`, `hstage`:
    every array and staging memref a whole buffer), and in place of "every window holds its array at the full share,
    at the entry contents" the entailment `hsplit`: the DISTINCT buffers behind the arrays, each whole at the full share
    at the region-entry contents `V c`, yield the proof data's arrays at entry — an array read through several input
    windows dealt among them by shares the data's `q` names. Concludes `FramePost`: every window's array holds the
    data's `arrAt w N` (windows on one array read the same final contents), every bypassing buffer its entry contents. -/
theorem θ_run_frame_track_shared
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, ΦA (cfg).spec c ⊢ (dats p c).Φ 0) (hout : ∀ c, (dats p c).Φ (Fin.last (cfg).N) ⊢ ΦA (cfg).spec c) :
    θ_run 𝔻 (onTc main) (s₀ m g) (FramePost cfgs dats p V) := by
  classical
  exact θ_run_region_pf (fun q => (cfgs q).toPCfg (Val := Val)) (fun q => (cfgs q).toPCfg_adm) dats () hinj p hw
    (OwnSemFacts.none (cfg).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfg).spec c (V c))
    (hX := fun c => by
      rw [unscopedRestP_none]
      iintro ⟨HU, -, -, -, Hp, -⟩; imodintro
      isplitl [Hp]; · iexists _; iexact Hp
      iexact HU)
    (hin := fun c => (show _ ⊢ ΦA (cfg).spec c by
        unfold ΦA; iintro ⟨Hp, -, Hr⟩
        isplitl [Hr] <;> iassumption).trans (hin c))
    (hout := fun c => (hout c).trans (by
        rw [ownSems0_none]; unfold ΦA
        iintro ⟨Hr, Hp⟩
        isplitl [Hp]; · iexact Hp
        isplitr; · iempintro
        iexact Hr))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2.2⟩)

end SharedFrame

end Pipeline

end Idealize.ShloMosaic

end
-- ==== Proof.SharedSplitBits.lean ====
/-
  The launch's split of the arrays for a pipeline in which windows 0 and 1 read ONE array (the first operand
  passed twice): the fifteen distinct buffers behind the sixteen windows' arrays, each whole at the full share, yield
  the proof data's arrays at entry when window 0 holds the shared array at the left half of the full share, window 1
  at the right half, and every other window its own array at the full share.
-/
import proofs.«105093_j86131274154571_1_alg».proof.Proof.Gen.Kernel.Launch
import proofs.«105093_j86131274154571_1_alg».proof.Proof.LibSharedFrame

set_option maxRecDepth 2560

noncomputable section

namespace Cert.Kernel

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- The buffers behind the windows' arrays are the fifteen operands and the result, listed: the first operand once,
    though two windows read it. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0)
        ∗ (((c.tc : Thread nD τ).loc main_arg1) ↦{fullShare} V main_arg1)
        ∗ (((c.tc : Thread nD τ).loc main_arg2) ↦{fullShare} V main_arg2)
        ∗ (((c.tc : Thread nD τ).loc main_arg3) ↦{fullShare} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_arg12) ↦{fullShare} V main_arg12)
        ∗ (((c.tc : Thread nD τ).loc main_arg13) ↦{fullShare} V main_arg13)
        ∗ (((c.tc : Thread nD τ).loc main_v0) ↦{fullShare} V main_v0)) := by
  unfold Pipeline.arrBufs
  exact bigSep_eq_bigSepL_of_eq [main_arg0, main_arg1, main_arg2, main_arg3, main_arg4, main_arg5, main_arg6, main_arg7, main_arg8, main_arg9, main_arg10, main_arg11, main_arg12, main_arg13, main_v0] (by decide) (by decide) _

section Split

variable {c : Dev nD} (dat : Pipeline.Dat τ (Elt F) Unit ℕ (UR sig nD τ) ℕ cfg0 c)
  (V : (b : Ref sig .tc) → Buf (Elt F) ((c.tc : Thread nD τ).loc b))

/-- A window's share from the data's `q`: an input window holds `q w`; an output window the full share. -/
theorem share_of_q (w : Fin 16) (q : PosShare TreeShare) (h : dat.q w = q) (ho : (cfg0.win w).isOut = true → q = fullShare) :
    dat.share w = q := by
  unfold Pipeline.Dat.share; split
  · exact (ho ‹_›).symm
  · exact h

/-- One window's conjunct of the data's arrays at entry: its array's buffer, whole, at the window's share, at the
    region-entry contents. -/
theorem win_eq (hA : ∀ w, dat.A w = V (Pipeline.arrRef spec0 w)) (w : Fin 16) (b : Ref sig .tc) (hb : Pipeline.arrRef spec0 w = b)
    (q : PosShare TreeShare) (hs : dat.share w = q) :
    (((cfg0.win w).arr.view.loc (c.tc : Thread nD τ)) ↦[(cfg0.win w).arr.view.set]{dat.share w} dat.arrAt w 0 : sProp 𝕄)
      = (((c.tc : Thread nD τ).loc b) ↦{q} V b) := by
  subst hb
  rw [(Gen.arr_whole0 w).set_eq_univ, hs, show dat.arrAt w 0 = dat.A w from rfl, hA w]

/-- THE SPLIT at the region's entry, for any proof datum whose `q` deals the shared first operand by halves — window 0
    the left half of the full share, window 1 the right half — and gives every other window the full share, and whose
    entry arrays are the region-entry contents `V`: the fifteen buffers behind the arrays, each whole at the full share
    at `V`, yield the datum's arrays at entry. The first operand's points-to is split along the share; every other
    window takes its own buffer whole. -/
theorem arrays_split_shared (hq0 : dat.q 0 = fullShare.left) (hq1 : dat.q 1 = fullShare.right)
    (hq : ∀ w, w ≠ 0 → w ≠ 1 → dat.q w = fullShare) (hA : ∀ w, dat.A w = V (Pipeline.arrRef spec0 w)) :
    (Pipeline.arrBufs (Ix := Unit) (Name := ℕ) (U := UR sig nD τ) (Lvl := ℕ) spec0 c V : sProp 𝕄)
      ⊢ dat.arrays (dat.arrAt · 0) := by
  have hs0 : dat.share 0 = fullShare.left := share_of_q dat 0 _ hq0 (fun h => absurd h (by decide))
  have hs1 : dat.share 1 = fullShare.right := share_of_q dat 1 _ hq1 (fun h => absurd h (by decide))
  have hs : ∀ w : Fin 16, w ≠ 0 → w ≠ 1 → dat.share w = fullShare := fun w h0 h1 =>
    share_of_q dat w _ (hq w h0 h1) (fun _ => rfl)
  rw [arrBufs0_eq]
  unfold Pipeline.Dat.arrays
  rw [Gen.bigSep_W0,
    win_eq dat V hA 0 main_arg0 rfl _ hs0,
    win_eq dat V hA 1 main_arg0 rfl _ hs1,
    win_eq dat V hA 2 main_arg1 rfl _ (hs 2 (by decide) (by decide)),
    win_eq dat V hA 3 main_arg2 rfl _ (hs 3 (by decide) (by decide)),
    win_eq dat V hA 4 main_arg3 rfl _ (hs 4 (by decide) (by decide)),
    win_eq dat V hA 5 main_arg4 rfl _ (hs 5 (by decide) (by decide)),
    win_eq dat V hA 6 main_arg5 rfl _ (hs 6 (by decide) (by decide)),
    win_eq dat V hA 7 main_arg6 rfl _ (hs 7 (by decide) (by decide)),
    win_eq dat V hA 8 main_arg7 rfl _ (hs 8 (by decide) (by decide)),
    win_eq dat V hA 9 main_arg8 rfl _ (hs 9 (by decide) (by decide)),
    win_eq dat V hA 10 main_arg9 rfl _ (hs 10 (by decide) (by decide)),
    win_eq dat V hA 11 main_arg10 rfl _ (hs 11 (by decide) (by decide)),
    win_eq dat V hA 12 main_arg11 rfl _ (hs 12 (by decide) (by decide)),
    win_eq dat V hA 13 main_arg12 rfl _ (hs 13 (by decide) (by decide)),
    win_eq dat V hA 14 main_arg13 rfl _ (hs 14 (by decide) (by decide)),
    win_eq dat V hA 15 main_v0 rfl _ (hs 15 (by decide) (by decide))]
  iintro ⟨H0, H1, H2, H3, H4, H5, H6, H7, H8, H9, H10, H11, H12, H13, H14⟩
  ihave H := (Idealize.ShloMosaic.pointsTo_fullShare_halves _ _ _).1 $$ H0
  icases H with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Split

end Cert.Kernel

end
-- ==== Proof.FrameRunW.lean ====
/-
  The frame of the one region: the launch. The two windows that read the first operand hold it half and half; with
  that split the region runs from its entry to its end, every array ending at what the proof data compute — an
  input array at its entry contents, the output array at its entry contents overwritten block by block by what the body
  left at each write-back.
-/
import proofs.«105093_j86131274154571_1_alg».proof.Proof.FrameBodyW
import proofs.«105093_j86131274154571_1_alg».proof.Proof.LibSharedFrame
import proofs.«105093_j86131274154571_1_alg».proof.Proof.SharedSplitBits

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The split of the arrays' buffers among the windows at the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_split_shared (dats m 0 c) (V m c) rfl rfl (fun w h0 h1 => by
    match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    | ⟨5, _⟩, _, _ => rfl
    | ⟨6, _⟩, _, _ => rfl
    | ⟨7, _⟩, _, _ => rfl
    | ⟨8, _⟩, _, _ => rfl
    | ⟨9, _⟩, _, _ => rfl
    | ⟨10, _⟩, _, _ => rfl
    | ⟨11, _⟩, _, _ => rfl
    | ⟨12, _⟩, _, _ => rfl
    | ⟨13, _⟩, _, _ => rfl
    | ⟨14, _⟩, _, _ => rfl
    | ⟨15, _⟩, _, _ => rfl
    | ⟨_ + 16, h⟩, _, _ => exact absurd h (Nat.not_lt.2 (Nat.le_add_left _ _))) (A_eq m c)

set_option backward.isDefEq.respectTransparency.types false in
/-- From any memory with zero counters every weakly fair execution terminates, and every final state has every array of
    the pipeline at what the library computes from the proof data. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The frame: the program runs to its end and its fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14))⟩) (run_main m ρ)

/-- The same run with the result array named: it ends at what the library computes for the output window. -/
theorem run_result : θ_run defs (onTc (τ := τ) (main (F := F))) ⟨m, fun _ => 0, ρ⟩ (fun r => ∀ c : Dev nD,
      r.2.mem ((c.tc : Thread nD τ).loc main_v0) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 15, ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14))⟩) (run_main m ρ)

end Cert.Kernel.Frm

end
-- ==== Proof.FrameDefs.lean ====
/-
  The frame of the one region, first part: what the later modules are stated over. The region is entered with every
  buffer at its launch contents (no host operation precedes it). Each of the fifteen input windows holds, at every
  grid point, the block of its array that the window's index map selects there, whether or not the point fetched it
  (an unfetched window's index has not moved). The body branches twice on the second grid coordinate j: the
  accumulator is reset where j = 0, and the head of the network is evaluated and the output block stored where j = 15;
  both conditions are decided over the 8 × 16 grid in closed form. The output window is idle, and not written back,
  at every point with j ≠ 15.
-/
import proofs.«105093_j86131274154571_1_alg».proof.Proof.Gen.KernelIdeal.Launch
import proofs.«105093_j86131274154571_1_alg».proof.Proof.Gen.KernelIdeal.Skeleton
import proofs.«105093_j86131274154571_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The buffers' contents when the region is entered: the launch contents. -/
abbrev V (c : Dev nD) (b : Ref sig .tc) : Buf (Elt F) ((c : Thread nD τ).loc b) := m ((c : Thread nD τ).loc b)

/-- The program is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main (fun c => rfl)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, for any proof data over the entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, for any proof data over the entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, for any proof data over the entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, for any proof data over the entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, for any proof data over the entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, for any proof data over the entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, for any proof data over the entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, for any proof data over the entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, for any proof data over the entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's staging buffer holds its block at every point, for any proof data over the entry contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's staging buffer holds its block at every point, for any proof data over the entry contents whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's staging buffer holds its block at every point, for any proof data over the entry contents whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's staging buffer holds its block at every point, for any proof data over the entry contents whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's staging buffer holds its block at every point, for any proof data over the entry contents whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's staging buffer holds its block at every point, for any proof data over the entry contents whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions -/

/-- The accumulator is reset: the second grid coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)

/-- The head is evaluated and the output stored: the second grid coordinate is the last, 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
/-- Where j = 0 the body stores nothing into the output window, and its block is not written back there. -/
theorem idleAt0_15_A : ∀ t : Fin cfg0.N, cond0_0 (grid0.coords t) → ¬cond0_1 (grid0.coords t) → cfg0.idle 15 (grid0.coords t) = true := by decide +kernel
theorem noFlush0_15_A : ∀ t : Fin cfg0.N, cond0_0 (grid0.coords t) → ¬cond0_1 (grid0.coords t) → (cfg0.win 15).flush t = false := by decide +kernel
/-- The same where 0 < j < 15. -/
theorem idleAt0_15_B : ∀ t : Fin cfg0.N, ¬cond0_0 (grid0.coords t) → ¬cond0_1 (grid0.coords t) → cfg0.idle 15 (grid0.coords t) = true := by decide +kernel
theorem noFlush0_15_B : ∀ t : Fin cfg0.N, ¬cond0_0 (grid0.coords t) → ¬cond0_1 (grid0.coords t) → (cfg0.win 15).flush t = false := by decide +kernel
/-- Where j = 15 the output window is live. -/
theorem liveAt0_15_C : ∀ t : Fin cfg0.N, ¬cond0_0 (grid0.coords t) → cond0_1 (grid0.coords t) → cfg0.idle 15 (grid0.coords t) = false := by decide +kernel

/-! ## The staging memrefs at a point, the scratch, and the class invariant -/

/-- One staging buffer of the output window, through which its contents are stated. -/
abbrev VO0_15 : View sig .tc .vmem S128x2 .f32 := (Memref.whole cc0_stg15_0 : Memref sig .tc .vmem S128x2 .f32).view
abbrev ms0_0 (t : Fin cfg0.N) : Memref sig .tc .vmem S128x4 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x5 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x132 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S64x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S4x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x2 .f32 := win0_15.stage (cfg0.slots t 15)
abbrev hs0_15 (t : Fin cfg0.N) : (ms0_15 t).IsWhole := hstage0_15 ((cfg0.slots t 15).cast nbuf0_15)
/-- The scratch accumulator: a whole scoped buffer of the kernel's own, carried from point to point. -/
abbrev scM0_0 : Memref sig .tc .vmem S128x128 .f32 := Memref.whole cc0_scratch0
abbrev VS0_0 : View sig .tc .vmem S128x128 .f32 := scM0_0.view

/-- The class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.FrameRunA.lean ====
/-
  The body's run where j = 0 (the accumulator is reset first; the output window is left untouched).
  On whole staging memrefs — each input's at its contents, the output's at contents handed back untouched, the scratch at anything — the body runs to its
  end holding the inputs' as they were, and the scratch with the stored pieces written. The stored pieces are found by
  running the body; they are the first components of the result.
-/
import proofs.«105093_j86131274154571_1_alg».proof.Proof.FrameDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) :
    Σ' (L15 : List (View.Piece (Elt F) S128x2 .f32)), { LS0 : List (View.Piece (Elt F) S128x128 .f32) //
      ∀ (xi15 : Vec F S128x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi15 E K => ?run⟩
  case run =>
    haveI : Fact (cond0_0 i) := ⟨hc0⟩
    haveI : Fact (¬cond0_1 i) := ⟨hc1⟩
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15;
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.KernelIdeal.Frm

end
-- ==== Proof.FrameRunB.lean ====
/-
  The body's run where 0 < j < 15 (no reset; the output window is left untouched).
  On whole staging memrefs — each input's at its contents, the output's at contents handed back untouched, the scratch at the contents the point before left — the body runs to its
  end holding the inputs' as they were, and the scratch with the stored pieces written. The stored pieces are found by
  running the body; they are the first components of the result.
-/
import proofs.«105093_j86131274154571_1_alg».proof.Proof.FrameRunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    Σ' (L15 : List (View.Piece (Elt F) S128x2 .f32)), { LS0 : List (View.Piece (Elt F) S128x128 .f32) //
      ∀ (xi15 : Vec F S128x2 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare xi15 ∗ (∃ f, arg18.view.loc (c : Thread nD τ) ↦[arg18.view.set]{fullShare} arg18.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi15 E K => ?run⟩
  case run =>
    haveI : Fact (¬cond0_0 i) := ⟨hc0⟩
    haveI : Fact (¬cond0_1 i) := ⟨hc1⟩
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    iexists _; iexact HS0

end Cert.KernelIdeal.Frm

end
-- ==== Proof.FrameRunC.lean ====
/-
  The body's run where j = 15 (no reset; the head is evaluated and the output block stored).
  On whole staging memrefs — each input's at its contents, the output's at anything, the scratch at the contents the point before left — the body runs to its
  end holding the inputs' as they were, the output's buffer with the stored pieces written, and the scratch with the stored pieces written. The stored pieces are found by
  running the body; they are the first components of the result.
-/
import proofs.«105093_j86131274154571_1_alg».proof.Proof.FrameRunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    Σ' (L15 : List (View.Piece (Elt F) S128x2 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ owns (c : Thread nD τ) arg18 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    haveI : Fact (¬cond0_0 i) := ⟨hc0⟩
    haveI : Fact (cond0_1 i) := ⟨hc1⟩
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg18.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    iexists _; iexact HS0

end Cert.KernelIdeal.Frm

end
-- ==== Proof.FrameBody.lean ====
/-
  The frame of the one region, the proof data and the body obligation. After the body at grid point t each input
  window's buffer holds its block; the output window's buffer and the scratch accumulator hold what the case of
  the point (j = 0, 0 < j < 15, j = 15) leaves, the accumulator read from what the point before left: a recursion on
  the point. The invariant between points is the accumulator at that contents and the generator register at some state.
-/
import proofs.«105093_j86131274154571_1_alg».proof.Proof.FrameRunC

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the case j = 0 leaves in the output window's buffer (nothing is stored: a placeholder nothing consults). -/
def out0_A_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) : Vec F S128x2 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).1)

/-- Where j = 0 the stored pieces of the accumulator tile it. -/
theorem scover0_A_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (y : S128x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).2.1 S128x128.size (by sl_kernel_rfl) y

/-- What the case j = 0 leaves in the accumulator. -/
def sout0_A_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) : Vec F S128x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14).2.1)

/-- What the case 0 < j < 15 leaves in the output window's buffer (nothing is stored: a placeholder nothing consults). -/
def out0_B_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x2 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1)

/-- Where 0 < j < 15 the stored pieces of the accumulator tile it. -/
theorem scover0_B_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) (y : S128x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1 S128x128.size (by sl_kernel_rfl) y

/-- What the case 0 < j < 15 leaves in the accumulator. -/
def sout0_B_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x128 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1)

/-- Where j = 15 the stored pieces of the output window tile its block. -/
theorem cover0_C_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) (y : S128x2.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1 S128x2.size (by sl_kernel_rfl) y

/-- What the case j = 15 leaves in the output window's buffer. -/
def out0_C_15 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x2 .f32 :=
  VO0_15.read (Elt F) (VO0_15.writes (Elt F) VO0_15.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).1)

/-- Where j = 15 the stored pieces of the accumulator tile it. -/
theorem scover0_C_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) (y : S128x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1 S128x128.size (by sl_kernel_rfl) y

/-- What the case j = 15 leaves in the accumulator. -/
def sout0_C_0 (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) : Vec F S128x128 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0).2.1)

/-! ## What the output window and the accumulator hold after each point -/

/-- After the body at position `n`: the output window's buffer and the accumulator, by recursion on the point. -/
def outsAt0 (c : Dev nD) : (n : ℕ) → n < cfg0.N → Vec F S128x2 .f32 × Vec F S128x128 .f32
  | 0, hn => (out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩))
  | n + 1, hn =>
    if h0 : (n + 1) % 16 = 0 then
      if h1 : (n + 1) % 16 = 15 then
        False.elim (by omega)
      else
        (out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩))
    else
      if h1 : (n + 1) % 16 = 15 then
        (out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2)
      else
        (out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (outsAt0 c n (Nat.lt_of_succ_lt hn)).2)

theorem outsAt0_A (c : Dev nD) (t : Fin cfg0.N) (h0 : t.val % 16 = 0) (h1 : ¬t.val % 16 = 15) :
    outsAt0 m c t.val t.isLt = (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 m c t.val t.isLt = (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 m c t.val t.isLt = (out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the class's (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data of the pipeline on core `c`: the arrays as the region finds them; after the body at point `t` each
    input's buffer at its block, the output's at `outsAt0`; the invariant `PhiS`; nothing owed. The array read by the
    two windows 0 and 1 is held half and half; every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (outsAt0 m c t.val t.isLt).1
    | ⟨_ + 16, h⟩ => absurd h (Nat.not_lt.2 (Nat.le_add_left _ _))
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 16000000 in
/-- The body at any point: the inputs' buffers hold their blocks; the closed forms of the two conditions say which case
    the point is in, and that case's run applies; the invariant hands the body the accumulator at what the point before
    left (at anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      rw [Dat.leavesExact_idle (dats m 0 c) 15 t (idleAt0_15_A t ((hcond0_0 t).mpr h0) (fun h => h1 ((hcond0_1 t).mp h))) (noFlush0_15_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS0]; · iexact HS0
        iintro ⟨H0, H1, H2, H3, H4, H5, H6, H7, H8, H9, H10, H11, H12, H13, H14, H15, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS0]; · iexists _; iexact HS0
        iintro ⟨H0, H1, H2, H3, H4, H5, H6, H7, H8, H9, H10, H11, H12, H13, H14, H15, ⟨%es0, HS0⟩⟩
        isplitl [HS0 Hg]
        · isplitl [HS0]
          · unfold owns; iexists _; isplitr
            swap; · iexact HS0
            ipureintro; exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15
  · by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      rw [show (dats m 0 c).leavesExact 15 t = owns (c : Thread nD τ) (ms0_15 t) fullShare ((dats m 0 c).after 15 t) from by
        unfold Dat.leavesExact; rw [liveAt0_15_C t (fun h => h0 ((hcond0_0 t).mp h)) ((hcond0_1 t).mpr h1)], after0_15]
      rw [outsAt0_C m c t h0 h1]
      unfold out0_C_15 sout0_C_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexists _; iexact H15
        isplitl [HS0]; · iexact HS0
        iintro ⟨H0, H1, H2, H3, H4, H5, H6, H7, H8, H9, H10, H11, H12, H13, H14, ⟨%e15, H15⟩, ⟨%es0, HS0⟩⟩
        isplitl [HS0 Hg]
        · isplitl [HS0]
          · unfold owns; iexists _; isplitr
            swap; · iexact HS0
            ipureintro; exact View.read_writes_of_cover _ _ _ _ _ (scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        unfold owns; iexists _; isplitr
        swap; · iexact H15
        ipureintro; exact View.read_writes_of_cover _ _ _ _ _ (cover0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t], after0_5]
      rw [show (dats m 0 c).leavesExact 6 t = owns (c : Thread nD τ) (ms0_6 t) fullShare ((dats m 0 c).after 6 t) from by
        unfold Dat.leavesExact; rw [liveAt0_6 t], after0_6]
      rw [show (dats m 0 c).leavesExact 7 t = owns (c : Thread nD τ) (ms0_7 t) fullShare ((dats m 0 c).after 7 t) from by
        unfold Dat.leavesExact; rw [liveAt0_7 t], after0_7]
      rw [show (dats m 0 c).leavesExact 8 t = owns (c : Thread nD τ) (ms0_8 t) fullShare ((dats m 0 c).after 8 t) from by
        unfold Dat.leavesExact; rw [liveAt0_8 t], after0_8]
      rw [show (dats m 0 c).leavesExact 9 t = owns (c : Thread nD τ) (ms0_9 t) fullShare ((dats m 0 c).after 9 t) from by
        unfold Dat.leavesExact; rw [liveAt0_9 t], after0_9]
      rw [show (dats m 0 c).leavesExact 10 t = owns (c : Thread nD τ) (ms0_10 t) fullShare ((dats m 0 c).after 10 t) from by
        unfold Dat.leavesExact; rw [liveAt0_10 t], after0_10]
      rw [show (dats m 0 c).leavesExact 11 t = owns (c : Thread nD τ) (ms0_11 t) fullShare ((dats m 0 c).after 11 t) from by
        unfold Dat.leavesExact; rw [liveAt0_11 t], after0_11]
      rw [show (dats m 0 c).leavesExact 12 t = owns (c : Thread nD τ) (ms0_12 t) fullShare ((dats m 0 c).after 12 t) from by
        unfold Dat.leavesExact; rw [liveAt0_12 t], after0_12]
      rw [show (dats m 0 c).leavesExact 13 t = owns (c : Thread nD τ) (ms0_13 t) fullShare ((dats m 0 c).after 13 t) from by
        unfold Dat.leavesExact; rw [liveAt0_13 t], after0_13]
      rw [show (dats m 0 c).leavesExact 14 t = owns (c : Thread nD τ) (ms0_14 t) fullShare ((dats m 0 c).after 14 t) from by
        unfold Dat.leavesExact; rw [liveAt0_14 t], after0_14]
      rw [Dat.leavesExact_idle (dats m 0 c) 15 t (idleAt0_15_B t (fun h => h0 ((hcond0_0 t).mp h)) (fun h => h1 ((hcond0_1 t).mp h))) (noFlush0_15_B t (fun h => h0 ((hcond0_0 t).mp h)) (fun h => h1 ((hcond0_1 t).mp h)))]
      rw [outsAt0_B m c t h0 h1]
      unfold sout0_B_0; (try dsimp only)
      by_cases hz : t.val = 0
      · exfalso; omega
      · rw [PhiS_castSucc m c t, PhiS_pos m c _ _ hz]
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [HS0]; · iexact HS0
        iintro ⟨H0, H1, H2, H3, H4, H5, H6, H7, H8, H9, H10, H11, H12, H13, H14, H15, ⟨%es0, HS0⟩⟩
        isplitl [HS0 Hg]
        · isplitl [HS0]
          · unfold owns; iexists _; isplitr
            swap; · iexact HS0
            ipureintro; exact View.read_writes_of_cover _ _ _ _ _ (scover0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        iexists _; iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class's back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

end Cert.KernelIdeal.Frm

end
-- ==== Proof.PieceVals.lean ====
/-
  What each case of the body leaves, as values: the accumulator after the body is the elementwise maximum of its
  previous contents — the zero block where j = 0 — and the block's masked maximum over the 64 neighbours of the point;
  the output block stored where j = 15 is the head of the network evaluated on the accumulator just updated.
-/
import proofs.«105093_j86131274154571_1_alg».proof.Proof.FrameBody
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-- Where 0 < j < 15: the accumulator, holding `xs0`, is left at the maximum of `xs0` and the point's masked block maximum. -/
theorem sout_B (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = k0_pay1 (k0_pay8 x0 x1) (k0_pay9 i x0 x1) (k0_pay10 x3) x4 x5 x6 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x4) hz, View.ld_unit_zero (S := S64x4) hz, View.ld_unit_zero (S := S128x2) hz, View.ld_unit_zero (S := S64x5) hz, View.ld_unit_zero (S := S64) hz1, View.ld_unit_zero (S := S128x64) hz, View.ld_unit_zero (S := S128) hz1, View.ld_unit_zero (S := S64x132) hz, View.ld_unit_zero (S := S64x128) hz, View.ld_unit_zero (S := S4x64) hz, View.ld_unit_zero (S := S4) hz1, View.ld_unit_zero (S := S128x128) hz, shapeCast_self]

/-- Where j = 15 the accumulator is updated in the same way. -/
theorem sout_C (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = k0_pay1 (k0_pay8 x0 x1) (k0_pay9 i x0 x1) (k0_pay10 x3) x4 x5 x6 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x4) hz, View.ld_unit_zero (S := S64x4) hz, View.ld_unit_zero (S := S128x2) hz, View.ld_unit_zero (S := S64x5) hz, View.ld_unit_zero (S := S64) hz1, View.ld_unit_zero (S := S128x64) hz, View.ld_unit_zero (S := S128) hz1, View.ld_unit_zero (S := S64x132) hz, View.ld_unit_zero (S := S64x128) hz, View.ld_unit_zero (S := S4x64) hz, View.ld_unit_zero (S := S4) hz1, View.ld_unit_zero (S := S128x128) hz, shapeCast_self]

/-- Where j = 0 the accumulator is first reset to the zero block, then updated. -/
theorem sout_A (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : cond0_0 i) (hc1 : ¬cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 = k0_pay1 (k0_pay8 x0 x1) (k0_pay9 i x0 x1) (k0_pay10 x3) x4 x5 x6 (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14)]
  unfold kernelRun0_A
  dsimp only
  sl_unfold_words
  rw [View.canon_cons_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x4) hz, View.ld_unit_zero (S := S64x4) hz, View.ld_unit_zero (S := S128x2) hz, View.ld_unit_zero (S := S64x5) hz, View.ld_unit_zero (S := S64) hz1, View.ld_unit_zero (S := S128x64) hz, View.ld_unit_zero (S := S128) hz1, View.ld_unit_zero (S := S64x132) hz, View.ld_unit_zero (S := S64x128) hz, View.ld_unit_zero (S := S4x64) hz, View.ld_unit_zero (S := S4) hz1, View.ld_unit_zero (S := S128x128) hz, shapeCast_self]

/-- Where j = 15 the output block is the head evaluated on the accumulator just updated. -/
theorem out_C (c : Dev nD) (i : grid0.Coords) (arg2 : Memref sig .tc .vmem S128x4 .f32) (harg2 : arg2.IsWhole) (arg3 : Memref sig .tc .vmem S64x4 .f32) (harg3 : arg3.IsWhole) (arg4 : Memref sig .tc .vmem S128x2 .f32) (harg4 : arg4.IsWhole) (arg5 : Memref sig .tc .vmem S64x5 .f32) (harg5 : arg5.IsWhole) (arg6 : Memref sig .tc .vmem S64 .f32) (harg6 : arg6.IsWhole) (arg7 : Memref sig .tc .vmem S128x64 .f32) (harg7 : arg7.IsWhole) (arg8 : Memref sig .tc .vmem S128 .f32) (harg8 : arg8.IsWhole) (arg9 : Memref sig .tc .vmem S64x132 .f32) (harg9 : arg9.IsWhole) (arg10 : Memref sig .tc .vmem S64 .f32) (harg10 : arg10.IsWhole) (arg11 : Memref sig .tc .vmem S128x64 .f32) (harg11 : arg11.IsWhole) (arg12 : Memref sig .tc .vmem S128 .f32) (harg12 : arg12.IsWhole) (arg13 : Memref sig .tc .vmem S64x128 .f32) (harg13 : arg13.IsWhole) (arg14 : Memref sig .tc .vmem S64 .f32) (harg14 : arg14.IsWhole) (arg15 : Memref sig .tc .vmem S4x64 .f32) (harg15 : arg15.IsWhole) (arg16 : Memref sig .tc .vmem S4 .f32) (harg16 : arg16.IsWhole) (arg17 : Memref sig .tc .vmem S128x2 .f32) (harg17 : arg17.IsWhole) (arg18 : Memref sig .tc .vmem S128x128 .f32) (harg18 : arg18.IsWhole) (hc0 : ¬cond0_0 i) (hc1 : cond0_1 i)
    (x0 : Vec F S128x4 .f32) (x1 : Vec F S64x4 .f32) (x2 : Vec F S128x2 .f32) (x3 : Vec F S64x5 .f32) (x4 : Vec F S64 .f32) (x5 : Vec F S128x64 .f32) (x6 : Vec F S128 .f32) (x7 : Vec F S64x132 .f32) (x8 : Vec F S64 .f32) (x9 : Vec F S128x64 .f32) (x10 : Vec F S128 .f32) (x11 : Vec F S64x128 .f32) (x12 : Vec F S64 .f32) (x13 : Vec F S4x64 .f32) (x14 : Vec F S4 .f32) (xs0 : Vec F S128x128 .f32) :
    out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0 = k0_pay2 (k0_pay3 x0 x2) (k0_pay4 x0) (k0_pay5 x0 (k0_pay1 (k0_pay8 x0 x1) (k0_pay9 i x0 x1) (k0_pay10 x3) x4 x5 x6 xs0) x2 x7 x8 x9 x10 x11 x12) x13 x14 := by
  unfold out0_C_15
  rw [View.read_writes_eq_canon _ _ _ (cover0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, View.ld_unit_zero (S := S128x4) hz, View.ld_unit_zero (S := S64x4) hz, View.ld_unit_zero (S := S128x2) hz, View.ld_unit_zero (S := S64x5) hz, View.ld_unit_zero (S := S64) hz1, View.ld_unit_zero (S := S128x64) hz, View.ld_unit_zero (S := S128) hz1, View.ld_unit_zero (S := S64x132) hz, View.ld_unit_zero (S := S64x128) hz, View.ld_unit_zero (S := S4x64) hz, View.ld_unit_zero (S := S4) hz1, View.ld_unit_zero (S := S128x128) hz, shapeCast_self]
  rw [View.readCov_unit_zero (S := S128x128) _ hz]

end Cert.KernelIdeal.Frm

end
-- ==== Proof.BlockVals.lean ====
/-
  The windows' blocks as rows of the arrays: at grid point t = 16 i + j the first window holds rows 128 i … 128 i + 127
  of the first operand, the second window rows 64 j … 64 j + 63 of the same operand, the third rows 128 i … of the second
  operand; each weight window holds its whole array; the output window's block is rows 128 i … of the result.
-/
import proofs.«105093_j86131274154571_1_alg».proof.Proof.FrameBody
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps and the grid's coordinates, decided over the 128 points. -/
theorem idx_facts : ∀ t : Fin cfg0.N, win0_0.index t (0 : Fin 2) = t.val / 16
    ∧ win0_0.index t (1 : Fin 2) = 0
    ∧ win0_1.index t (0 : Fin 2) = t.val % 16
    ∧ win0_1.index t (1 : Fin 2) = 0
    ∧ win0_2.index t (0 : Fin 2) = t.val / 16
    ∧ win0_2.index t (1 : Fin 2) = 0
    ∧ win0_15.index t (0 : Fin 2) = t.val / 16
    ∧ win0_15.index t (1 : Fin 2) = 0
    ∧ (grid0.coords t 0).val = t.val / 16
    ∧ (grid0.coords t 1).val = t.val % 16 :=
  (by decide +kernel : ∀ t : Fin grid0.N, _)

theorem idx_zero_3 : ∀ t : Fin cfg0.N, win0_3.index t (0 : Fin 2) = 0 ∧ win0_3.index t (1 : Fin 2) = 0 := (by decide +kernel : ∀ t : Fin grid0.N, _)
/-- Window 3's block is its whole array. -/
theorem iblk_3 (c : Dev nD) (t : Fin cfg0.N) : (iblk m c 3 t : S64x5.Idx → Elt F .f32) = V m c main_arg2 := by
  funext y
  show V m c main_arg2 (((cfg0.win 3).blk t).view.emb y) = V m c main_arg2 y
  refine congrArg _ ?_
  funext a; apply Fin.ext
  have hf := idx_zero_3 t
  match a with
  | ⟨0, _⟩ => show win0_3.index t (0 : Fin 2) * 64 + 1 * (y 0).val = (y 0).val; have := hf.1; omega
  | ⟨1, _⟩ => show win0_3.index t (1 : Fin 2) * 5 + 1 * (y 1).val = (y 1).val; have := hf.2; omega

theorem idx_zero_4 : ∀ t : Fin cfg0.N, win0_4.index t (0 : Fin 1) = 0 := (by decide +kernel : ∀ t : Fin grid0.N, _)
/-- Window 4's block is its whole array. -/
theorem iblk_4 (c : Dev nD) (t : Fin cfg0.N) : (iblk m c 4 t : S64.Idx → Elt F .f32) = V m c main_arg3 := by
  funext y
  show V m c main_arg3 (((cfg0.win 4).blk t).view.emb y) = V m c main_arg3 y
  refine congrArg _ ?_
  funext a; apply Fin.ext
  have hf := idx_zero_4 t
  match a with
  | ⟨0, _⟩ => show win0_4.index t (0 : Fin 1) * 64 + 1 * (y 0).val = (y 0).val; have := hf; omega

theorem idx_zero_5 : ∀ t : Fin cfg0.N, win0_5.index t (0 : Fin 2) = 0 ∧ win0_5.index t (1 : Fin 2) = 0 := (by decide +kernel : ∀ t : Fin grid0.N, _)
/-- Window 5's block is its whole array. -/
theorem iblk_5 (c : Dev nD) (t : Fin cfg0.N) : (iblk m c 5 t : S128x64.Idx → Elt F .f32) = V m c main_arg4 := by
  funext y
  show V m c main_arg4 (((cfg0.win 5).blk t).view.emb y) = V m c main_arg4 y
  refine congrArg _ ?_
  funext a; apply Fin.ext
  have hf := idx_zero_5 t
  match a with
  | ⟨0, _⟩ => show win0_5.index t (0 : Fin 2) * 128 + 1 * (y 0).val = (y 0).val; have := hf.1; omega
  | ⟨1, _⟩ => show win0_5.index t (1 : Fin 2) * 64 + 1 * (y 1).val = (y 1).val; have := hf.2; omega

theorem idx_zero_6 : ∀ t : Fin cfg0.N, win0_6.index t (0 : Fin 1) = 0 := (by decide +kernel : ∀ t : Fin grid0.N, _)
/-- Window 6's block is its whole array. -/
theorem iblk_6 (c : Dev nD) (t : Fin cfg0.N) : (iblk m c 6 t : S128.Idx → Elt F .f32) = V m c main_arg5 := by
  funext y
  show V m c main_arg5 (((cfg0.win 6).blk t).view.emb y) = V m c main_arg5 y
  refine congrArg _ ?_
  funext a; apply Fin.ext
  have hf := idx_zero_6 t
  match a with
  | ⟨0, _⟩ => show win0_6.index t (0 : Fin 1) * 128 + 1 * (y 0).val = (y 0).val; have := hf; omega

theorem idx_zero_7 : ∀ t : Fin cfg0.N, win0_7.index t (0 : Fin 2) = 0 ∧ win0_7.index t (1 : Fin 2) = 0 := (by decide +kernel : ∀ t : Fin grid0.N, _)
/-- Window 7's block is its whole array. -/
theorem iblk_7 (c : Dev nD) (t : Fin cfg0.N) : (iblk m c 7 t : S64x132.Idx → Elt F .f32) = V m c main_arg6 := by
  funext y
  show V m c main_arg6 (((cfg0.win 7).blk t).view.emb y) = V m c main_arg6 y
  refine congrArg _ ?_
  funext a; apply Fin.ext
  have hf := idx_zero_7 t
  match a with
  | ⟨0, _⟩ => show win0_7.index t (0 : Fin 2) * 64 + 1 * (y 0).val = (y 0).val; have := hf.1; omega
  | ⟨1, _⟩ => show win0_7.index t (1 : Fin 2) * 132 + 1 * (y 1).val = (y 1).val; have := hf.2; omega

theorem idx_zero_8 : ∀ t : Fin cfg0.N, win0_8.index t (0 : Fin 1) = 0 := (by decide +kernel : ∀ t : Fin grid0.N, _)
/-- Window 8's block is its whole array. -/
theorem iblk_8 (c : Dev nD) (t : Fin cfg0.N) : (iblk m c 8 t : S64.Idx → Elt F .f32) = V m c main_arg7 := by
  funext y
  show V m c main_arg7 (((cfg0.win 8).blk t).view.emb y) = V m c main_arg7 y
  refine congrArg _ ?_
  funext a; apply Fin.ext
  have hf := idx_zero_8 t
  match a with
  | ⟨0, _⟩ => show win0_8.index t (0 : Fin 1) * 64 + 1 * (y 0).val = (y 0).val; have := hf; omega

theorem idx_zero_9 : ∀ t : Fin cfg0.N, win0_9.index t (0 : Fin 2) = 0 ∧ win0_9.index t (1 : Fin 2) = 0 := (by decide +kernel : ∀ t : Fin grid0.N, _)
/-- Window 9's block is its whole array. -/
theorem iblk_9 (c : Dev nD) (t : Fin cfg0.N) : (iblk m c 9 t : S128x64.Idx → Elt F .f32) = V m c main_arg8 := by
  funext y
  show V m c main_arg8 (((cfg0.win 9).blk t).view.emb y) = V m c main_arg8 y
  refine congrArg _ ?_
  funext a; apply Fin.ext
  have hf := idx_zero_9 t
  match a with
  | ⟨0, _⟩ => show win0_9.index t (0 : Fin 2) * 128 + 1 * (y 0).val = (y 0).val; have := hf.1; omega
  | ⟨1, _⟩ => show win0_9.index t (1 : Fin 2) * 64 + 1 * (y 1).val = (y 1).val; have := hf.2; omega

theorem idx_zero_10 : ∀ t : Fin cfg0.N, win0_10.index t (0 : Fin 1) = 0 := (by decide +kernel : ∀ t : Fin grid0.N, _)
/-- Window 10's block is its whole array. -/
theorem iblk_10 (c : Dev nD) (t : Fin cfg0.N) : (iblk m c 10 t : S128.Idx → Elt F .f32) = V m c main_arg9 := by
  funext y
  show V m c main_arg9 (((cfg0.win 10).blk t).view.emb y) = V m c main_arg9 y
  refine congrArg _ ?_
  funext a; apply Fin.ext
  have hf := idx_zero_10 t
  match a with
  | ⟨0, _⟩ => show win0_10.index t (0 : Fin 1) * 128 + 1 * (y 0).val = (y 0).val; have := hf; omega

theorem idx_zero_11 : ∀ t : Fin cfg0.N, win0_11.index t (0 : Fin 2) = 0 ∧ win0_11.index t (1 : Fin 2) = 0 := (by decide +kernel : ∀ t : Fin grid0.N, _)
/-- Window 11's block is its whole array. -/
theorem iblk_11 (c : Dev nD) (t : Fin cfg0.N) : (iblk m c 11 t : S64x128.Idx → Elt F .f32) = V m c main_arg10 := by
  funext y
  show V m c main_arg10 (((cfg0.win 11).blk t).view.emb y) = V m c main_arg10 y
  refine congrArg _ ?_
  funext a; apply Fin.ext
  have hf := idx_zero_11 t
  match a with
  | ⟨0, _⟩ => show win0_11.index t (0 : Fin 2) * 64 + 1 * (y 0).val = (y 0).val; have := hf.1; omega
  | ⟨1, _⟩ => show win0_11.index t (1 : Fin 2) * 128 + 1 * (y 1).val = (y 1).val; have := hf.2; omega

theorem idx_zero_12 : ∀ t : Fin cfg0.N, win0_12.index t (0 : Fin 1) = 0 := (by decide +kernel : ∀ t : Fin grid0.N, _)
/-- Window 12's block is its whole array. -/
theorem iblk_12 (c : Dev nD) (t : Fin cfg0.N) : (iblk m c 12 t : S64.Idx → Elt F .f32) = V m c main_arg11 := by
  funext y
  show V m c main_arg11 (((cfg0.win 12).blk t).view.emb y) = V m c main_arg11 y
  refine congrArg _ ?_
  funext a; apply Fin.ext
  have hf := idx_zero_12 t
  match a with
  | ⟨0, _⟩ => show win0_12.index t (0 : Fin 1) * 64 + 1 * (y 0).val = (y 0).val; have := hf; omega

theorem idx_zero_13 : ∀ t : Fin cfg0.N, win0_13.index t (0 : Fin 2) = 0 ∧ win0_13.index t (1 : Fin 2) = 0 := (by decide +kernel : ∀ t : Fin grid0.N, _)
/-- Window 13's block is its whole array. -/
theorem iblk_13 (c : Dev nD) (t : Fin cfg0.N) : (iblk m c 13 t : S4x64.Idx → Elt F .f32) = V m c main_arg12 := by
  funext y
  show V m c main_arg12 (((cfg0.win 13).blk t).view.emb y) = V m c main_arg12 y
  refine congrArg _ ?_
  funext a; apply Fin.ext
  have hf := idx_zero_13 t
  match a with
  | ⟨0, _⟩ => show win0_13.index t (0 : Fin 2) * 4 + 1 * (y 0).val = (y 0).val; have := hf.1; omega
  | ⟨1, _⟩ => show win0_13.index t (1 : Fin 2) * 64 + 1 * (y 1).val = (y 1).val; have := hf.2; omega

theorem idx_zero_14 : ∀ t : Fin cfg0.N, win0_14.index t (0 : Fin 1) = 0 := (by decide +kernel : ∀ t : Fin grid0.N, _)
/-- Window 14's block is its whole array. -/
theorem iblk_14 (c : Dev nD) (t : Fin cfg0.N) : (iblk m c 14 t : S4.Idx → Elt F .f32) = V m c main_arg13 := by
  funext y
  show V m c main_arg13 (((cfg0.win 14).blk t).view.emb y) = V m c main_arg13 y
  refine congrArg _ ?_
  funext a; apply Fin.ext
  have hf := idx_zero_14 t
  match a with
  | ⟨0, _⟩ => show win0_14.index t (0 : Fin 1) * 4 + 1 * (y 0).val = (y 0).val; have := hf; omega

/-- Window 0's block at point `t` is rows 128 * (t.val / 16) … of its array. -/
theorem iblk_0_apply (c : Dev nD) (t : Fin cfg0.N) (r : Fin 128) (k : Fin 4) (hr : 128 * (t.val / 16) + r.val < 1024) :
    (iblk m c 0 t : S128x4.Idx → Elt F .f32) (ix2 r k) = V m c main_arg0 (ix2 (⟨128 * (t.val / 16) + r.val, hr⟩ : Fin 1024) k) := by
  show V m c main_arg0 (((cfg0.win 0).blk t).view.emb (ix2 r k)) = V m c main_arg0 _
  refine congrArg _ ?_
  funext a; apply Fin.ext
  obtain ⟨e00, e01, e10, e11, e20, e21, e150, e151, g0, g1⟩ := idx_facts t
  match a with
  | ⟨0, _⟩ => show win0_0.index t (0 : Fin 2) * 128 + 1 * r.val = 128 * (t.val / 16) + r.val; omega
  | ⟨1, _⟩ => show win0_0.index t (1 : Fin 2) * 4 + 1 * k.val = k.val; omega

/-- Window 1's block at point `t` is rows 64 * (t.val % 16) … of its array. -/
theorem iblk_1_apply (c : Dev nD) (t : Fin cfg0.N) (r : Fin 64) (k : Fin 4) (hr : 64 * (t.val % 16) + r.val < 1024) :
    (iblk m c 1 t : S64x4.Idx → Elt F .f32) (ix2 r k) = V m c main_arg0 (ix2 (⟨64 * (t.val % 16) + r.val, hr⟩ : Fin 1024) k) := by
  show V m c main_arg0 (((cfg0.win 1).blk t).view.emb (ix2 r k)) = V m c main_arg0 _
  refine congrArg _ ?_
  funext a; apply Fin.ext
  obtain ⟨e00, e01, e10, e11, e20, e21, e150, e151, g0, g1⟩ := idx_facts t
  match a with
  | ⟨0, _⟩ => show win0_1.index t (0 : Fin 2) * 64 + 1 * r.val = 64 * (t.val % 16) + r.val; omega
  | ⟨1, _⟩ => show win0_1.index t (1 : Fin 2) * 4 + 1 * k.val = k.val; omega

/-- Window 2's block at point `t` is rows 128 * (t.val / 16) … of its array. -/
theorem iblk_2_apply (c : Dev nD) (t : Fin cfg0.N) (r : Fin 128) (k : Fin 2) (hr : 128 * (t.val / 16) + r.val < 1024) :
    (iblk m c 2 t : S128x2.Idx → Elt F .f32) (ix2 r k) = V m c main_arg1 (ix2 (⟨128 * (t.val / 16) + r.val, hr⟩ : Fin 1024) k) := by
  show V m c main_arg1 (((cfg0.win 2).blk t).view.emb (ix2 r k)) = V m c main_arg1 _
  refine congrArg _ ?_
  funext a; apply Fin.ext
  obtain ⟨e00, e01, e10, e11, e20, e21, e150, e151, g0, g1⟩ := idx_facts t
  match a with
  | ⟨0, _⟩ => show win0_2.index t (0 : Fin 2) * 128 + 1 * r.val = 128 * (t.val / 16) + r.val; omega
  | ⟨1, _⟩ => show win0_2.index t (1 : Fin 2) * 2 + 1 * k.val = k.val; omega

end Cert.KernelIdeal.Frm

end
-- ==== Proof.Spec.lean ====
/-
  The specification of the result, index by index, on the extended reals.

  For n = 1024 agents with states s[i, 0..3] and goals g[i, 0..1]:
  every ordered pair (i, j) carries the five edge features x5 = (s[i] - s[j], [i = j]); an edge is a
  neighbour edge when the Euclidean distance of the first two features is below the literal 0.5; two pointwise
  affine layers with a rectifier (5 -> 64 -> 128) map the edge features to h2; the pooled feature of agent i is the
  maximum over all j of h2 * mask (the mask is 0 or 1, so a non-neighbour contributes 0 and the pooled value is
  never negative). The pooled features, the goal offset sg = s[:, :2] - g and the velocities s[:, 2:] (132 numbers)
  go through three rectified affine layers (64, 128, 64) and a last affine layer to four logits; the gains are
  k = 2 * (1 / (1 + exp (-logit))) - 1, and the two outputs are the inner products of the state (sg, s[:, 2:]) with
  -(k0, 0, k1, 0) and with -(0, k2, 0, k3).

  Float literals stay the patterns the programs print (0.5, 1, 2); only the zero pattern is read as 0.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals with literal extents. -/
abbrev Arr2 (m n : Nat) : Type := (⟨2, ![m, n]⟩ : Shape).Idx → EReal
/-- A vector of extended reals with a literal extent. -/
abbrev Arr1 (n : Nat) : Type := (⟨1, ![n]⟩ : Shape).Idx → EReal

/-- The literal 0.5, as printed. -/
abbrev half : EReal := Ideal.ofBits .f32 0x3F000000#32
/-- The literal 1, as printed. -/
abbrev one : EReal := Ideal.ofBits .f32 0x3F800000#32
/-- The literal 2, as printed. -/
abbrev two : EReal := Ideal.ofBits .f32 0x40000000#32

/-- Column c < 2 of a four-column row, as a column of it. -/
abbrev lo4 (c : Fin 2) : Fin 4 := ⟨c.val, by omega⟩
/-- Column c + 2 of a four-column row. -/
abbrev hi4 (c : Fin 2) : Fin 4 := ⟨c.val + 2, by omega⟩

/-- Pairwise state difference: s[i, c] - s[j, c]. -/
def pd (s : Arr2 1024 4) (i j : Fin 1024) (c : Fin 4) : EReal := s (ix2 i c) - s (ix2 j c)

/-- The identity channel: 1 on the diagonal, 0 off it. -/
def eye (i j : Fin 1024) : EReal := if i = j then 1 else 0

/-- The five edge features: the four differences, then the identity channel. -/
def x5 (s : Arr2 1024 4) (i j : Fin 1024) (c : Fin 5) : EReal :=
  if h : c.val < 4 then pd s i j ⟨c.val, h⟩ else eye i j

/-- Euclidean distance of the positions of i and j: the root of the two squared position differences. -/
def dist (s : Arr2 1024 4) (i j : Fin 1024) : EReal :=
  Ideal.sqrt (pd s i j 0 * pd s i j 0 + pd s i j 1 * pd s i j 1)

/-- Neighbour mask: 1 when the distance is below 0.5, else 0. -/
def mask (s : Arr2 1024 4) (i j : Fin 1024) : EReal := if dist s i j < half then 1 else 0

/-- First edge layer, 5 -> 64, rectified. -/
def h1 (s : Arr2 1024 4) (w1 : Arr2 64 5) (b1 : Arr1 64) (i j : Fin 1024) (o : Fin 64) : EReal :=
  max (∑ c : Fin 5, x5 s i j c * w1 (ix2 o c) + b1 (ix1 o)) 0

/-- Second edge layer, 64 -> 128, rectified. -/
def h2 (s : Arr2 1024 4) (w1 : Arr2 64 5) (b1 : Arr1 64) (w2 : Arr2 128 64) (b2 : Arr1 128) (i j : Fin 1024)
    (o : Fin 128) : EReal :=
  max (∑ c : Fin 64, h1 s w1 b1 i j c * w2 (ix2 o c) + b2 (ix1 o)) 0

/-- The masked edge activation: h2 times the 0/1 mask. -/
def masked (s : Arr2 1024 4) (w1 : Arr2 64 5) (b1 : Arr1 64) (w2 : Arr2 128 64) (b2 : Arr1 128) (i j : Fin 1024)
    (o : Fin 128) : EReal :=
  h2 s w1 b1 w2 b2 i j o * mask s i j

/-- Masked maximum over all agents j (the supremum of finitely many values; bottom is the value of an empty one). -/
def pooled (s : Arr2 1024 4) (w1 : Arr2 64 5) (b1 : Arr1 64) (w2 : Arr2 128 64) (b2 : Arr1 128) (i : Fin 1024)
    (o : Fin 128) : EReal :=
  Finset.univ.sup fun j : Fin 1024 => masked s w1 b1 w2 b2 i j o

/-- Goal offset: s[i, c] - g[i, c] for c < 2. -/
def sg (s : Arr2 1024 4) (g : Arr2 1024 2) (i : Fin 1024) (c : Fin 2) : EReal := s (ix2 i (lo4 c)) - g (ix2 i c)

/-- The 132 head features: pooled (128), goal offset (2), velocity s[i, 2..3] (2). -/
def feat (s : Arr2 1024 4) (g : Arr2 1024 2) (w1 : Arr2 64 5) (b1 : Arr1 64) (w2 : Arr2 128 64) (b2 : Arr1 128)
    (i : Fin 1024) (k : Fin 132) : EReal :=
  if h : k.val < 128 then pooled s w1 b1 w2 b2 i ⟨k.val, h⟩
  else if h' : k.val < 130 then sg s g i ⟨k.val - 128, by omega⟩
  else s (ix2 i (⟨k.val - 128, by omega⟩ : Fin 4))

/-- Head layer 1, 132 -> 64, rectified. -/
def z1 (s : Arr2 1024 4) (g : Arr2 1024 2) (w1 : Arr2 64 5) (b1 : Arr1 64) (w2 : Arr2 128 64) (b2 : Arr1 128)
    (f1w : Arr2 64 132) (f1b : Arr1 64) (i : Fin 1024) (o : Fin 64) : EReal :=
  max (∑ k : Fin 132, feat s g w1 b1 w2 b2 i k * f1w (ix2 o k) + f1b (ix1 o)) 0

/-- Head layer 2, 64 -> 128, rectified. -/
def z2 (s : Arr2 1024 4) (g : Arr2 1024 2) (w1 : Arr2 64 5) (b1 : Arr1 64) (w2 : Arr2 128 64) (b2 : Arr1 128)
    (f1w : Arr2 64 132) (f1b : Arr1 64) (f2w : Arr2 128 64) (f2b : Arr1 128) (i : Fin 1024) (o : Fin 128) : EReal :=
  max (∑ k : Fin 64, z1 s g w1 b1 w2 b2 f1w f1b i k * f2w (ix2 o k) + f2b (ix1 o)) 0

/-- Head layer 3, 128 -> 64, rectified. -/
def z3 (s : Arr2 1024 4) (g : Arr2 1024 2) (w1 : Arr2 64 5) (b1 : Arr1 64) (w2 : Arr2 128 64) (b2 : Arr1 128)
    (f1w : Arr2 64 132) (f1b : Arr1 64) (f2w : Arr2 128 64) (f2b : Arr1 128) (f3w : Arr2 64 128) (f3b : Arr1 64)
    (i : Fin 1024) (o : Fin 64) : EReal :=
  max (∑ k : Fin 128, z2 s g w1 b1 w2 b2 f1w f1b f2w f2b i k * f3w (ix2 o k) + f3b (ix1 o)) 0

/-- The four logits: the last affine layer, 64 -> 4. -/
def logit (s : Arr2 1024 4) (g : Arr2 1024 2) (w1 : Arr2 64 5) (b1 : Arr1 64) (w2 : Arr2 128 64) (b2 : Arr1 128)
    (f1w : Arr2 64 132) (f1b : Arr1 64) (f2w : Arr2 128 64) (f2b : Arr1 128) (f3w : Arr2 64 128) (f3b : Arr1 64)
    (f4w : Arr2 4 64) (f4b : Arr1 4) (i : Fin 1024) (o : Fin 4) : EReal :=
  ∑ k : Fin 64, z3 s g w1 b1 w2 b2 f1w f1b f2w f2b f3w f3b i k * f4w (ix2 o k) + f4b (ix1 o)

/-- The gain 2 * sigmoid(x) - 1, the sigmoid spelt 1 / (1 + exp (-x)). -/
def gainOf (x : EReal) : EReal := two * Ideal.div one (one + Ideal.exp (-x)) - one

/-- The four gains of agent i. -/
def kk (s : Arr2 1024 4) (g : Arr2 1024 2) (w1 : Arr2 64 5) (b1 : Arr1 64) (w2 : Arr2 128 64) (b2 : Arr1 128)
    (f1w : Arr2 64 132) (f1b : Arr1 64) (f2w : Arr2 128 64) (f2b : Arr1 128) (f3w : Arr2 64 128) (f3b : Arr1 64)
    (f4w : Arr2 4 64) (f4b : Arr1 4) (i : Fin 1024) (o : Fin 4) : EReal :=
  gainOf (logit s g w1 b1 w2 b2 f1w f1b f2w f2b f3w f3b f4w f4b i o)

/-- The state of agent i: goal offset, then velocity. -/
def state (s : Arr2 1024 4) (g : Arr2 1024 2) (i : Fin 1024) (c : Fin 4) : EReal :=
  if h : c.val < 2 then sg s g i ⟨c.val, h⟩ else s (ix2 i c)

/-- The x-gain row -(k0, 0, k1, 0) from the four gains k. -/
def gainX (k : Fin 4 → EReal) (c : Fin 4) : EReal := -(if c.val = 0 then k 0 else if c.val = 2 then k 1 else 0)

/-- The y-gain row -(0, k2, 0, k3) from the four gains k. -/
def gainY (k : Fin 4 → EReal) (c : Fin 4) : EReal := -(if c.val = 1 then k 2 else if c.val = 3 then k 3 else 0)

/-- The x-action: the inner product of the state with the x-gain row. -/
def ax (s : Arr2 1024 4) (g : Arr2 1024 2) (k : Fin 4 → EReal) (i : Fin 1024) : EReal :=
  ∑ c : Fin 4, state s g i c * gainX k c

/-- The y-action: the inner product of the state with the y-gain row. -/
def ay (s : Arr2 1024 4) (g : Arr2 1024 2) (k : Fin 4 → EReal) (i : Fin 1024) : EReal :=
  ∑ c : Fin 4, state s g i c * gainY k c

/-- The result array [1024, 2]: column 0 the x-action, column 1 the y-action. -/
def G (s : Arr2 1024 4) (g : Arr2 1024 2) (w1 : Arr2 64 5) (b1 : Arr1 64) (w2 : Arr2 128 64) (b2 : Arr1 128)
    (f1w : Arr2 64 132) (f1b : Arr1 64) (f2w : Arr2 128 64) (f2b : Arr1 128) (f3w : Arr2 64 128) (f3b : Arr1 64)
    (f4w : Arr2 4 64) (f4b : Arr1 4) : Arr2 1024 2 := fun idx =>
  if (idx 1).val = 0 then ax s g (kk s g w1 b1 w2 b2 f1w f1b f2w f2b f3w f3b f4w f4b (idx 0)) (idx 0)
  else ay s g (kk s g w1 b1 w2 b2 f1w f1b f2w f2b f3w f3b f4w f4b (idx 0)) (idx 0)

/-! ## The pooled maximum: its universal property, its sign, and its blocks -/

section Pooled
variable (s : Arr2 1024 4) (w1 : Arr2 64 5) (b1 : Arr1 64) (w2 : Arr2 128 64) (b2 : Arr1 128)

theorem h1_nonneg (i j : Fin 1024) (o : Fin 64) : 0 ≤ h1 s w1 b1 i j o := le_max_right _ _

theorem h2_nonneg (i j : Fin 1024) (o : Fin 128) : 0 ≤ h2 s w1 b1 w2 b2 i j o := le_max_right _ _

theorem mask_nonneg (i j : Fin 1024) : 0 ≤ mask s i j := by
  unfold mask; split <;> simp

theorem mask_eq (i j : Fin 1024) : mask s i j = 1 ∨ mask s i j = 0 := by
  unfold mask; split <;> simp

/-- A masked activation is never negative (a product of two non-negative extended reals). -/
theorem masked_nonneg (i j : Fin 1024) (o : Fin 128) : 0 ≤ masked s w1 b1 w2 b2 i j o :=
  mul_nonneg (h2_nonneg s w1 b1 w2 b2 i j o) (mask_nonneg s i j)

/-- Every masked activation is below the pooled value. -/
theorem masked_le_pooled (i j : Fin 1024) (o : Fin 128) :
    masked s w1 b1 w2 b2 i j o ≤ pooled s w1 b1 w2 b2 i o :=
  Finset.le_sup (f := fun j : Fin 1024 => masked s w1 b1 w2 b2 i j o) (Finset.mem_univ j)

/-- The pooled value is the least bound of the masked activations. -/
theorem pooled_le {i : Fin 1024} {o : Fin 128} {a : EReal} (h : ∀ j : Fin 1024, masked s w1 b1 w2 b2 i j o ≤ a) :
    pooled s w1 b1 w2 b2 i o ≤ a :=
  Finset.sup_le fun j _ => h j

/-- The pooled value is never negative: agent 0 already contributes a non-negative value. -/
theorem pooled_nonneg (i : Fin 1024) (o : Fin 128) : 0 ≤ pooled s w1 b1 w2 b2 i o :=
  (masked_nonneg s w1 b1 w2 b2 i 0 o).trans (masked_le_pooled s w1 b1 w2 b2 i 0 o)

/-- The pooled value as the fold of max from bottom over the agents. -/
theorem pooled_eq_fold (i : Fin 1024) (o : Fin 128) :
    pooled s w1 b1 w2 b2 i o
      = (Finset.univ : Finset (Fin 1024)).fold max ⊥ (fun j : Fin 1024 => masked s w1 b1 w2 b2 i j o) := rfl

/-- Agent 64 * jb + jj of block jb. -/
abbrev blk (jb : Fin 16) (jj : Fin 64) : Fin 1024 := ⟨64 * jb.val + jj.val, by omega⟩

/-- The maximum over block jb of 64 consecutive agents. -/
def blockMax (i : Fin 1024) (jb : Fin 16) (o : Fin 128) : EReal :=
  Finset.univ.sup fun jj : Fin 64 => masked s w1 b1 w2 b2 i (blk jb jj) o

theorem blockMax_nonneg (i : Fin 1024) (jb : Fin 16) (o : Fin 128) : 0 ≤ blockMax s w1 b1 w2 b2 i jb o :=
  (masked_nonneg s w1 b1 w2 b2 i (blk jb 0) o).trans
    (Finset.le_sup (f := fun jj : Fin 64 => masked s w1 b1 w2 b2 i (blk jb jj) o) (b := (0 : Fin 64)) (Finset.mem_univ _))

/-- The maximum over all agents is the maximum over the 16 blocks of the block maxima. -/
theorem pooled_eq_blocks (i : Fin 1024) (o : Fin 128) :
    pooled s w1 b1 w2 b2 i o = Finset.univ.sup fun jb : Fin 16 => blockMax s w1 b1 w2 b2 i jb o := by
  apply le_antisymm
  · refine Finset.sup_le fun j _ => ?_
    have hb : j.val / 64 < 16 := by omega
    have hr : j.val % 64 < 64 := by omega
    have hj : blk ⟨j.val / 64, hb⟩ ⟨j.val % 64, hr⟩ = j := Fin.ext (by simp only; omega)
    have hle : masked s w1 b1 w2 b2 i (blk ⟨j.val / 64, hb⟩ ⟨j.val % 64, hr⟩) o
        ≤ blockMax s w1 b1 w2 b2 i ⟨j.val / 64, hb⟩ o :=
      Finset.le_sup (f := fun jj : Fin 64 => masked s w1 b1 w2 b2 i (blk ⟨j.val / 64, hb⟩ jj) o)
        (b := ⟨j.val % 64, hr⟩) (Finset.mem_univ _)
    rw [hj] at hle
    exact hle.trans (Finset.le_sup (f := fun jb : Fin 16 => blockMax s w1 b1 w2 b2 i jb o)
      (b := ⟨j.val / 64, hb⟩) (Finset.mem_univ _))
  · refine Finset.sup_le fun jb _ => Finset.sup_le fun jj _ => ?_
    exact masked_le_pooled s w1 b1 w2 b2 i (blk jb jj) o

/-- Accumulating the block maxima from 0 instead of from bottom gives the same value, as nothing is negative. -/
theorem max_zero_pooled (i : Fin 1024) (o : Fin 128) :
    max 0 (pooled s w1 b1 w2 b2 i o) = pooled s w1 b1 w2 b2 i o :=
  max_eq_right (pooled_nonneg s w1 b1 w2 b2 i o)

end Pooled

end Cert.Spec

end
-- ==== Proof.AccAlgebra.lean ====
/-
  The running maximum over neighbour blocks. Along a row of the grid the accumulator starts from the zero block and
  takes, block after block, the maximum with the block's masked maximum. Every masked value is nonnegative, so the zero
  the accumulator starts from changes nothing: after the sixteenth block the running maximum is the maximum over all
  1024 neighbours.
-/
import proofs.«105093_j86131274154571_1_alg».proof.Proof.Spec

noncomputable section

namespace Cert.KVal

open Cert.Spec

variable (s : Arr2 1024 4) (w1 : Arr2 64 5) (b1 : Arr1 64) (w2 : Arr2 128 64) (b2 : Arr1 128)

/-- The masked maximum of neighbour block number `k` (zero past the last block). -/
def bm (row : Fin 1024) (o : Fin 128) (k : ℕ) : EReal :=
  if h : k < 16 then blockMax s w1 b1 w2 b2 row ⟨k, h⟩ o else 0

/-- The accumulator after block number `n`: the zero block's entry, then the maximum with each block's. -/
def accN (row : Fin 1024) (o : Fin 128) : ℕ → EReal
  | 0 => max 0 (bm s w1 b1 w2 b2 row o 0)
  | n + 1 => max (accN row o n) (bm s w1 b1 w2 b2 row o (n + 1))

theorem bm_le_pooled (row : Fin 1024) (o : Fin 128) (k : ℕ) : bm s w1 b1 w2 b2 row o k ≤ pooled s w1 b1 w2 b2 row o := by
  unfold bm
  split
  · rename_i h
    rw [pooled_eq_blocks]
    exact Finset.le_sup (f := fun jb : Fin 16 => blockMax s w1 b1 w2 b2 row jb o) (Finset.mem_univ (⟨k, h⟩ : Fin 16))
  · exact pooled_nonneg s w1 b1 w2 b2 row o

theorem accN_le_pooled (row : Fin 1024) (o : Fin 128) : ∀ n, accN s w1 b1 w2 b2 row o n ≤ pooled s w1 b1 w2 b2 row o
  | 0 => max_le (pooled_nonneg s w1 b1 w2 b2 row o) (bm_le_pooled s w1 b1 w2 b2 row o 0)
  | n + 1 => max_le (accN_le_pooled row o n) (bm_le_pooled s w1 b1 w2 b2 row o (n + 1))

theorem bm_le_accN (row : Fin 1024) (o : Fin 128) : ∀ n k, k ≤ n → bm s w1 b1 w2 b2 row o k ≤ accN s w1 b1 w2 b2 row o n
  | 0, k, hk => by
    obtain rfl : k = 0 := Nat.le_zero.mp hk
    exact le_max_right _ _
  | n + 1, k, hk => by
    rcases Nat.lt_or_ge k (n + 1) with h | h
    · exact (bm_le_accN row o n k (Nat.lt_succ_iff.mp h)).trans (le_max_left _ _)
    · obtain rfl : k = n + 1 := le_antisymm hk h
      exact le_max_right _ _

/-- After the sixteenth block the accumulator holds the maximum over all neighbours. -/
theorem accN_last (row : Fin 1024) (o : Fin 128) : accN s w1 b1 w2 b2 row o 15 = pooled s w1 b1 w2 b2 row o := by
  refine le_antisymm (accN_le_pooled s w1 b1 w2 b2 row o 15) ?_
  rw [pooled_eq_blocks]
  refine Finset.sup_le fun jb _ => ?_
  have h := bm_le_accN s w1 b1 w2 b2 row o 15 jb.val (by have := jb.isLt; omega)
  unfold bm at h
  rw [dif_pos jb.isLt] at h
  exact h

/-- The first block of a row: the reset accumulator takes the block's maximum. -/
theorem accN_zero_step (row : Fin 1024) (o : Fin 128) (j : ℕ) (hj : j = 0) (h16 : j < 16) :
    max 0 (blockMax s w1 b1 w2 b2 row ⟨j, h16⟩ o) = accN s w1 b1 w2 b2 row o j := by
  subst hj
  show _ = max 0 (bm s w1 b1 w2 b2 row o 0)
  unfold bm
  rw [dif_pos h16]

/-- A later block: the accumulator left by the block before takes the block's maximum. -/
theorem accN_succ_step (row : Fin 1024) (o : Fin 128) (j : ℕ) (hj : j ≠ 0) (h16 : j < 16) (a : EReal)
    (ha : a = accN s w1 b1 w2 b2 row o (j - 1)) :
    max a (blockMax s w1 b1 w2 b2 row ⟨j, h16⟩ o) = accN s w1 b1 w2 b2 row o j := by
  obtain ⟨k, rfl⟩ : ∃ k, j = k + 1 := ⟨j - 1, by omega⟩
  subst ha
  show _ = max (accN s w1 b1 w2 b2 row o k) (bm s w1 b1 w2 b2 row o (k + 1))
  unfold bm
  rw [dif_pos h16]
  rfl

/-- The running maximum depends on the row and the block number only through their values. -/
theorem accN_congr (row row' : Fin 1024) (o : Fin 128) (j j' : ℕ) (hrow : row'.val = row.val) (hj : j' = j) :
    accN s w1 b1 w2 b2 row' o j' = accN s w1 b1 w2 b2 row o j := by
  obtain rfl : row' = row := Fin.ext hrow
  subst hj
  rfl

end Cert.KVal

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.EdgeDiff.lean ====
/-
  The pairwise differences of a block of 128 query rows and a block of 64 neighbour rows, read at coordinates:
  the query block is spread along a new middle axis, the neighbour block along a new leading axis, and the
  two are subtracted, so the entry at (r, jj, c) is the query row r minus the neighbour row jj in column c.
  When the two blocks are rows 128 * bi + r and 64 * bj + jj of the state array, that is the specification's
  pairwise difference of those two agents.
-/
import proofs.«105093_j86131274154571_1_alg».proof.Proof.Spec
import proofs.«105093_j86131274154571_1_alg».proof.Proof.Gen.KernelIdeal.Skeleton
import proofs.«105093_j86131274154571_1_alg».proof.Proof.LibPlainMatmul

noncomputable section

open scoped BigOperators

namespace Cert.KernelIdeal.EdgeValue

open Idealize.ShloMosaic Idealize.ShloMosaic.ValueIdx Cert.LibPlainMatmul

/-- Agent 128 * bi + r: row r of query block bi = i 0. -/
abbrev qrow (i : grid0.Coords) (r : Fin 128) : Fin 1024 :=
  ⟨128 * (i 0).val + r.val, by have h : (i 0).val < 8 := (i 0).isLt; omega⟩

/-- The neighbour block bj = i 1, as one of the sixteen blocks. -/
abbrev nblk (i : grid0.Coords) : Fin 16 := ⟨(i 1).val, (i 1).isLt⟩

/-- Agent 64 * bj + jj: row jj of neighbour block bj = i 1. -/
abbrev ncol (i : grid0.Coords) (jj : Fin 64) : Fin 1024 :=
  ⟨64 * (i 1).val + jj.val, by have h : (i 1).val < 16 := (i 1).isLt; omega⟩

/-- The difference array at (r, jj, c) is x0[r, c] - x1[jj, c]. -/
theorem pay7_apply (x0 : FVec Ideal S128x4 .f32) (x1 : FVec Ideal S64x4 .f32) (r : Fin 128) (jj : Fin 64) (c : Fin 4) :
    Gen.k0_pay7 x0 x1 (ix3 r jj c) = x0 (ix2 r c) - x1 (ix2 jj c) := by
  unfold Gen.k0_pay7
  refine (subf_apply _ _ _).trans ?_
  refine congrArg₂ (· - ·) ?_ ?_
  · refine (broadcastTo_a1c_abc_apply _ _ r jj c).trans ?_
    rw [shapeCast_self]
    exact shapeCast_ac_a1c_apply _ _ r 0 c
  · refine (broadcastTo_1bc_abc_apply _ _ r jj c).trans ?_
    rw [shapeCast_self]
    exact shapeCast_ab_1ab_apply _ _ 0 jj c

/-- On blocks of the state array the difference array is the specification's pairwise difference. -/
theorem pay7_spec (s : Spec.Arr2 1024 4) (i : grid0.Coords) (x0 : FVec Ideal S128x4 .f32) (x1 : FVec Ideal S64x4 .f32)
    (hx0 : ∀ (r : Fin 128) (c : Fin 4), x0 (ix2 r c) = s (ix2 (qrow i r) c))
    (hx1 : ∀ (jj : Fin 64) (c : Fin 4), x1 (ix2 jj c) = s (ix2 (ncol i jj) c))
    (r : Fin 128) (jj : Fin 64) (c : Fin 4) :
    Gen.k0_pay7 (F := Ideal) x0 x1 (ix3 r jj c) = Spec.pd s (qrow i r) (ncol i jj) c := by
  rw [pay7_apply, hx0, hx1]
  rfl

end Cert.KernelIdeal.EdgeValue

end
-- ==== Proof.EdgeMask.lean ====
/-
  The neighbour mask of a block pair, read at coordinates: channel 0 and channel 1 of the pairwise differences
  are cut out, squared, added, the square root is taken and compared with the literal 0.5; the one-bit answer,
  widened and converted to a number, is 1 when the distance is below 0.5 and 0 otherwise. On blocks of the
  state array this is the specification's neighbour mask.
-/
import proofs.«105093_j86131274154571_1_alg».proof.Proof.Spec
import proofs.«105093_j86131274154571_1_alg».proof.Proof.Gen.KernelIdeal.Skeleton
import proofs.«105093_j86131274154571_1_alg».proof.Proof.LibPlainMatmul
import proofs.«105093_j86131274154571_1_alg».proof.Proof.EdgeDiff

noncomputable section

open scoped BigOperators

namespace Cert.KernelIdeal.EdgeValue

open Idealize.ShloMosaic Idealize.ShloMosaic.ValueIdx Cert.LibPlainMatmul

/-- The one-bit comparison "a below b", widened to 32 bits and converted to a number: 1 if a < b, else 0. -/
theorem lt_word (a b : EReal) :
    (FloatOps.sitofp (F := Ideal) .f32 ((FloatOps.cmpf (F := Ideal) (φ := .f32) .olt a b).setWidth 32) : EReal)
      = if a < b then 1 else 0 := by
  show (((((Ideal.cmp .olt a b).setWidth 32).toInt : ℝ)) : EReal) = _
  unfold Ideal.cmp
  by_cases h : a < b
  · rw [if_pos h]
    simp [h]
  · rw [if_neg h]
    simp [h]

/-- Channel k of a [128, 64, 4] array, cut out as [128, 64, 1] and viewed as [128, 64], at (r, jj). -/
theorem chan_apply {α : Type} (X : S128x64x4.Idx → α) (k : Nat) (hk : k < 4)
    (hs : S128x64x4.Slices ![0, 0, k] S128x64x1) (hc : S128x64x1.ShapeCasts S128x64) (r : Fin 128) (jj : Fin 64) :
    shapeCast S128x64 (extractStridedSlice S128x64x1 ![0, 0, k] X hs) hc (ix2 r jj) = X (ix3 r jj ⟨k, hk⟩) := by
  refine (shapeCast_apply _ hc (ix2 r jj) (ix3 r jj (0 : Fin 1)) ?_).trans ?_
  · rw [Shape.rowMajor_val_three, Shape.rowMajor_val_two]
    show (r.val * 64 + jj.val) * 1 + 0 = r.val * 64 + jj.val
    omega
  · refine extractStridedSlice_apply _ X hs _ (ix3 r jj ⟨k, hk⟩) fun a => ?_
    match a with
    | ⟨0, _⟩ => show r.val = 0 + r.val; omega
    | ⟨1, _⟩ => show jj.val = 0 + jj.val; omega
    | ⟨2, _⟩ => show k = k + 0; omega

/-- The mask at (r, jj): 1 when the root of the two squared position differences is below 0.5, else 0. -/
theorem pay8_apply (x0 : FVec Ideal S128x4 .f32) (x1 : FVec Ideal S64x4 .f32) (r : Fin 128) (jj : Fin 64) :
    Gen.k0_pay8 (F := Ideal) x0 x1 (ix2 r jj)
      = if Ideal.sqrt (Gen.k0_pay7 (F := Ideal) x0 x1 (ix3 r jj 0) * Gen.k0_pay7 (F := Ideal) x0 x1 (ix3 r jj 0)
          + Gen.k0_pay7 (F := Ideal) x0 x1 (ix3 r jj 1) * Gen.k0_pay7 (F := Ideal) x0 x1 (ix3 r jj 1)) < Spec.half then 1 else 0 := by
  unfold Gen.k0_pay8
  show FloatOps.sitofp (F := Ideal) .f32 ((FloatOps.cmpf (F := Ideal) (φ := .f32) .olt
      (Ideal.sqrt
        (shapeCast S128x64 (extractStridedSlice S128x64x1 ![0, 0, 0] (Gen.k0_pay7 (F := Ideal) x0 x1) Gen.slices_S128x64x4_o0_0_0_S128x64x1)
            Gen.shapeCasts_S128x64x1_S128x64 (ix2 r jj)
          * shapeCast S128x64 (extractStridedSlice S128x64x1 ![0, 0, 0] (Gen.k0_pay7 (F := Ideal) x0 x1) Gen.slices_S128x64x4_o0_0_0_S128x64x1)
            Gen.shapeCasts_S128x64x1_S128x64 (ix2 r jj)
          + shapeCast S128x64 (extractStridedSlice S128x64x1 ![0, 0, 1] (Gen.k0_pay7 (F := Ideal) x0 x1) Gen.slices_S128x64x4_o0_0_1_S128x64x1)
            Gen.shapeCasts_S128x64x1_S128x64 (ix2 r jj)
          * shapeCast S128x64 (extractStridedSlice S128x64x1 ![0, 0, 1] (Gen.k0_pay7 (F := Ideal) x0 x1) Gen.slices_S128x64x4_o0_0_1_S128x64x1)
            Gen.shapeCasts_S128x64x1_S128x64 (ix2 r jj)))
      Spec.half).setWidth 32) = _
  rw [chan_apply _ 0 (by decide) _ _ r jj, chan_apply _ 1 (by decide) _ _ r jj]
  exact lt_word _ _

/-- On blocks of the state array the mask is the specification's neighbour mask. -/
theorem pay8_spec (s : Spec.Arr2 1024 4) (i : grid0.Coords) (x0 : FVec Ideal S128x4 .f32) (x1 : FVec Ideal S64x4 .f32)
    (hx0 : ∀ (r : Fin 128) (c : Fin 4), x0 (ix2 r c) = s (ix2 (qrow i r) c))
    (hx1 : ∀ (jj : Fin 64) (c : Fin 4), x1 (ix2 jj c) = s (ix2 (ncol i jj) c))
    (r : Fin 128) (jj : Fin 64) :
    Gen.k0_pay8 (F := Ideal) x0 x1 (ix2 r jj) = Spec.mask s (qrow i r) (ncol i jj) := by
  rw [pay8_apply, pay7_spec s i x0 x1 hx0 hx1, pay7_spec s i x0 x1 hx0 hx1]
  rfl

end Cert.KernelIdeal.EdgeValue

end
-- ==== Proof.EdgeFeat.lean ====
/-
  The flattened edge features of a block pair, read at coordinates. The [128, 64, 4] pairwise differences and the
  [128, 64, 1] identity channel are joined along the last axis and the result is viewed as [8192, 5], row
  64 * r + jj holding the pair (r, jj). The identity channel compares the global row number 128 * bi + r with the
  global neighbour number 64 * bj + jj, both computed in 32-bit words, where at these sizes nothing wraps; the
  one-bit answer, widened and converted, is 1 on the diagonal and 0 off it. On blocks of the state array the
  row is the specification's five edge features of the two agents.
-/
import proofs.«105093_j86131274154571_1_alg».proof.Proof.Spec
import proofs.«105093_j86131274154571_1_alg».proof.Proof.Gen.KernelIdeal.Skeleton
import proofs.«105093_j86131274154571_1_alg».proof.Proof.LibPlainMatmul
import proofs.«105093_j86131274154571_1_alg».proof.Proof.EdgeDiff

noncomputable section

open scoped BigOperators

namespace Cert.KernelIdeal.EdgeValue

open Idealize.ShloMosaic Idealize.ShloMosaic.ValueIdx Cert.LibPlainMatmul

/-- Row 64 * r + jj of the flattened [8192, _] arrays: the pair (r, jj). -/
abbrev flat (r : Fin 128) (jj : Fin 64) : Fin 8192 := ⟨64 * r.val + jj.val, by omega⟩

/-- The one-bit comparison "X equals Y" of two 32-bit words, widened and converted to a number: 1 if the words'
    values agree, else 0. -/
theorem eq_word (X Y : BitVec 32) (a b : Nat) (hX : X.toNat = a) (hY : Y.toNat = b) :
    (FloatOps.sitofp (F := Ideal) .f32 ((IntOp.cmpi .eq X Y).setWidth 32) : EReal) = if a = b then 1 else 0 := by
  show ((((BitVec.ofBool (X == Y)).setWidth 32).toInt : ℝ) : EReal) = _
  by_cases h : a = b
  · have hXY : (X == Y) = true := beq_iff_eq.mpr (BitVec.eq_of_toNat_eq (by rw [hX, hY, h]))
    rw [if_pos h, hXY]
    have e : ((BitVec.ofBool true).setWidth 32).toInt = 1 := by decide
    rw [e]
    simp
  · have hXY : (X == Y) = false := beq_eq_false_iff_ne.mpr (fun e => h (by rw [← hX, ← hY, e]))
    rw [if_neg h, hXY]
    have e : ((BitVec.ofBool false).setWidth 32).toInt = 0 := by decide
    rw [e]
    simp

/-- The 32-bit word (bi * 128) + r has the value 128 * bi + r: nothing wraps below 2 ^ 32. -/
theorem row_word (bi r : Nat) (hbi : bi < 8) (hr : r < 128) :
    (IntOp.addi (Scalar.muli (BitVec.ofNat 32 bi) 128#32) (BitVec.ofNat 32 (0 * 128 + r))).toNat = 128 * bi + r := by
  unfold IntOp.addi Scalar.muli IntOp.muli
  rw [BitVec.toNat_add, BitVec.toNat_mul, BitVec.toNat_ofNat, BitVec.toNat_ofNat, BitVec.toNat_ofNat]
  omega

/-- The word 64 * bj + jj likewise. -/
theorem col_word (bj jj : Nat) (hbj : bj < 16) (hjj : jj < 64) :
    (IntOp.addi (Scalar.muli (BitVec.ofNat 32 bj) 64#32) (BitVec.ofNat 32 (0 * 64 + jj))).toNat = 64 * bj + jj := by
  unfold IntOp.addi Scalar.muli IntOp.muli
  rw [BitVec.toNat_add, BitVec.toNat_mul, BitVec.toNat_ofNat, BitVec.toNat_ofNat, BitVec.toNat_ofNat]
  omega

/-- Channels 0 to 3 of row (r, jj) are the pairwise differences. -/
theorem pay9_lt (i : grid0.Coords) (x0 : FVec Ideal S128x4 .f32) (x1 : FVec Ideal S64x4 .f32) (r : Fin 128) (jj : Fin 64)
    (c : Fin 5) (hc : c.val < 4) :
    Gen.k0_pay9 (F := Ideal) i x0 x1 (ix2 (flat r jj) c) = Gen.k0_pay7 (F := Ideal) x0 x1 (ix3 r jj ⟨c.val, hc⟩) := by
  unfold Gen.k0_pay9
  refine (truncf_apply (φ := .f32) (ψ := .bf16) _ Gen.bitsLt_bf16_f32 _).trans ?_
  refine (shapeCast_apply _ Gen.shapeCasts_S128x64x5_S8192x5 _ (ix3 r jj c) ?_).trans ?_
  · rw [Shape.rowMajor_val_three, Shape.rowMajor_val_two]
    show (r.val * 64 + jj.val) * 5 + c.val = (64 * r.val + jj.val) * 5 + c.val
    omega
  · exact concatenate_pair_apply_left (t := S128x64x5) (s₁ := S128x64x4) (s₂ := S128x64x1) 2 _ _ _ (ix3 r jj c) rfl (ix3 r jj ⟨c.val, hc⟩) (fun d => by
      match d with
      | ⟨0, _⟩ => rfl
      | ⟨1, _⟩ => rfl
      | ⟨2, _⟩ => rfl)

/-- Channel 4 of row (r, jj) is the identity channel: 1 when 128 * bi + r = 64 * bj + jj, else 0. -/
theorem pay9_ge (i : grid0.Coords) (x0 : FVec Ideal S128x4 .f32) (x1 : FVec Ideal S64x4 .f32) (r : Fin 128) (jj : Fin 64)
    (c : Fin 5) (hc : ¬ c.val < 4) :
    Gen.k0_pay9 (F := Ideal) i x0 x1 (ix2 (flat r jj) c)
      = if 128 * (i 0).val + r.val = 64 * (i 1).val + jj.val then 1 else 0 := by
  have hi0 : (i 0).val < 8 := (i 0).isLt
  have hi1 : (i 1).val < 16 := (i 1).isLt
  unfold Gen.k0_pay9
  refine (truncf_apply (φ := .f32) (ψ := .bf16) _ Gen.bitsLt_bf16_f32 _).trans ?_
  refine (shapeCast_apply _ Gen.shapeCasts_S128x64x5_S8192x5 _ (ix3 r jj c) ?_).trans ?_
  · rw [Shape.rowMajor_val_three, Shape.rowMajor_val_two]
    show (r.val * 64 + jj.val) * 5 + c.val = (64 * r.val + jj.val) * 5 + c.val
    omega
  refine (concatenate_pair_apply_right (t := S128x64x5) (s₁ := S128x64x4) (s₂ := S128x64x1) 2 _ _ _ (ix3 r jj c) rfl rfl (ix3 r jj (0 : Fin 1)) (fun d hd => by
      match d, hd with
      | ⟨0, _⟩, _ => rfl
      | ⟨1, _⟩, _ => rfl
      | ⟨2, _⟩, hd => exact absurd rfl hd)
      (by show (0 : Nat) + 4 = c.val; have := c.isLt; omega)).trans ?_
  refine (shapeCast_apply _ Gen.shapeCasts_S128x64_S128x64x1 _ (ix2 r jj) ?_).trans ?_
  · rw [Shape.rowMajor_val_three, Shape.rowMajor_val_two]
    show r.val * 64 + jj.val = (r.val * 64 + jj.val) * 1 + 0
    omega
  exact eq_word _ _ _ _ (row_word (i 0).val r.val hi0 r.isLt) (col_word (i 1).val jj.val hi1 jj.isLt)

/-- On blocks of the state array, row (r, jj) of the flattened edge features is the specification's. -/
theorem pay9_spec (s : Spec.Arr2 1024 4) (i : grid0.Coords) (x0 : FVec Ideal S128x4 .f32) (x1 : FVec Ideal S64x4 .f32)
    (hx0 : ∀ (r : Fin 128) (c : Fin 4), x0 (ix2 r c) = s (ix2 (qrow i r) c))
    (hx1 : ∀ (jj : Fin 64) (c : Fin 4), x1 (ix2 jj c) = s (ix2 (ncol i jj) c))
    (r : Fin 128) (jj : Fin 64) (c : Fin 5) :
    Gen.k0_pay9 (F := Ideal) i x0 x1 (ix2 (flat r jj) c) = Spec.x5 s (qrow i r) (ncol i jj) c := by
  unfold Spec.x5
  by_cases hc : c.val < 4
  · rw [dif_pos hc, pay9_lt i x0 x1 r jj c hc]
    exact pay7_spec s i x0 x1 hx0 hx1 r jj ⟨c.val, hc⟩
  · rw [dif_neg hc, pay9_ge i x0 x1 r jj c hc]
    unfold Spec.eye
    refine if_congr ?_ rfl rfl
    constructor
    · intro h; exact Fin.ext h
    · intro h; exact congrArg Fin.val h

end Cert.KernelIdeal.EdgeValue

end
-- ==== Proof.EdgeLayers.lean ====
/-
  One rectified affine layer read at coordinates, over literal rank-2 shapes of any sizes: the rows of A times the
  transposed weight W (given as [n, k], transposed to [k, n] for the product) into the zero accumulator, plus the
  bias spread over the rows, then the maximum with a zero splat. At (p, q) this is
  max (∑ c, A[p, c] * W[q, c] + b[q]) 0.
-/
import proofs.«105093_j86131274154571_1_alg».proof.Proof.Spec
import proofs.«105093_j86131274154571_1_alg».proof.Proof.Gen.KernelIdeal.Skeleton
import proofs.«105093_j86131274154571_1_alg».proof.Proof.LibPlainMatmul

noncomputable section

open scoped BigOperators

namespace Cert.KernelIdeal.EdgeValue

open Idealize.ShloMosaic Idealize.ShloMosaic.ValueIdx Cert.LibPlainMatmul

/-- A rectified affine layer at (p, q). -/
theorem relu_affine_apply {m k n : Nat}
    (wf : DotDims.WF (⟨2, ![m, k]⟩ : Shape) ⟨2, ![k, n]⟩ ⟨2, ![m, n]⟩ [1] [0] [0] [1] [] [])
    (hT : (⟨2, ![n, k]⟩ : Shape).Transposes [1, 0] ⟨2, ![k, n]⟩)
    (hS : (⟨1, ![n]⟩ : Shape).ShapeCasts ⟨2, ![1, n]⟩)
    (hB : (⟨2, ![1, n]⟩ : Shape).Broadcasts ⟨2, ![m, n]⟩)
    {φ₁ φ₂ : FTy} (A : FVec Ideal ⟨2, ![m, k]⟩ φ₁) (W : FVec Ideal ⟨2, ![n, k]⟩ φ₂) (b : FVec Ideal ⟨1, ![n]⟩ .f32)
    (p : Fin m) (q : Fin n) :
    maximumf (addf (FloatOps.matmul (plainDims wf) none A (transpose ⟨2, ![k, n]⟩ [1, 0] W hT)
            (constant (F := Ideal) ⟨2, ![m, n]⟩ .f32 0x00000000#32))
          (broadcastTo ⟨2, ![m, n]⟩ (shapeCast ⟨2, ![1, n]⟩ b hS) hB))
        (broadcast ⟨2, ![m, n]⟩ (Scalar.ofBits (F := Ideal) .f32 0x00000000#32)) (ix2 p q)
      = max (∑ c : Fin k, A (ix2 p c) * W (ix2 q c) + b (ix1 q)) 0 := by
  refine (maximumf_apply _ _ _).trans ?_
  refine congrArg₂ max ?_ ?_
  · refine (addf_apply _ _ _).trans ?_
    refine congrArg₂ (· + ·) ?_ ?_
    · refine (matmul_zero_plain wf _ _ p q).trans ?_
      refine Finset.sum_congr rfl fun c _ => ?_
      rw [transpose_ix2_apply]
    · refine (broadcastTo_1b_ab_apply _ hB p q).trans ?_
      exact shapeCast_a_1a_apply b hS 0 q
  · exact Ideal.ofBits_zero_f32

end Cert.KernelIdeal.EdgeValue

end
-- ==== Proof.EdgeMax.lean ====
/-
  One accumulation step of the masked maximum, read at coordinates. From the flattened edge features of a block
  pair (128 query rows, 64 neighbour rows) two rectified affine layers (5 -> 64 -> 128) are computed row by row;
  the [8192, 128] result is viewed as [128, 64, 128] (row 64 * r + jj is the pair (r, jj)), multiplied by the 0/1
  neighbour mask spread along the last axis, and reduced by maximum over the 64 neighbours starting from minus
  infinity; the result is joined by maximum with the previous accumulator. When the two blocks are rows
  128 * bi .. and 64 * bj .. of the state array, entry (r, o) of the new accumulator is the maximum of the old entry
  and the specification's maximum over neighbour block bj for agent 128 * bi + r and feature o.
-/
import proofs.«105093_j86131274154571_1_alg».proof.Proof.Spec
import proofs.«105093_j86131274154571_1_alg».proof.Proof.Gen.KernelIdeal.Skeleton
import proofs.«105093_j86131274154571_1_alg».proof.Proof.LibPlainMatmul
import proofs.«105093_j86131274154571_1_alg».proof.Proof.EdgeMask
import proofs.«105093_j86131274154571_1_alg».proof.Proof.EdgeFeat
import proofs.«105093_j86131274154571_1_alg».proof.Proof.EdgeLayers

noncomputable section

open scoped BigOperators

namespace Cert.KernelIdeal.EdgeValue

open Idealize.ShloMosaic Idealize.ShloMosaic.ValueIdx Cert.LibPlainMatmul

section Layout
variable {α : Type}

/-- An [a, b] array cast to [a, b, 1] reads, at (p, q, z), the operand at (p, q). -/
theorem cast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_three, Shape.rowMajor_val_two]
    show p.val * b + q.val = (p.val * b + q.val) * 1 + z.val
    rw [hz, Nat.mul_one, Nat.add_zero])

/-- An [a, b, 1] array broadcast to [a, b, c] reads, at (p, q, s), the operand at (p, q, 0). -/
theorem bcast_ab1_abc_apply {a b c : ℕ} (x : (⟨3, ![a, b, 1]⟩ : Shape).Idx → α)
    (h : (⟨3, ![a, b, 1]⟩ : Shape).Broadcasts ⟨3, ![a, b, c]⟩) (p : Fin a) (q : Fin b) (s : Fin c) :
    broadcastTo ⟨3, ![a, b, c]⟩ x h (ix3 p q s) = x (ix3 p q (0 : Fin 1)) := by
  refine broadcastTo_apply x h (ix3 p q s) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An [8192, 128] array viewed as [128, 64, 128] reads, at (r, jj, o), row 64 * r + jj at o. -/
theorem cast_flat_apply (x : S8192x128.Idx → α) (h : S8192x128.ShapeCasts S128x64x128) (r : Fin 128) (jj : Fin 64)
    (o : Fin 128) : shapeCast S128x64x128 x h (ix3 r jj o) = x (ix2 (flat r jj) o) :=
  shapeCast_apply x h _ _ (by
    rw [Shape.rowMajor_val_three, Shape.rowMajor_val_two]
    show (64 * r.val + jj.val) * 128 + o.val = (r.val * 64 + jj.val) * 128 + o.val
    omega)

end Layout

/-- The f32 word 0xFF800000 is minus infinity. -/
theorem ofBits_neg_inf : Ideal.ofBits .f32 0xFF800000#32 = ⊥ := by simp [Ideal.ofBits, Ideal.ieee]

/-- The maximum over the middle axis of a [128, 64, 128] array, started from minus infinity, at (r, o): the supremum
    of the 64 entries (r, jj, o). -/
theorem colmax_apply (src : FVec Ideal S128x64x128 .f32) (h : S128x64x128.Reduces [1] S128x128) (hφ : FKind.Formats .f32)
    (hacc : (0xFF800000#32 : BitVec 32) = FKind.maximumf.neutral .f32 hφ) (r o : Fin 128) :
    multiReduction .maximumf [1] S128x128 src 0xFF800000#32 h hφ hacc (ix2 r o)
      = Finset.univ.sup fun jj : Fin 64 => src (ix3 r jj o) := by
  refine (Ideal.multiReduction_maximumf_single src _ h hφ hacc (ix2 r o)).trans ?_
  show (Finset.univ : Finset (Fin 64)).fold max (Ideal.ofBits .f32 0xFF800000#32)
      (fun jj : Fin 64 => src (h.lift (ix2 r o) jj)) = _
  rw [ofBits_neg_inf]
  have e : ∀ jj : Fin 64, h.lift (ix2 r o) jj = ix3 r jj o := fun jj => funext fun a => Fin.ext (by
    match a with
    | ⟨0, _⟩ => rfl
    | ⟨1, _⟩ => rfl
    | ⟨2, _⟩ => rfl)
  simp only [e]
  rfl

/-- The accumulation step at grid point i, the blocks being rows of the state array. -/
theorem acc_step_at (s : Spec.Arr2 1024 4) (i : grid0.Coords) (x0 : FVec Ideal S128x4 .f32) (x1 : FVec Ideal S64x4 .f32)
    (w1 : FVec Ideal S64x5 .f32) (b1 : FVec Ideal S64 .f32) (w2 : FVec Ideal S128x64 .f32) (b2 : FVec Ideal S128 .f32)
    (acc : FVec Ideal S128x128 .f32)
    (hx0 : ∀ (r : Fin 128) (c : Fin 4), x0 (ix2 r c) = s (ix2 (qrow i r) c))
    (hx1 : ∀ (jj : Fin 64) (c : Fin 4), x1 (ix2 jj c) = s (ix2 (ncol i jj) c))
    (r : Fin 128) (o : Fin 128) :
    Gen.k0_pay1 (F := Ideal) (Gen.k0_pay8 x0 x1) (Gen.k0_pay9 i x0 x1) (Gen.k0_pay10 w1) b1 w2 b2 acc (ix2 r o)
      = max (acc (ix2 r o)) (Spec.blockMax s w1 b1 w2 b2 (qrow i r) (nblk i) o) := by
  unfold Gen.k0_pay1
  refine (congrFun (shapeCast_self _ _) _).trans ?_
  refine (maximumf_apply _ _ _).trans ?_
  refine congrArg (max (acc (ix2 r o))) ?_
  refine (colmax_apply _ _ _ _ r o).trans ?_
  unfold Spec.blockMax
  refine congrArg (Finset.sup Finset.univ) (funext fun jj => ?_)
  refine (mulf_apply _ _ _).trans ?_
  unfold Spec.masked
  refine congrArg₂ (· * ·) ?_ ?_
  · refine (cast_flat_apply _ _ r jj o).trans ?_
    refine (relu_affine_apply Gen.dot_S8192x64_S64x128_S8192x128_1_0_0_1_n_n_wf _ _ _ _ _ _ (flat r jj) o).trans ?_
    unfold Spec.h2
    refine congrArg (max · 0) ?_
    refine congrArg₂ (· + ·) (Finset.sum_congr rfl fun c _ => congrArg₂ (· * ·) ?_ rfl) rfl
    refine (truncf_apply (φ := .f32) (ψ := .bf16) _ Gen.bitsLt_bf16_f32 _).trans ?_
    refine (relu_affine_apply Gen.dot_S8192x5_S5x64_S8192x64_1_0_0_1_n_n_wf _ _ _ _ _ _ (flat r jj) c).trans ?_
    unfold Spec.h1
    refine congrArg (max · 0) ?_
    refine congrArg₂ (· + ·) (Finset.sum_congr rfl fun c' _ => congrArg₂ (· * ·) ?_ rfl) rfl
    exact pay9_spec s i x0 x1 hx0 hx1 r jj c'
  · refine (bcast_ab1_abc_apply _ _ r jj o).trans ?_
    refine (cast_ab_ab1_apply _ _ r jj 0).trans ?_
    exact pay8_spec s i x0 x1 hx0 hx1 r jj

/-- The accumulation step, the grid point's coordinates given as naturals bi < 8 and bj < 16. -/
theorem acc_step (s : Spec.Arr2 1024 4) (i : grid0.Coords) (bi bj : ℕ) (hbi : (i 0).val = bi) (hbj : (i 1).val = bj)
    (h8 : bi < 8) (h16 : bj < 16) (x0 : FVec Ideal S128x4 .f32) (x1 : FVec Ideal S64x4 .f32)
    (w1 : FVec Ideal S64x5 .f32) (b1 : FVec Ideal S64 .f32) (w2 : FVec Ideal S128x64 .f32) (b2 : FVec Ideal S128 .f32)
    (acc : FVec Ideal S128x128 .f32)
    (hx0 : ∀ (r : Fin 128) (c : Fin 4), x0 (ix2 r c) = s (ix2 (⟨128 * bi + r.val, by omega⟩ : Fin 1024) c))
    (hx1 : ∀ (jj : Fin 64) (c : Fin 4), x1 (ix2 jj c) = s (ix2 (⟨64 * bj + jj.val, by omega⟩ : Fin 1024) c))
    (r : Fin 128) (o : Fin 128) :
    Gen.k0_pay1 (F := Ideal) (Gen.k0_pay8 x0 x1) (Gen.k0_pay9 i x0 x1) (Gen.k0_pay10 w1) b1 w2 b2 acc (ix2 r o)
      = max (acc (ix2 r o))
          (Spec.blockMax s w1 b1 w2 b2 (⟨128 * bi + r.val, by omega⟩ : Fin 1024) (⟨bj, h16⟩ : Fin 16) o) := by
  subst hbi hbj
  exact acc_step_at s i x0 x1 w1 b1 w2 b2 acc hx0 hx1 r o

end Cert.KernelIdeal.EdgeValue

end
-- ==== Proof.HeadFeat.lean ====
/-
  The head's 132 input features of one block of 128 agents, read entry by entry.

  For the agents row0 .. row0 + 127 the block x0 holds their states, x2 their goals and acc their pooled edge
  features. The goal offset is the first two state columns less the goal, the velocity is the last two state
  columns, and the feature row lays the 128 pooled values, the two offsets and the two velocities end to end:
  column k < 128 is the pooled value, 128 ≤ k < 130 the offset k - 128, and 130 ≤ k the state column k - 128.
-/
import proofs.«105093_j86131274154571_1_alg».proof.Proof.Spec
import proofs.«105093_j86131274154571_1_alg».proof.Proof.Gen.KernelIdeal.Skeleton
import proofs.«105093_j86131274154571_1_alg».proof.Proof.LibPlainMatmul

noncomputable section

namespace Cert.KernelIdeal.HeadValue

open Idealize.ShloMosaic Idealize.ShloMosaic.ValueIdx
open scoped BigOperators

/-- The goal-offset block at (r, c): state column c less the goal. -/
theorem pay3_apply (x0 : FVec Ideal S128x4 .f32) (x2 : FVec Ideal S128x2 .f32) (r : Fin 128) (c : Fin 2) :
    Gen.k0_pay3 x0 x2 (ix2 r c) = x0 (ix2 r (Spec.lo4 c)) - x2 (ix2 r c) := by
  unfold Gen.k0_pay3
  refine (subf_apply _ _ _).trans ?_
  refine congrArg (fun z : EReal => z - x2 (ix2 r c)) ?_
  exact extractStridedSlice_apply _ x0 _ (ix2 r c) (ix2 r (Spec.lo4 c)) (fun a => by
    match a with
    | ⟨0, _⟩ => show r.val = 0 + r.val; omega
    | ⟨1, _⟩ => show c.val = 0 + c.val; omega)

/-- The velocity block at (r, c): state column c + 2. -/
theorem pay4_apply (x0 : FVec Ideal S128x4 .f32) (r : Fin 128) (c : Fin 2) :
    Gen.k0_pay4 x0 (ix2 r c) = x0 (ix2 r (Spec.hi4 c)) := by
  unfold Gen.k0_pay4
  exact extractStridedSlice_apply _ x0 _ (ix2 r c) (ix2 r (Spec.hi4 c)) (fun a => by
    match a with
    | ⟨0, _⟩ => show r.val = 0 + r.val; omega
    | ⟨1, _⟩ => show c.val + 2 = 2 + c.val; omega)

/-- The feature row at (r, k): pooled value, goal offset or velocity by the range of k. -/
theorem feat_apply (s : Spec.Arr2 1024 4) (g : Spec.Arr2 1024 2) (w1 : Spec.Arr2 64 5) (b1 : Spec.Arr1 64)
    (w2 : Spec.Arr2 128 64) (b2 : Spec.Arr1 128) (row0 : Nat) (hrow : row0 + 128 ≤ 1024)
    (x0 : FVec Ideal S128x4 .f32) (x2 : FVec Ideal S128x2 .f32) (acc : FVec Ideal S128x128 .f32)
    (hx0 : ∀ (r : Fin 128) (c : Fin 4), x0 (ix2 r c) = s (ix2 ⟨row0 + r.val, by omega⟩ c))
    (hx2 : ∀ (r : Fin 128) (c : Fin 2), x2 (ix2 r c) = g (ix2 ⟨row0 + r.val, by omega⟩ c))
    (hacc : ∀ (r : Fin 128) (o : Fin 128), acc (ix2 r o) = Spec.pooled s w1 b1 w2 b2 ⟨row0 + r.val, by omega⟩ o)
    (r : Fin 128) (k : Fin 132) :
    concatenate S128x132 1 [⟨S128x128, acc⟩, ⟨S128x2, Gen.k0_pay3 x0 x2⟩, ⟨S128x2, Gen.k0_pay4 x0⟩]
        Gen.concatenates_S128x128_S128x2_S128x2_S128x132_d1 (ix2 r k)
      = Spec.feat s g w1 b1 w2 b2 ⟨row0 + r.val, by omega⟩ k := by
  by_cases h1 : k.val < 128
  · refine (concatenate_apply_piece (1 : Fin S128x132.rank) _ _ (ix2 r k) 0 (by show (0 : Nat) < 3; omega) S128x128 acc rfl rfl 0 rfl
      (ix2 r ⟨k.val, h1⟩) (fun b => ?_) ?_).trans ?_
    · match b with
      | ⟨0, _⟩ => exact fun _ => rfl
      | ⟨1, _⟩ => exact fun hb => absurd rfl hb
    · show 0 + k.val = k.val; omega
    · rw [hacc]; unfold Spec.feat; rw [dif_pos h1]
  · by_cases h2 : k.val < 130
    · refine (concatenate_apply_piece (1 : Fin S128x132.rank) _ _ (ix2 r k) 1 (by show (1 : Nat) < 3; omega) S128x2 (Gen.k0_pay3 x0 x2) rfl rfl
        128 rfl (ix2 r ⟨k.val - 128, by omega⟩) (fun b => ?_) ?_).trans ?_
      · match b with
        | ⟨0, _⟩ => exact fun _ => rfl
        | ⟨1, _⟩ => exact fun hb => absurd rfl hb
      · show 128 + (k.val - 128) = k.val; omega
      · rw [pay3_apply, hx0, hx2]; unfold Spec.feat; rw [dif_neg h1, dif_pos h2]; rfl
    · refine (concatenate_apply_piece (1 : Fin S128x132.rank) _ _ (ix2 r k) 2 (by show (2 : Nat) < 3; omega) S128x2 (Gen.k0_pay4 x0) rfl rfl
        130 rfl (ix2 r ⟨k.val - 130, by omega⟩) (fun b => ?_) ?_).trans ?_
      · match b with
        | ⟨0, _⟩ => exact fun _ => rfl
        | ⟨1, _⟩ => exact fun hb => absurd rfl hb
      · show 130 + (k.val - 130) = k.val; omega
      · rw [pay4_apply, hx0]; unfold Spec.feat; rw [dif_neg h1, dif_neg h2]
        exact congrArg (fun c : Fin 4 => s (ix2 ⟨row0 + r.val, by omega⟩ c)) (Fin.ext (by show k.val - 130 + 2 = k.val - 128; omega))

end Cert.KernelIdeal.HeadValue

end
-- ==== Proof.HeadDense.lean ====
/-
  A rectified dense layer read at an entry.

  The layer multiplies an m × k array of inputs by the transpose of an n × k weight array (the product accumulated
  from zero), adds the bias row to every row and takes the maximum with zero. At (p, q) that is
  max (∑ c, X (p, c) · W (q, c) + b q) 0: the product at (p, q) is the sum over the shared axis, the transposed
  weights read W (q, c) at (c, q), and the bias row broadcast down the rows reads b q. A change of number format of
  the operands is the identity on the extended reals.
-/
import Idealize.ShloMosaic.Lib.IdealHost
import proofs.«105093_j86131274154571_1_alg».proof.Proof.LibPlainMatmul

noncomputable section

namespace Cert.KernelIdeal.HeadValue

open Idealize.ShloMosaic Idealize.ShloMosaic.ValueIdx
open scoped BigOperators

section Dense
variable {m k n : Nat}

/-- An affine layer at (p, q): the inputs, named entry by entry by xv, against row q of the weights, plus bias q. -/
theorem affine_apply {φ : FTy}
    (wf : DotDims.WF (⟨2, ![m, k]⟩ : Shape) ⟨2, ![k, n]⟩ ⟨2, ![m, n]⟩ [1] [0] [0] [1] [] [])
    (hT : (⟨2, ![n, k]⟩ : Shape).Transposes [1, 0] ⟨2, ![k, n]⟩)
    (hsc : (⟨1, ![n]⟩ : Shape).ShapeCasts ⟨2, ![1, n]⟩) (hbc : (⟨2, ![1, n]⟩ : Shape).Broadcasts ⟨2, ![m, n]⟩)
    (hlt : FTy.bits .bf16 < FTy.bits .f32)
    (X : FVec Ideal ⟨2, ![m, k]⟩ φ) (W : FVec Ideal ⟨2, ![n, k]⟩ .f32) (b : FVec Ideal ⟨1, ![n]⟩ .f32)
    (p : Fin m) (q : Fin n) (xv : Fin k → EReal) (hX : ∀ c : Fin k, X (ix2 p c) = xv c) :
    addf (FloatOps.matmul (LibPlainMatmul.plainDims wf) none X (transpose ⟨2, ![k, n]⟩ [1, 0] (truncf .bf16 W hlt) hT)
          (constant (F := Ideal) ⟨2, ![m, n]⟩ .f32 0x00000000#32))
        (broadcastTo ⟨2, ![m, n]⟩ (shapeCast ⟨2, ![1, n]⟩ b hsc) hbc) (ix2 p q)
      = ∑ c : Fin k, xv c * W (ix2 q c) + b (ix1 q) := by
  refine (addf_apply _ _ _).trans ?_
  refine congrArg₂ (fun u v : EReal => u + v) ?_ ?_
  · refine (LibPlainMatmul.matmul_zero_plain wf _ _ p q).trans ?_
    refine Finset.sum_congr rfl fun c _ => ?_
    refine congrArg₂ (fun u v : EReal => u * v) (hX c) ?_
    exact (transpose_ix2_apply _ hT c q).trans (truncf_apply W hlt _)
  · exact (broadcastTo_1b_ab_apply _ hbc p q).trans (shapeCast_a_1a_apply b hsc 0 q)

/-- The same layer rectified: the maximum with a splat of the zero word. -/
theorem relu_affine_apply {φ : FTy}
    (wf : DotDims.WF (⟨2, ![m, k]⟩ : Shape) ⟨2, ![k, n]⟩ ⟨2, ![m, n]⟩ [1] [0] [0] [1] [] [])
    (hT : (⟨2, ![n, k]⟩ : Shape).Transposes [1, 0] ⟨2, ![k, n]⟩)
    (hsc : (⟨1, ![n]⟩ : Shape).ShapeCasts ⟨2, ![1, n]⟩) (hbc : (⟨2, ![1, n]⟩ : Shape).Broadcasts ⟨2, ![m, n]⟩)
    (hlt : FTy.bits .bf16 < FTy.bits .f32)
    (X : FVec Ideal ⟨2, ![m, k]⟩ φ) (W : FVec Ideal ⟨2, ![n, k]⟩ .f32) (b : FVec Ideal ⟨1, ![n]⟩ .f32)
    (p : Fin m) (q : Fin n) (xv : Fin k → EReal) (hX : ∀ c : Fin k, X (ix2 p c) = xv c) :
    maximumf (addf (FloatOps.matmul (LibPlainMatmul.plainDims wf) none X
            (transpose ⟨2, ![k, n]⟩ [1, 0] (truncf .bf16 W hlt) hT) (constant (F := Ideal) ⟨2, ![m, n]⟩ .f32 0x00000000#32))
          (broadcastTo ⟨2, ![m, n]⟩ (shapeCast ⟨2, ![1, n]⟩ b hsc) hbc))
        (broadcast ⟨2, ![m, n]⟩ (Scalar.ofBits (F := Ideal) .f32 0x00000000#32)) (ix2 p q)
      = max (∑ c : Fin k, xv c * W (ix2 q c) + b (ix1 q)) 0 := by
  refine (maximumf_apply _ _ _).trans ?_
  refine congrArg₂ (fun u v : EReal => max u v) (affine_apply wf hT hsc hbc hlt X W b p q xv hX) ?_
  exact Ideal.ofBits_zero_f32

end Dense

end Cert.KernelIdeal.HeadValue

end
-- ==== Proof.HeadLayers.lean ====
/-
  The three rectified layers of the head, 132 → 64 → 128 → 64, of one block of 128 agents, read at an entry.

  Each layer is a rectified dense layer of the previous one's output (changes of number format between them are
  the identity on the extended reals), so entry (r, o) of the third layer's output is the specification's third
  layer of agent row0 + r at o, its inputs being, entry by entry, the second layer's, those the first layer's,
  and those the 132 features of the agent.
-/
import proofs.«105093_j86131274154571_1_alg».proof.Proof.HeadFeat
import proofs.«105093_j86131274154571_1_alg».proof.Proof.HeadDense

noncomputable section

namespace Cert.KernelIdeal.HeadValue

open Idealize.ShloMosaic Idealize.ShloMosaic.ValueIdx
open scoped BigOperators

/-- The third layer's output at (r, o) is the specification's third layer of agent row0 + r. -/
theorem pay5_apply (s : Spec.Arr2 1024 4) (g : Spec.Arr2 1024 2) (w1 : Spec.Arr2 64 5) (b1 : Spec.Arr1 64)
    (w2 : Spec.Arr2 128 64) (b2 : Spec.Arr1 128) (row0 : Nat) (hrow : row0 + 128 ≤ 1024)
    (x0 : FVec Ideal S128x4 .f32) (x2 : FVec Ideal S128x2 .f32) (acc : FVec Ideal S128x128 .f32)
    (f1w : FVec Ideal S64x132 .f32) (f1b : FVec Ideal S64 .f32) (f2w : FVec Ideal S128x64 .f32)
    (f2b : FVec Ideal S128 .f32) (f3w : FVec Ideal S64x128 .f32) (f3b : FVec Ideal S64 .f32)
    (hx0 : ∀ (r : Fin 128) (c : Fin 4), x0 (ix2 r c) = s (ix2 ⟨row0 + r.val, by omega⟩ c))
    (hx2 : ∀ (r : Fin 128) (c : Fin 2), x2 (ix2 r c) = g (ix2 ⟨row0 + r.val, by omega⟩ c))
    (hacc : ∀ (r : Fin 128) (o : Fin 128), acc (ix2 r o) = Spec.pooled s w1 b1 w2 b2 ⟨row0 + r.val, by omega⟩ o)
    (r : Fin 128) (o : Fin 64) :
    Gen.k0_pay5 (F := Ideal) x0 acc x2 f1w f1b f2w f2b f3w f3b (ix2 r o)
      = Spec.z3 s g w1 b1 w2 b2 f1w f1b f2w f2b f3w f3b ⟨row0 + r.val, by omega⟩ o := by
  unfold Gen.k0_pay5
  refine (truncf_apply (φ := .f32) (ψ := .bf16) _ Gen.bitsLt_bf16_f32 (ix2 r o)).trans ?_
  refine (relu_affine_apply _ _ _ _ _ _ f3w f3b r o
    (fun c => Spec.z2 s g w1 b1 w2 b2 f1w f1b f2w f2b ⟨row0 + r.val, by omega⟩ c) (fun c => ?_)).trans rfl
  refine (truncf_apply (φ := .f32) (ψ := .bf16) _ Gen.bitsLt_bf16_f32 (ix2 r c)).trans ?_
  refine (relu_affine_apply _ _ _ _ _ _ f2w f2b r c
    (fun c => Spec.z1 s g w1 b1 w2 b2 f1w f1b ⟨row0 + r.val, by omega⟩ c) (fun c' => ?_)).trans rfl
  refine (truncf_apply (φ := .f32) (ψ := .bf16) _ Gen.bitsLt_bf16_f32 (ix2 r c')).trans ?_
  refine (relu_affine_apply _ _ _ _ _ _ f1w f1b r c'
    (fun j => Spec.feat s g w1 b1 w2 b2 ⟨row0 + r.val, by omega⟩ j) (fun j => ?_)).trans rfl
  refine (truncf_apply (φ := .f32) (ψ := .bf16) _ Gen.bitsLt_bf16_f32 (ix2 r j)).trans ?_
  exact feat_apply s g w1 b1 w2 b2 row0 hrow x0 x2 acc hx0 hx2 hacc r j

end Cert.KernelIdeal.HeadValue

end
-- ==== Proof.HeadGain.lean ====
/-
  The gains of the head: the last affine layer followed by 2 · sigmoid − 1, read at an entry, and the two gain rows.

  The logistic function of the extended reals is 1 / (1 + exp (−x)) with the real number one, which is also the
  value of the single-precision word 0x3F800000; so twice the logistic of a logit less that word is the
  specification's gain of the logit. Of the four gains k0 .. k3 of an agent the x-row is −(k0, 0, k1, 0) and the
  y-row −(0, k2, 0, k3): each is assembled from single columns of the gains and zero columns laid side by side,
  and then subtracted from zero, which on the extended reals is negation.
-/
import proofs.«105093_j86131274154571_1_alg».proof.Proof.Spec
import proofs.«105093_j86131274154571_1_alg».proof.Proof.HeadDense

noncomputable section

namespace Cert.KernelIdeal.HeadValue

open Idealize.ShloMosaic Idealize.ShloMosaic.ValueIdx
open scoped BigOperators

section Gain
variable {m k n : Nat}

/-- The last layer and the gain at (p, q): the specification's gain of the logit. -/
theorem gain_apply {φ : FTy}
    (wf : DotDims.WF (⟨2, ![m, k]⟩ : Shape) ⟨2, ![k, n]⟩ ⟨2, ![m, n]⟩ [1] [0] [0] [1] [] [])
    (hT : (⟨2, ![n, k]⟩ : Shape).Transposes [1, 0] ⟨2, ![k, n]⟩)
    (hsc : (⟨1, ![n]⟩ : Shape).ShapeCasts ⟨2, ![1, n]⟩) (hbc : (⟨2, ![1, n]⟩ : Shape).Broadcasts ⟨2, ![m, n]⟩)
    (hlt : FTy.bits .bf16 < FTy.bits .f32)
    (X : FVec Ideal ⟨2, ![m, k]⟩ φ) (W : FVec Ideal ⟨2, ![n, k]⟩ .f32) (b : FVec Ideal ⟨1, ![n]⟩ .f32)
    (p : Fin m) (q : Fin n) (xv : Fin k → EReal) (hX : ∀ c : Fin k, X (ix2 p c) = xv c) :
    subf (mulf (broadcast ⟨2, ![m, n]⟩ (Scalar.ofBits (F := Ideal) .f32 0x40000000#32))
          (logistic (addf (FloatOps.matmul (LibPlainMatmul.plainDims wf) none X
              (transpose ⟨2, ![k, n]⟩ [1, 0] (truncf .bf16 W hlt) hT) (constant (F := Ideal) ⟨2, ![m, n]⟩ .f32 0x00000000#32))
            (broadcastTo ⟨2, ![m, n]⟩ (shapeCast ⟨2, ![1, n]⟩ b hsc) hbc))))
        (broadcast ⟨2, ![m, n]⟩ (Scalar.ofBits (F := Ideal) .f32 0x3F800000#32)) (ix2 p q)
      = Spec.gainOf (∑ c : Fin k, xv c * W (ix2 q c) + b (ix1 q)) := by
  refine (subf_apply _ _ _).trans ?_
  refine (congrArg (fun z : EReal => Ideal.ofBits .f32 0x40000000#32 * Ideal.logistic z - Ideal.ofBits .f32 0x3F800000#32)
    (affine_apply wf hT hsc hbc hlt X W b p q xv hX)).trans ?_
  unfold Spec.gainOf Ideal.logistic
  simp only [Spec.one, Spec.two, Ideal.ofBits_one_f32]

end Gain

end Cert.KernelIdeal.HeadValue

end
-- ==== Proof.HeadSums.lean ====
/-
  The two gain rows, the state row and the two inner products of one block of 128 agents, read at an entry.

  Four one-column arrays laid side by side read, in column c, the c-th of them. The x-row puts the gains k0 and k1
  in columns 0 and 2 and zero in the others, the y-row k2 and k3 in columns 1 and 3; zero less a row is its negation.
  The state row lays the two goal offsets and the two velocities side by side. A sum along the four columns started
  from the zero word is the sum over the four columns, and two column vectors laid side by side read the first in
  column 0 and the second in column 1.
-/
import proofs.«105093_j86131274154571_1_alg».proof.Proof.HeadFeat

noncomputable section

namespace Cert.KernelIdeal.HeadValue

open Idealize.ShloMosaic Idealize.ShloMosaic.ValueIdx
open scoped BigOperators

/-- Four one-column arrays side by side, read at (r, c): the c-th of them at row r. -/
theorem cols4_apply {α : Type} (A B C D : S128x1.Idx → α)
    (hc : Shape.Concatenates [S128x1, S128x1, S128x1, S128x1] S128x4 1) (r : Fin 128) (c : Fin 4) :
    concatenate S128x4 1 [⟨S128x1, A⟩, ⟨S128x1, B⟩, ⟨S128x1, C⟩, ⟨S128x1, D⟩] hc (ix2 r c)
      = if c.val = 0 then A (ix2 r 0) else if c.val = 1 then B (ix2 r 0) else if c.val = 2 then C (ix2 r 0)
        else D (ix2 r 0) := by
  match c with
  | ⟨0, _⟩ =>
    exact (concatenate_apply_piece (1 : Fin S128x4.rank) _ _ _ 0 (by show (0 : Nat) < 4; omega) S128x1 A rfl rfl 0 rfl
      (ix2 r 0) (fun b => match b with | ⟨0, _⟩ => fun _ => rfl | ⟨1, _⟩ => fun hb => absurd rfl hb) rfl).trans rfl
  | ⟨1, _⟩ =>
    exact (concatenate_apply_piece (1 : Fin S128x4.rank) _ _ _ 1 (by show (1 : Nat) < 4; omega) S128x1 B rfl rfl 1 rfl
      (ix2 r 0) (fun b => match b with | ⟨0, _⟩ => fun _ => rfl | ⟨1, _⟩ => fun hb => absurd rfl hb) rfl).trans rfl
  | ⟨2, _⟩ =>
    exact (concatenate_apply_piece (1 : Fin S128x4.rank) _ _ _ 2 (by show (2 : Nat) < 4; omega) S128x1 C rfl rfl 2 rfl
      (ix2 r 0) (fun b => match b with | ⟨0, _⟩ => fun _ => rfl | ⟨1, _⟩ => fun hb => absurd rfl hb) rfl).trans rfl
  | ⟨3, _⟩ =>
    exact (concatenate_apply_piece (1 : Fin S128x4.rank) _ _ _ 3 (by show (3 : Nat) < 4; omega) S128x1 D rfl rfl 3 rfl
      (ix2 r 0) (fun b => match b with | ⟨0, _⟩ => fun _ => rfl | ⟨1, _⟩ => fun hb => absurd rfl hb) rfl).trans rfl

/-- The x-row of the gains K at (r, c): −(K (r, 0), 0, K (r, 1), 0). -/
theorem gainX_apply (K : FVec Ideal S128x4 .f32) (h0 : S128x4.Slices ![0, 0] S128x1) (h1 : S128x4.Slices ![0, 1] S128x1)
    (hc : Shape.Concatenates [S128x1, S128x1, S128x1, S128x1] S128x4 1) (r : Fin 128) (c : Fin 4) :
    subf (broadcast S128x4 (Scalar.ofBits (F := Ideal) .f32 0x00000000#32))
        (concatenate S128x4 1 [⟨S128x1, extractStridedSlice S128x1 ![0, 0] K h0⟩,
          ⟨S128x1, broadcast S128x1 (Scalar.ofBits (F := Ideal) .f32 0x00000000#32)⟩,
          ⟨S128x1, extractStridedSlice S128x1 ![0, 1] K h1⟩,
          ⟨S128x1, broadcast S128x1 (Scalar.ofBits (F := Ideal) .f32 0x00000000#32)⟩] hc) (ix2 r c)
      = Spec.gainX (fun o => K (ix2 r o)) c := by
  refine (subf_apply _ _ _).trans ?_
  refine (congrArg (fun z : EReal => Ideal.ofBits .f32 0x00000000#32 - z) (cols4_apply _ _ _ _ hc r c)).trans ?_
  rw [Ideal.ofBits_zero_f32, zero_sub]
  unfold Spec.gainX
  refine congrArg (fun z : EReal => -z) ?_
  match c with
  | ⟨0, _⟩ => exact slice2_axis1_apply 0 K h0 r 0 0 rfl
  | ⟨1, _⟩ => exact Ideal.ofBits_zero_f32
  | ⟨2, _⟩ => exact slice2_axis1_apply 1 K h1 r 0 1 rfl
  | ⟨3, _⟩ => exact Ideal.ofBits_zero_f32

/-- The y-row of the gains K at (r, c): −(0, K (r, 2), 0, K (r, 3)). -/
theorem gainY_apply (K : FVec Ideal S128x4 .f32) (h2 : S128x4.Slices ![0, 2] S128x1) (h3 : S128x4.Slices ![0, 3] S128x1)
    (hc : Shape.Concatenates [S128x1, S128x1, S128x1, S128x1] S128x4 1) (r : Fin 128) (c : Fin 4) :
    subf (broadcast S128x4 (Scalar.ofBits (F := Ideal) .f32 0x00000000#32))
        (concatenate S128x4 1 [⟨S128x1, broadcast S128x1 (Scalar.ofBits (F := Ideal) .f32 0x00000000#32)⟩,
          ⟨S128x1, extractStridedSlice S128x1 ![0, 2] K h2⟩,
          ⟨S128x1, broadcast S128x1 (Scalar.ofBits (F := Ideal) .f32 0x00000000#32)⟩,
          ⟨S128x1, extractStridedSlice S128x1 ![0, 3] K h3⟩] hc) (ix2 r c)
      = Spec.gainY (fun o => K (ix2 r o)) c := by
  refine (subf_apply _ _ _).trans ?_
  refine (congrArg (fun z : EReal => Ideal.ofBits .f32 0x00000000#32 - z) (cols4_apply _ _ _ _ hc r c)).trans ?_
  rw [Ideal.ofBits_zero_f32, zero_sub]
  unfold Spec.gainY
  refine congrArg (fun z : EReal => -z) ?_
  match c with
  | ⟨0, _⟩ => exact Ideal.ofBits_zero_f32
  | ⟨1, _⟩ => exact slice2_axis1_apply 2 K h2 r 0 2 rfl
  | ⟨2, _⟩ => exact Ideal.ofBits_zero_f32
  | ⟨3, _⟩ => exact slice2_axis1_apply 3 K h3 r 0 3 rfl

/-- The state row at (r, c): the goal offset in columns 0 and 1, the velocity in columns 2 and 3. -/
theorem state_apply (s : Spec.Arr2 1024 4) (g : Spec.Arr2 1024 2) (row0 : Nat) (hrow : row0 + 128 ≤ 1024)
    (x0 : FVec Ideal S128x4 .f32) (x2 : FVec Ideal S128x2 .f32)
    (hx0 : ∀ (r : Fin 128) (c : Fin 4), x0 (ix2 r c) = s (ix2 ⟨row0 + r.val, by omega⟩ c))
    (hx2 : ∀ (r : Fin 128) (c : Fin 2), x2 (ix2 r c) = g (ix2 ⟨row0 + r.val, by omega⟩ c))
    (hc : Shape.Concatenates [S128x2, S128x2] S128x4 1) (r : Fin 128) (c : Fin 4) :
    concatenate S128x4 1 [⟨S128x2, Gen.k0_pay3 (F := Ideal) x0 x2⟩, ⟨S128x2, Gen.k0_pay4 (F := Ideal) x0⟩] hc (ix2 r c)
      = Spec.state s g ⟨row0 + r.val, by omega⟩ c := by
  by_cases h : c.val < 2
  · refine (concatenate_pair_apply_left (1 : Fin S128x4.rank) _ _ hc (ix2 r c) rfl (ix2 r ⟨c.val, h⟩)
      (fun b => match b with | ⟨0, _⟩ => rfl | ⟨1, _⟩ => rfl)).trans ?_
    rw [pay3_apply, hx0, hx2]; unfold Spec.state; rw [dif_pos h]; rfl
  · refine (concatenate_pair_apply_right (1 : Fin S128x4.rank) _ _ hc (ix2 r c) rfl rfl (ix2 r ⟨c.val - 2, by omega⟩)
      (fun b => match b with | ⟨0, _⟩ => fun _ => rfl | ⟨1, _⟩ => fun hb => absurd rfl hb)
      (by show c.val - 2 + 2 = c.val; omega)).trans ?_
    rw [pay4_apply, hx0]; unfold Spec.state; rw [dif_neg h]
    exact congrArg (fun c' : Fin 4 => s (ix2 ⟨row0 + r.val, by omega⟩ c'))
      (Fin.ext (by show c.val - 2 + 2 = c.val; omega))

/-- A sum along the four columns, started from the zero word, at row r. -/
theorem rowsum4_apply (src : FVec Ideal S128x4 .f32) (h : S128x4.Reduces [1] S128) (hφ : FKind.Formats .f32)
    (hacc : (0x00000000#32 : BitVec 32) = 0x00000000#32) (r : Fin 128) :
    multiReduction (F := Ideal) .add [1] S128 src 0x00000000#32 h hφ hacc (ix1 r) = ∑ c : Fin 4, src (ix2 r c) := by
  refine (Ideal.multiReduction_add_single src 0x00000000#32 h hφ hacc (ix1 r)).trans ?_
  show ∑ c : Fin 4, src (h.lift (ix1 r) c) = _
  refine Finset.sum_congr rfl fun c _ => congrArg src ?_
  exact funext fun a => Fin.ext (by match a with | ⟨0, _⟩ => rfl | ⟨1, _⟩ => rfl)

/-- Two vectors, each made a column, side by side: the first in column 0, the second in column 1. -/
theorem out_cols_apply {α : Type} (A B : S128.Idx → α) (hs : S128.ShapeCasts S128x1)
    (hc : Shape.Concatenates [S128x1, S128x1] S128x2 1) (r : Fin 128) (k : Fin 2) :
    concatenate S128x2 1 [⟨S128x1, shapeCast S128x1 A hs⟩, ⟨S128x1, shapeCast S128x1 B hs⟩] hc (ix2 r k)
      = if k.val = 0 then A (ix1 r) else B (ix1 r) := by
  have hcast : ∀ (V : S128.Idx → α), shapeCast S128x1 V hs (ix2 r (0 : Fin 1)) = V (ix1 r) := fun V =>
    shapeCast_apply V hs _ _ (by
      rw [Shape.rowMajor_val_one, Shape.rowMajor_val_two]
      show r.val = r.val * 1 + 0
      omega)
  match k with
  | ⟨0, _⟩ =>
    exact (concatenate_pair_apply_left (1 : Fin S128x2.rank) _ _ hc _ rfl (ix2 r (0 : Fin 1))
      (fun b => match b with | ⟨0, _⟩ => rfl | ⟨1, _⟩ => rfl)).trans (hcast A)
  | ⟨1, _⟩ =>
    exact (concatenate_pair_apply_right (1 : Fin S128x2.rank) _ _ hc _ rfl rfl (ix2 r (0 : Fin 1))
      (fun b => match b with | ⟨0, _⟩ => fun _ => rfl | ⟨1, _⟩ => fun hb => absurd rfl hb) rfl).trans (hcast B)

end Cert.KernelIdeal.HeadValue

end
-- ==== Proof.HeadOut.lean ====
/-
  The value stored for one block of 128 agents: the two inner products of the state with the two gain rows.

  Column 0 of the stored block is, at row r, the sum over the four state entries of agent row0 + r times the x-row of
  its gains, and column 1 the same with the y-row. The gains are 2 · sigmoid − 1 of the four logits, the logits the
  last affine layer of the third rectified layer of the agent's 132 features: entry by entry these are the
  specification's gains, state and gain rows, so each column is the specification's inner product.
-/
import proofs.«105093_j86131274154571_1_alg».proof.Proof.HeadLayers
import proofs.«105093_j86131274154571_1_alg».proof.Proof.HeadGain
import proofs.«105093_j86131274154571_1_alg».proof.Proof.HeadSums

noncomputable section

namespace Cert.KernelIdeal.HeadValue

open Idealize.ShloMosaic Idealize.ShloMosaic.ValueIdx
open scoped BigOperators

/-- The stored block at (r, k) is the specification's result at (row0 + r, k). -/
theorem out_block (s : Spec.Arr2 1024 4) (g : Spec.Arr2 1024 2) (w1 : Spec.Arr2 64 5) (b1 : Spec.Arr1 64)
    (w2 : Spec.Arr2 128 64) (b2 : Spec.Arr1 128) (row0 : Nat) (hrow : row0 + 128 ≤ 1024)
    (x0 : FVec Ideal S128x4 .f32) (x2 : FVec Ideal S128x2 .f32) (acc : FVec Ideal S128x128 .f32)
    (f1w : FVec Ideal S64x132 .f32) (f1b : FVec Ideal S64 .f32) (f2w : FVec Ideal S128x64 .f32)
    (f2b : FVec Ideal S128 .f32) (f3w : FVec Ideal S64x128 .f32) (f3b : FVec Ideal S64 .f32)
    (f4w : FVec Ideal S4x64 .f32) (f4b : FVec Ideal S4 .f32)
    (hx0 : ∀ (r : Fin 128) (c : Fin 4), x0 (ix2 r c) = s (ix2 (⟨row0 + r.val, by omega⟩ : Fin 1024) c))
    (hx2 : ∀ (r : Fin 128) (c : Fin 2), x2 (ix2 r c) = g (ix2 (⟨row0 + r.val, by omega⟩ : Fin 1024) c))
    (hacc : ∀ (r : Fin 128) (o : Fin 128),
      acc (ix2 r o) = Spec.pooled s w1 b1 w2 b2 (⟨row0 + r.val, by omega⟩ : Fin 1024) o)
    (r : Fin 128) (k : Fin 2) :
    Gen.k0_pay2 (F := Ideal) (Gen.k0_pay3 x0 x2) (Gen.k0_pay4 x0) (Gen.k0_pay5 x0 acc x2 f1w f1b f2w f2b f3w f3b) f4w f4b (ix2 r k)
      = Spec.G s g w1 b1 w2 b2 f1w f1b f2w f2b f3w f3b f4w f4b (ix2 (⟨row0 + r.val, by omega⟩ : Fin 1024) k) := by
  unfold Gen.k0_pay2
  refine (out_cols_apply _ _ _ _ r k).trans ?_
  refine Eq.trans ?_ (show (if k.val = 0
      then Spec.ax s g (Spec.kk s g w1 b1 w2 b2 f1w f1b f2w f2b f3w f3b f4w f4b ⟨row0 + r.val, by omega⟩) ⟨row0 + r.val, by omega⟩
      else Spec.ay s g (Spec.kk s g w1 b1 w2 b2 f1w f1b f2w f2b f3w f3b f4w f4b ⟨row0 + r.val, by omega⟩) ⟨row0 + r.val, by omega⟩)
    = Spec.G s g w1 b1 w2 b2 f1w f1b f2w f2b f3w f3b f4w f4b (ix2 (⟨row0 + r.val, by omega⟩ : Fin 1024) k) from rfl)
  by_cases hk : k.val = 0
  · rw [if_pos hk, if_pos hk]
    refine (rowsum4_apply _ _ _ _ r).trans ?_
    unfold Spec.ax
    refine Finset.sum_congr rfl fun c _ => ?_
    refine (mulf_apply _ _ _).trans ?_
    refine congrArg₂ (fun u v : EReal => u * v) (state_apply s g row0 hrow x0 x2 hx0 hx2 _ r c) ?_
    refine (gainX_apply _ _ _ _ r c).trans ?_
    refine congrArg (fun kf : Fin 4 → EReal => Spec.gainX kf c) (funext fun o => ?_)
    exact (gain_apply _ _ _ _ _ (Gen.k0_pay5 (F := Ideal) x0 acc x2 f1w f1b f2w f2b f3w f3b) f4w f4b r o _ (fun c' =>
      pay5_apply s g w1 b1 w2 b2 row0 hrow x0 x2 acc f1w f1b f2w f2b f3w f3b hx0 hx2 hacc r c')).trans rfl
  · rw [if_neg hk, if_neg hk]
    refine (rowsum4_apply _ _ _ _ r).trans ?_
    unfold Spec.ay
    refine Finset.sum_congr rfl fun c _ => ?_
    refine (mulf_apply _ _ _).trans ?_
    refine congrArg₂ (fun u v : EReal => u * v) (state_apply s g row0 hrow x0 x2 hx0 hx2 _ r c) ?_
    refine (gainY_apply _ _ _ _ r c).trans ?_
    refine congrArg (fun kf : Fin 4 → EReal => Spec.gainY kf c) (funext fun o => ?_)
    exact (gain_apply _ _ _ _ _ (Gen.k0_pay5 (F := Ideal) x0 acc x2 f1w f1b f2w f2b f3w f3b) f4w f4b r o _ (fun c' =>
      pay5_apply s g w1 b1 w2 b2 row0 hrow x0 x2 acc f1w f1b f2w f2b f3w f3b hx0 hx2 hacc r c')).trans rfl

end Cert.KernelIdeal.HeadValue

end
-- ==== Proof.AccChain.lean ====
/-
  The accumulator and the output block at every grid point, as values. At point t = 16 i + j the accumulator holds,
  for each of the 128 rows of query block i, the running maximum over neighbour blocks 0 … j; at j = 15 that is the
  maximum over all neighbours, and the output block stored there is the specification's result on those rows.
-/
import proofs.«105093_j86131274154571_1_alg».proof.Proof.PieceVals
import proofs.«105093_j86131274154571_1_alg».proof.Proof.BlockVals
import proofs.«105093_j86131274154571_1_alg».proof.Proof.AccAlgebra
import Idealize.ShloMosaic.PureOps.Ideal.Laws
import proofs.«105093_j86131274154571_1_alg».proof.Proof.EdgeMax
import proofs.«105093_j86131274154571_1_alg».proof.Proof.HeadOut

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The argument arrays -/
abbrev A0 (c : Dev nD) : Cert.Spec.Arr2 1024 4 := V m c main_arg0
abbrev A1 (c : Dev nD) : Cert.Spec.Arr2 1024 2 := V m c main_arg1
abbrev A2 (c : Dev nD) : Cert.Spec.Arr2 64 5 := V m c main_arg2
abbrev A3 (c : Dev nD) : Cert.Spec.Arr1 64 := V m c main_arg3
abbrev A4 (c : Dev nD) : Cert.Spec.Arr2 128 64 := V m c main_arg4
abbrev A5 (c : Dev nD) : Cert.Spec.Arr1 128 := V m c main_arg5
abbrev A6 (c : Dev nD) : Cert.Spec.Arr2 64 132 := V m c main_arg6
abbrev A7 (c : Dev nD) : Cert.Spec.Arr1 64 := V m c main_arg7
abbrev A8 (c : Dev nD) : Cert.Spec.Arr2 128 64 := V m c main_arg8
abbrev A9 (c : Dev nD) : Cert.Spec.Arr1 128 := V m c main_arg9
abbrev A10 (c : Dev nD) : Cert.Spec.Arr2 64 128 := V m c main_arg10
abbrev A11 (c : Dev nD) : Cert.Spec.Arr1 64 := V m c main_arg11
abbrev A12 (c : Dev nD) : Cert.Spec.Arr2 4 64 := V m c main_arg12
abbrev A13 (c : Dev nD) : Cert.Spec.Arr1 4 := V m c main_arg13

/-- The running maximum of row `row`, column `o`, after neighbour block `j`. -/
abbrev acc (c : Dev nD) (row : Fin 1024) (o : Fin 128) (j : ℕ) : EReal :=
  Cert.KVal.accN (A0 m c) (A2 m c) (A3 m c) (A4 m c) (A5 m c) row o j

theorem hN : cfg0.N = 128 := N_0

/-- The zero block the reset stores. -/
theorem pay6_apply (y : S128x128.Idx) : k0_pay6 (F := Ideal) y = 0 := by
  unfold k0_pay6
  rw [shapeCast_self]
  exact Ideal.ofBits_zero_f32

set_option maxHeartbeats 8000000 in
/-- One point: from what the point before left in the accumulator (when the point is not the first of its row of the
    grid), what the body leaves there. -/
theorem acc_point (c : Dev nD) (t : Fin cfg0.N)
    (ih : t.val % 16 ≠ 0 → ∀ (hp : t.val - 1 < cfg0.N) (r : Fin 128) (o : Fin 128),
      (outsAt0 m c (t.val - 1) hp).2 (ix2 r o)
        = acc m c (⟨128 * ((t.val - 1) / 16) + r.val, by have := hN; omega⟩ : Fin 1024) o ((t.val - 1) % 16))
    (r : Fin 128) (o : Fin 128) :
    (outsAt0 m c t.val t.isLt).2 (ix2 r o)
      = acc m c (⟨128 * (t.val / 16) + r.val, by have := hN; have := t.isLt; omega⟩ : Fin 1024) o (t.val % 16) := by
  obtain ⟨e00, e01, e10, e11, e20, e21, e150, e151, g0, g1⟩ := idx_facts t
  have hlt : t.val < 128 := lt_of_lt_of_eq t.isLt hN
  have h8 : t.val / 16 < 8 := by omega
  have h16 : t.val % 16 < 16 := Nat.mod_lt _ (by decide)
  have hx0 : ∀ (r : Fin 128) (cc : Fin 4), (iblk m c 0 t : S128x4.Idx → EReal) (ix2 r cc)
      = A0 m c (ix2 (⟨128 * (t.val / 16) + r.val, by omega⟩ : Fin 1024) cc) := fun r cc => iblk_0_apply m c t r cc (by omega)
  have hx1 : ∀ (jj : Fin 64) (cc : Fin 4), (iblk m c 1 t : S64x4.Idx → EReal) (ix2 jj cc)
      = A0 m c (ix2 (⟨64 * (t.val % 16) + jj.val, by omega⟩ : Fin 1024) cc) := fun jj cc => iblk_1_apply m c t jj cc (by omega)
  by_cases h0 : t.val % 16 = 0
  · have h1 : ¬t.val % 16 = 15 := by omega
    rw [outsAt0_A m c t h0 h1]
    show sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 r o) = _
    rw [sout_A, iblk_3 m c t, iblk_4 m c t, iblk_5 m c t, iblk_6 m c t]
    refine (Cert.KernelIdeal.EdgeValue.acc_step (A0 m c) (grid0.coords t) (t.val / 16) (t.val % 16) g0 g1 h8 h16 (iblk m c 0 t) (iblk m c 1 t) (A2 m c) (A3 m c) (A4 m c) (A5 m c) (k0_pay6 (F := Ideal)) hx0 hx1 r o).trans ?_
    rw [pay6_apply]
    exact Cert.KVal.accN_zero_step _ _ _ _ _ _ o (t.val % 16) h0 h16
  · have hprev := ih h0 (Nat.lt_of_le_of_lt (Nat.sub_le _ _) t.isLt) r o
    have hacc : (outsAt0 m c (t.val - 1) (Nat.lt_of_le_of_lt (Nat.sub_le _ _) t.isLt)).2 (ix2 r o)
        = Cert.KVal.accN (A0 m c) (A2 m c) (A3 m c) (A4 m c) (A5 m c) (⟨128 * (t.val / 16) + r.val, by omega⟩ : Fin 1024) o (t.val % 16 - 1) :=
      hprev.trans (Cert.KVal.accN_congr _ _ _ _ _ _ _ o _ _ (by show 128 * ((t.val - 1) / 16) + r.val = 128 * (t.val / 16) + r.val; omega) (by omega))
    by_cases h1 : t.val % 16 = 15
    · rw [outsAt0_C m c t h0 h1]
      show sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 (ix2 r o) = _
      rw [sout_C, iblk_3 m c t, iblk_4 m c t, iblk_5 m c t, iblk_6 m c t]
      refine (Cert.KernelIdeal.EdgeValue.acc_step (A0 m c) (grid0.coords t) (t.val / 16) (t.val % 16) g0 g1 h8 h16 (iblk m c 0 t) (iblk m c 1 t) (A2 m c) (A3 m c) (A4 m c) (A5 m c) (outsAt0 m c (t.val - 1) (Nat.lt_of_le_of_lt (Nat.sub_le _ _) t.isLt)).2 hx0 hx1 r o).trans ?_
      exact Cert.KVal.accN_succ_step _ _ _ _ _ _ o (t.val % 16) h0 h16 _ hacc
    · rw [outsAt0_B m c t h0 h1]
      show sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 (ix2 r o) = _
      rw [sout_B, iblk_3 m c t, iblk_4 m c t, iblk_5 m c t, iblk_6 m c t]
      refine (Cert.KernelIdeal.EdgeValue.acc_step (A0 m c) (grid0.coords t) (t.val / 16) (t.val % 16) g0 g1 h8 h16 (iblk m c 0 t) (iblk m c 1 t) (A2 m c) (A3 m c) (A4 m c) (A5 m c) (outsAt0 m c (t.val - 1) (Nat.lt_of_le_of_lt (Nat.sub_le _ _) t.isLt)).2 hx0 hx1 r o).trans ?_
      exact Cert.KVal.accN_succ_step _ _ _ _ _ _ o (t.val % 16) h0 h16 _ hacc

/-- The accumulator after the body at position `n` holds the running maxima of its block's rows. -/
theorem acc_at (c : Dev nD) : ∀ (n : ℕ) (h : n < cfg0.N) (r : Fin 128) (o : Fin 128),
    (outsAt0 m c n h).2 (ix2 r o)
      = acc m c (⟨128 * (n / 16) + r.val, by have := hN; omega⟩ : Fin 1024) o (n % 16) := by
  intro n
  induction n with
  | zero =>
    intro h r o
    exact acc_point m c ⟨0, h⟩ (fun hz => absurd (Nat.zero_mod 16) hz) r o
  | succ n ih =>
    intro h r o
    exact acc_point m c ⟨n + 1, h⟩ (fun _ hp r o => ih hp r o) r o

set_option maxHeartbeats 8000000 in
/-- Where j = 15 the stored output block is the specification's result on the block's rows. -/
theorem out_at (c : Dev nD) (t : Fin cfg0.N) (h15 : t.val % 16 = 15) (r : Fin 128) (k : Fin 2) :
    (outsAt0 m c t.val t.isLt).1 (ix2 r k)
      = Cert.Spec.G (A0 m c) (A1 m c) (A2 m c) (A3 m c) (A4 m c) (A5 m c) (A6 m c) (A7 m c) (A8 m c) (A9 m c) (A10 m c) (A11 m c) (A12 m c) (A13 m c)
          (ix2 (⟨128 * (t.val / 16) + r.val, by have := hN; have := t.isLt; omega⟩ : Fin 1024) k) := by
  have hlt : t.val < 128 := lt_of_lt_of_eq t.isLt hN
  have h0 : ¬t.val % 16 = 0 := by omega
  have hx0 : ∀ (r : Fin 128) (cc : Fin 4), (iblk m c 0 t : S128x4.Idx → EReal) (ix2 r cc)
      = A0 m c (ix2 (⟨128 * (t.val / 16) + r.val, by omega⟩ : Fin 1024) cc) := fun r cc => iblk_0_apply m c t r cc (by omega)
  have hx2 : ∀ (r : Fin 128) (cc : Fin 2), (iblk m c 2 t : S128x2.Idx → EReal) (ix2 r cc)
      = A1 m c (ix2 (⟨128 * (t.val / 16) + r.val, by omega⟩ : Fin 1024) cc) := fun r cc => iblk_2_apply m c t r cc (by omega)
  -- the accumulator just updated is this point's, which holds the maximum over all neighbours
  have hacc : ∀ (r : Fin 128) (o : Fin 128),
      k0_pay1 (F := Ideal) (k0_pay8 (iblk m c 0 t) (iblk m c 1 t)) (k0_pay9 (grid0.coords t) (iblk m c 0 t) (iblk m c 1 t)) (k0_pay10 (iblk m c 3 t)) (iblk m c 4 t) (iblk m c 5 t) (iblk m c 6 t) (outsAt0 m c (t.val - 1) (Nat.lt_of_le_of_lt (Nat.sub_le _ _) t.isLt)).2 (ix2 r o)
        = Cert.Spec.pooled (A0 m c) (A2 m c) (A3 m c) (A4 m c) (A5 m c) (⟨128 * (t.val / 16) + r.val, by omega⟩ : Fin 1024) o := by
    intro r o
    have h2 := acc_at m c t.val t.isLt r o
    rw [outsAt0_C m c t h0 h15] at h2
    have h3 : sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 (ix2 r o) = _ := h2
    rw [sout_C] at h3
    rw [h3]
    show Cert.KVal.accN _ _ _ _ _ _ o (t.val % 16) = _
    rw [show t.val % 16 = 15 from h15]
    exact Cert.KVal.accN_last _ _ _ _ _ _ o
  rw [outsAt0_C m c t h0 h15]
  show out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h15) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (outsAt0 m c (t.val - 1) (Nat.lt_of_le_of_lt (Nat.sub_le _ _) t.isLt)).2 (ix2 r k) = _
  rw [out_C]
  have hO := Cert.KernelIdeal.HeadValue.out_block (A0 m c) (A1 m c) (A2 m c) (A3 m c) (A4 m c) (A5 m c) (128 * (t.val / 16)) (by omega)
    (iblk m c 0 t) (iblk m c 2 t) _ (A6 m c) (A7 m c) (A8 m c) (A9 m c) (A10 m c) (A11 m c) (A12 m c) (A13 m c) hx0 hx2 hacc r k
  rw [iblk_7 m c t, iblk_8 m c t, iblk_9 m c t, iblk_10 m c t, iblk_11 m c t, iblk_12 m c t, iblk_13 m c t, iblk_14 m c t]
  exact hO

end Cert.KernelIdeal.KVal

end
-- ==== Proof.SharedSplit.lean ====
/-
  The launch's split of the arrays for a pipeline in which windows 0 and 1 read ONE array (the first operand
  passed twice): the fifteen distinct buffers behind the sixteen windows' arrays, each whole at the full share, yield
  the proof data's arrays at entry when window 0 holds the shared array at the left half of the full share, window 1
  at the right half, and every other window its own array at the full share.
-/
import proofs.«105093_j86131274154571_1_alg».proof.Proof.Gen.KernelIdeal.Launch
import proofs.«105093_j86131274154571_1_alg».proof.Proof.LibSharedFrame

set_option maxRecDepth 2560

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

set_option Elab.async false

variable {F : FTy → Type} [FloatOps F]

local notation "𝕄" => MT nD τ sig Unit (Elt F) ℕ (UR sig nD τ) ℕ

/-- The buffers behind the windows' arrays are the fifteen operands and the result, listed: the first operand once,
    though two windows read it. -/
theorem arrBufs0_eq (c : Dev nD) (V : (b : Ref sig .tc) → Buf (Elt F) ((c.tc : Thread nD τ).loc b)) :
    (Pipeline.arrBufs (Ix := Unit) (Name := ℕ) (U := UR sig nD τ) (Lvl := ℕ) spec0 c V : sProp 𝕄)
      = iprop((((c.tc : Thread nD τ).loc main_arg0) ↦{fullShare} V main_arg0)
        ∗ (((c.tc : Thread nD τ).loc main_arg1) ↦{fullShare} V main_arg1)
        ∗ (((c.tc : Thread nD τ).loc main_arg2) ↦{fullShare} V main_arg2)
        ∗ (((c.tc : Thread nD τ).loc main_arg3) ↦{fullShare} V main_arg3)
        ∗ (((c.tc : Thread nD τ).loc main_arg4) ↦{fullShare} V main_arg4)
        ∗ (((c.tc : Thread nD τ).loc main_arg5) ↦{fullShare} V main_arg5)
        ∗ (((c.tc : Thread nD τ).loc main_arg6) ↦{fullShare} V main_arg6)
        ∗ (((c.tc : Thread nD τ).loc main_arg7) ↦{fullShare} V main_arg7)
        ∗ (((c.tc : Thread nD τ).loc main_arg8) ↦{fullShare} V main_arg8)
        ∗ (((c.tc : Thread nD τ).loc main_arg9) ↦{fullShare} V main_arg9)
        ∗ (((c.tc : Thread nD τ).loc main_arg10) ↦{fullShare} V main_arg10)
        ∗ (((c.tc : Thread nD τ).loc main_arg11) ↦{fullShare} V main_arg11)
        ∗ (((c.tc : Thread nD τ).loc main_arg12) ↦{fullShare} V main_arg12)
        ∗ (((c.tc : Thread nD τ).loc main_arg13) ↦{fullShare} V main_arg13)
        ∗ (((c.tc : Thread nD τ).loc main_v0) ↦{fullShare} V main_v0)) := by
  unfold Pipeline.arrBufs
  exact bigSep_eq_bigSepL_of_eq [main_arg0, main_arg1, main_arg2, main_arg3, main_arg4, main_arg5, main_arg6, main_arg7, main_arg8, main_arg9, main_arg10, main_arg11, main_arg12, main_arg13, main_v0] (by decide) (by decide) _

section Split

variable {c : Dev nD} (dat : Pipeline.Dat τ (Elt F) Unit ℕ (UR sig nD τ) ℕ cfg0 c)
  (V : (b : Ref sig .tc) → Buf (Elt F) ((c.tc : Thread nD τ).loc b))

/-- A window's share from the data's `q`: an input window holds `q w`; an output window the full share. -/
theorem share_of_q (w : Fin 16) (q : PosShare TreeShare) (h : dat.q w = q) (ho : (cfg0.win w).isOut = true → q = fullShare) :
    dat.share w = q := by
  unfold Pipeline.Dat.share; split
  · exact (ho ‹_›).symm
  · exact h

/-- One window's conjunct of the data's arrays at entry: its array's buffer, whole, at the window's share, at the
    region-entry contents. -/
theorem win_eq (hA : ∀ w, dat.A w = V (Pipeline.arrRef spec0 w)) (w : Fin 16) (b : Ref sig .tc) (hb : Pipeline.arrRef spec0 w = b)
    (q : PosShare TreeShare) (hs : dat.share w = q) :
    (((cfg0.win w).arr.view.loc (c.tc : Thread nD τ)) ↦[(cfg0.win w).arr.view.set]{dat.share w} dat.arrAt w 0 : sProp 𝕄)
      = (((c.tc : Thread nD τ).loc b) ↦{q} V b) := by
  subst hb
  rw [(Gen.arr_whole0 w).set_eq_univ, hs, show dat.arrAt w 0 = dat.A w from rfl, hA w]

/-- THE SPLIT at the region's entry, for any proof datum whose `q` deals the shared first operand by halves — window 0
    the left half of the full share, window 1 the right half — and gives every other window the full share, and whose
    entry arrays are the region-entry contents `V`: the fifteen buffers behind the arrays, each whole at the full share
    at `V`, yield the datum's arrays at entry. The first operand's points-to is split along the share; every other
    window takes its own buffer whole. -/
theorem arrays_split_shared (hq0 : dat.q 0 = fullShare.left) (hq1 : dat.q 1 = fullShare.right)
    (hq : ∀ w, w ≠ 0 → w ≠ 1 → dat.q w = fullShare) (hA : ∀ w, dat.A w = V (Pipeline.arrRef spec0 w)) :
    (Pipeline.arrBufs (Ix := Unit) (Name := ℕ) (U := UR sig nD τ) (Lvl := ℕ) spec0 c V : sProp 𝕄)
      ⊢ dat.arrays (dat.arrAt · 0) := by
  have hs0 : dat.share 0 = fullShare.left := share_of_q dat 0 _ hq0 (fun h => absurd h (by decide))
  have hs1 : dat.share 1 = fullShare.right := share_of_q dat 1 _ hq1 (fun h => absurd h (by decide))
  have hs : ∀ w : Fin 16, w ≠ 0 → w ≠ 1 → dat.share w = fullShare := fun w h0 h1 =>
    share_of_q dat w _ (hq w h0 h1) (fun _ => rfl)
  rw [arrBufs0_eq]
  unfold Pipeline.Dat.arrays
  rw [Gen.bigSep_W0,
    win_eq dat V hA 0 main_arg0 rfl _ hs0,
    win_eq dat V hA 1 main_arg0 rfl _ hs1,
    win_eq dat V hA 2 main_arg1 rfl _ (hs 2 (by decide) (by decide)),
    win_eq dat V hA 3 main_arg2 rfl _ (hs 3 (by decide) (by decide)),
    win_eq dat V hA 4 main_arg3 rfl _ (hs 4 (by decide) (by decide)),
    win_eq dat V hA 5 main_arg4 rfl _ (hs 5 (by decide) (by decide)),
    win_eq dat V hA 6 main_arg5 rfl _ (hs 6 (by decide) (by decide)),
    win_eq dat V hA 7 main_arg6 rfl _ (hs 7 (by decide) (by decide)),
    win_eq dat V hA 8 main_arg7 rfl _ (hs 8 (by decide) (by decide)),
    win_eq dat V hA 9 main_arg8 rfl _ (hs 9 (by decide) (by decide)),
    win_eq dat V hA 10 main_arg9 rfl _ (hs 10 (by decide) (by decide)),
    win_eq dat V hA 11 main_arg10 rfl _ (hs 11 (by decide) (by decide)),
    win_eq dat V hA 12 main_arg11 rfl _ (hs 12 (by decide) (by decide)),
    win_eq dat V hA 13 main_arg12 rfl _ (hs 13 (by decide) (by decide)),
    win_eq dat V hA 14 main_arg13 rfl _ (hs 14 (by decide) (by decide)),
    win_eq dat V hA 15 main_v0 rfl _ (hs 15 (by decide) (by decide))]
  iintro ⟨H0, H1, H2, H3, H4, H5, H6, H7, H8, H9, H10, H11, H12, H13, H14⟩
  ihave H := (Idealize.ShloMosaic.pointsTo_fullShare_halves _ _ _).1 $$ H0
  icases H with ⟨Hl, Hr⟩
  isplitl [Hl]; · iexact Hl
  isplitl [Hr]; · iexact Hr
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Split

end Cert.KernelIdeal

end
-- ==== Proof.FrameRun.lean ====
/-
  The frame of the one region: the launch. The two windows that read the first operand hold it half and half; with
  that split the region runs from its entry to its end, every array ending at what the proof data compute — an
  input array at its entry contents, the output array at its entry contents overwritten block by block by what the body
  left at each write-back.
-/
import proofs.«105093_j86131274154571_1_alg».proof.Proof.FrameBody
import proofs.«105093_j86131274154571_1_alg».proof.Proof.LibSharedFrame
import proofs.«105093_j86131274154571_1_alg».proof.Proof.SharedSplit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The split of the arrays' buffers among the windows at the region's entry. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) :=
  arrays_split_shared (dats m 0 c) (V m c) rfl rfl (fun w h0 h1 => by
    match w, h0, h1 with
    | ⟨0, _⟩, h0, _ => exact absurd rfl h0
    | ⟨1, _⟩, _, h1 => exact absurd rfl h1
    | ⟨2, _⟩, _, _ => rfl
    | ⟨3, _⟩, _, _ => rfl
    | ⟨4, _⟩, _, _ => rfl
    | ⟨5, _⟩, _, _ => rfl
    | ⟨6, _⟩, _, _ => rfl
    | ⟨7, _⟩, _, _ => rfl
    | ⟨8, _⟩, _, _ => rfl
    | ⟨9, _⟩, _, _ => rfl
    | ⟨10, _⟩, _, _ => rfl
    | ⟨11, _⟩, _, _ => rfl
    | ⟨12, _⟩, _, _ => rfl
    | ⟨13, _⟩, _, _ => rfl
    | ⟨14, _⟩, _, _ => rfl
    | ⟨15, _⟩, _, _ => rfl
    | ⟨_ + 16, h⟩, _, _ => exact absurd h (Nat.not_lt.2 (Nat.le_add_left _ _))) (A_eq m c)

set_option backward.isDefEq.respectTransparency.types false in
/-- From any memory with zero counters every weakly fair execution terminates, and every final state has every array of
    the pipeline at what the library computes from the proof data. -/
theorem run_main : θ_run defs (onTc (τ := τ) (main (F := F))) (s₀ m ρ) (Pipeline.FramePost cfgs (dats m) 0 (V m)) :=
  Pipeline.θ_run_frame_track_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The frame: the program runs to its end and its fourteen argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14))⟩) (run_main m ρ)

/-- The same run with the result array named: it ends at what the library computes for the output window. -/
theorem run_result : θ_run defs (onTc (τ := τ) (main (F := F))) ⟨m, fun _ => 0, ρ⟩ (fun r => ∀ c : Dev nD,
      r.2.mem ((c.tc : Thread nD τ).loc main_v0) = (dats m 0 c).arrAt 15 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c).1 15, ((h c).1 0).trans (((dats m 0 c).arrAt_in 0 rfl _).trans (A_eq m c 0)),
      ((h c).1 2).trans (((dats m 0 c).arrAt_in 2 rfl _).trans (A_eq m c 2)),
      ((h c).1 3).trans (((dats m 0 c).arrAt_in 3 rfl _).trans (A_eq m c 3)),
      ((h c).1 4).trans (((dats m 0 c).arrAt_in 4 rfl _).trans (A_eq m c 4)),
      ((h c).1 5).trans (((dats m 0 c).arrAt_in 5 rfl _).trans (A_eq m c 5)),
      ((h c).1 6).trans (((dats m 0 c).arrAt_in 6 rfl _).trans (A_eq m c 6)),
      ((h c).1 7).trans (((dats m 0 c).arrAt_in 7 rfl _).trans (A_eq m c 7)),
      ((h c).1 8).trans (((dats m 0 c).arrAt_in 8 rfl _).trans (A_eq m c 8)),
      ((h c).1 9).trans (((dats m 0 c).arrAt_in 9 rfl _).trans (A_eq m c 9)),
      ((h c).1 10).trans (((dats m 0 c).arrAt_in 10 rfl _).trans (A_eq m c 10)),
      ((h c).1 11).trans (((dats m 0 c).arrAt_in 11 rfl _).trans (A_eq m c 11)),
      ((h c).1 12).trans (((dats m 0 c).arrAt_in 12 rfl _).trans (A_eq m c 12)),
      ((h c).1 13).trans (((dats m 0 c).arrAt_in 13 rfl _).trans (A_eq m c 13)),
      ((h c).1 14).trans (((dats m 0 c).arrAt_in 14 rfl _).trans (A_eq m c 14))⟩) (run_main m ρ)

end Cert.KernelIdeal.Frm

end
-- ==== Proof.KernelFinal.lean ====
/-
  The result array. The output window is written back exactly at the last point of each row of the grid (j = 15), with the
  block stored there: rows 128 i … 128 i + 127 of the specification's result. The eight blocks written back cover the
  result array, so it ends holding the specification's result.
-/
import proofs.«105093_j86131274154571_1_alg».proof.Proof.AccChain
import proofs.«105093_j86131274154571_1_alg».proof.Proof.FrameRun
import Idealize.ShloMosaic.Lib.Pipeline.Value

set_option maxRecDepth 16384

noncomputable section

namespace Cert.KernelIdeal.KVal

open Cert.KernelIdeal Cert.KernelIdeal.Gen Cert.KernelIdeal.Frm
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The result array -/

/-- The specification's result on the argument arrays as the region finds them. -/
abbrev Gres (c : Dev nD) : S1024x2.Idx → EReal :=
  Cert.Spec.G (A0 m c) (A1 m c) (A2 m c) (A3 m c) (A4 m c) (A5 m c) (A6 m c) (A7 m c) (A8 m c) (A9 m c) (A10 m c) (A11 m c) (A12 m c) (A13 m c)

/-- What a write-back writes — they happen where j = 15 — is the block of the specification's result: rows 128 i … of it. -/
theorem flushed_eq (c : Dev nD) (t : Fin cfg0.N) (hf : (cfg0.win 15).flush t = true) :
    (dats m 0 c).flushed 15 t = ((cfg0.win 15).blk t).view.read (Elt Ideal) (Gres m c) := by
  have h15 : t.val % 16 = 15 := (flush0_15 t).mp hf
  have hlt : t.val < 128 := lt_of_lt_of_eq t.isLt hN
  obtain ⟨e00, e01, e10, e11, e20, e21, e150, e151, g0, g1⟩ := idx_facts t
  show (cfg0.win 15).cut (grid0.coords t) ((dats m 0 c).after 15 t) = _
  rw [after0_15]
  funext (y : S128x2.Idx)
  obtain ⟨p, q, rfl⟩ : ∃ (p : Fin 128) (q : Fin 2), y = ix2 p q := ⟨y 0, y 1, eq_ix2 y⟩
  show (outsAt0 m c t.val t.isLt).1 (ix2 p q) = Gres m c (((cfg0.win 15).blk t).view.emb (ix2 p q))
  rw [out_at m c t h15 p q]
  refine congrArg _ ?_
  funext a; apply Fin.ext
  match a with
  | ⟨0, _⟩ => show 128 * (t.val / 16) + p.val = win0_15.index t (0 : Fin 2) * 128 + 1 * p.val; omega
  | ⟨1, _⟩ => show q.val = win0_15.index t (1 : Fin 2) * 2 + 1 * q.val; omega

/-- Every row of the result lies in the block written back at the last point of its row of the grid: the result array
    ends at the specification's result. -/
theorem final (c : Dev nD) : (dats m 0 c).arrAt 15 cfg0.N = Gres m c :=
  (dats m 0 c).arrAt_eq_of_cover 15 (Gres m c) (flushed_eq m c) fun i => by
    have hi0 : (i 0).val < 1024 := (i 0).isLt
    have hi1 : (i 1).val < 2 := (i 1).isLt
    have hN' := hN
    have ht : 16 * ((i 0).val / 128) + 15 < cfg0.N := by omega
    obtain ⟨e00, e01, e10, e11, e20, e21, e150, e151, g0, g1⟩ := idx_facts ⟨16 * ((i 0).val / 128) + 15, ht⟩
    refine ⟨⟨16 * ((i 0).val / 128) + 15, ht⟩, (flush0_15 _).mpr (by show (16 * ((i 0).val / 128) + 15) % 16 = 15; omega), ?_⟩
    show i ∈ ((View.whole main_v0).slice (win0_15.rect ⟨16 * ((i 0).val / 128) + 15, ht⟩)).set
    rw [View.set_slice_whole, Rect.mem_set_unit]
    intro a
    match a with
    | ⟨0, _⟩ =>
      show win0_15.index ⟨16 * ((i 0).val / 128) + 15, ht⟩ (0 : Fin 2) * 128 ≤ (i 0).val ∧ (i 0).val < win0_15.index ⟨16 * ((i 0).val / 128) + 15, ht⟩ (0 : Fin 2) * 128 + 128
      rw [e150]; show (16 * ((i 0).val / 128) + 15) / 16 * 128 ≤ (i 0).val ∧ (i 0).val < (16 * ((i 0).val / 128) + 15) / 16 * 128 + 128
      omega
    | ⟨1, _⟩ =>
      show win0_15.index ⟨16 * ((i 0).val / 128) + 15, ht⟩ (1 : Fin 2) * 2 ≤ (i 1).val ∧ (i 1).val < win0_15.index ⟨16 * ((i 0).val / 128) + 15, ht⟩ (1 : Fin 2) * 2 + 2
      rw [e151]; omega

/-- The run, read: the result array at the specification's result, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v0) = Gres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (final m c), (h c).2⟩) (run_result m ρ)

end Cert.KernelIdeal.KVal

end
-- ==== Proof.RefLayout.lean ====
/-
  Layout operations of the reference read at an index, over literal shapes: the joins of arrays along an axis
  (an element of a join comes from the piece whose span holds the coordinate on the joined axis), and the maximum
  over the middle axis of a rank-three array, started from minus infinity (the supremum of the finitely many
  elements along that axis).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.RefLayout

open Idealize.ShloMosaic Idealize.ShloMosaic.ValueIdx

variable {α : Type}

/-! ## Joins of two pieces -/

/-- [1024,1024,4] ++ [1024,1024,1] along the last axis, at channel c < 4: the first piece there. -/
theorem join5_lt (a : (⟨3, ![1024, 1024, 4]⟩ : Shape).Idx → α) (b : (⟨3, ![1024, 1024, 1]⟩ : Shape).Idx → α)
    (h : Shape.Concatenates [(⟨3, ![1024, 1024, 4]⟩ : Shape), ⟨3, ![1024, 1024, 1]⟩] ⟨3, ![1024, 1024, 5]⟩ 2)
    (i j : Fin 1024) (c : Fin 5) (hc : c.val < 4) :
    concatenate (⟨3, ![1024, 1024, 5]⟩ : Shape) 2 [⟨⟨3, ![1024, 1024, 4]⟩, a⟩, ⟨⟨3, ![1024, 1024, 1]⟩, b⟩] h (ix3 i j c)
      = a (ix3 i j ⟨c.val, hc⟩) :=
  concatenate_pair_apply_left 2 a b h (ix3 i j c) rfl (ix3 i j ⟨c.val, hc⟩) (fun d => by
    match d with
    | ⟨0, _⟩ => rfl
    | ⟨1, _⟩ => rfl
    | ⟨2, _⟩ => rfl)

/-- [1024,1024,4] ++ [1024,1024,1] along the last axis, at channel 4: the second piece. -/
theorem join5_ge (a : (⟨3, ![1024, 1024, 4]⟩ : Shape).Idx → α) (b : (⟨3, ![1024, 1024, 1]⟩ : Shape).Idx → α)
    (h : Shape.Concatenates [(⟨3, ![1024, 1024, 4]⟩ : Shape), ⟨3, ![1024, 1024, 1]⟩] ⟨3, ![1024, 1024, 5]⟩ 2)
    (i j : Fin 1024) (c : Fin 5) (hc : ¬ c.val < 4) :
    concatenate (⟨3, ![1024, 1024, 5]⟩ : Shape) 2 [⟨⟨3, ![1024, 1024, 4]⟩, a⟩, ⟨⟨3, ![1024, 1024, 1]⟩, b⟩] h (ix3 i j c)
      = b (ix3 i j (0 : Fin 1)) :=
  concatenate_pair_apply_right 2 a b h (ix3 i j c) rfl rfl (ix3 i j (0 : Fin 1)) (fun d hd => by
    match d, hd with
    | ⟨0, _⟩, _ => rfl
    | ⟨1, _⟩, _ => rfl
    | ⟨2, _⟩, hd => exact absurd rfl hd)
    (by show (0 : Nat) + 4 = c.val; have := c.isLt; omega)

/-- [1024,2] ++ [1024,2] along the columns, at column c: the first piece for c < 2, else the second at c - 2. -/
theorem join22 (a b : (⟨2, ![1024, 2]⟩ : Shape).Idx → α)
    (h : Shape.Concatenates [(⟨2, ![1024, 2]⟩ : Shape), ⟨2, ![1024, 2]⟩] ⟨2, ![1024, 4]⟩ 1) (i : Fin 1024) (c : Fin 4) :
    concatenate (⟨2, ![1024, 4]⟩ : Shape) 1 [⟨⟨2, ![1024, 2]⟩, a⟩, ⟨⟨2, ![1024, 2]⟩, b⟩] h (ix2 i c)
      = if hc : c.val < 2 then a (ix2 i ⟨c.val, hc⟩) else b (ix2 i ⟨c.val - 2, by omega⟩) := by
  split
  · next hc =>
    exact concatenate_pair_apply_left 1 a b h (ix2 i c) rfl (ix2 i ⟨c.val, hc⟩) (fun d => by
      match d with
      | ⟨0, _⟩ => rfl
      | ⟨1, _⟩ => rfl)
  · next hc =>
    exact concatenate_pair_apply_right 1 a b h (ix2 i c) rfl rfl (ix2 i ⟨c.val - 2, by omega⟩) (fun d hd => by
      match d, hd with
      | ⟨0, _⟩, _ => rfl
      | ⟨1, _⟩, hd => exact absurd rfl hd)
      (by show c.val - 2 + 2 = c.val; omega)

/-- [1024,1] ++ [1024,1] along the columns, at column c: piece c at column 0. -/
theorem join11 (a b : (⟨2, ![1024, 1]⟩ : Shape).Idx → α)
    (h : Shape.Concatenates [(⟨2, ![1024, 1]⟩ : Shape), ⟨2, ![1024, 1]⟩] ⟨2, ![1024, 2]⟩ 1) (i : Fin 1024) (c : Fin 2) :
    concatenate (⟨2, ![1024, 2]⟩ : Shape) 1 [⟨⟨2, ![1024, 1]⟩, a⟩, ⟨⟨2, ![1024, 1]⟩, b⟩] h (ix2 i c)
      = if c.val = 0 then a (ix2 i (0 : Fin 1)) else b (ix2 i (0 : Fin 1)) := by
  split
  · next hc =>
    exact concatenate_pair_apply_left 1 a b h (ix2 i c) rfl (ix2 i (0 : Fin 1)) (fun d => by
      match d with
      | ⟨0, _⟩ => rfl
      | ⟨1, _⟩ => exact hc.symm)
  · next hc =>
    exact concatenate_pair_apply_right 1 a b h (ix2 i c) rfl rfl (ix2 i (0 : Fin 1)) (fun d hd => by
      match d, hd with
      | ⟨0, _⟩, _ => rfl
      | ⟨1, _⟩, hd => exact absurd rfl hd)
      (by show (0 : Nat) + 1 = c.val; have := c.isLt; omega)

/-! ## Joins of three and four pieces -/

/-- [1024,128] ++ [1024,2] ++ [1024,2] along the columns, at column k: the first piece below 128, the second at
    k - 128 below 130, else the third at k - 130. -/
theorem join132 (p : (⟨2, ![1024, 128]⟩ : Shape).Idx → α) (a b : (⟨2, ![1024, 2]⟩ : Shape).Idx → α)
    (h : Shape.Concatenates [(⟨2, ![1024, 128]⟩ : Shape), ⟨2, ![1024, 2]⟩, ⟨2, ![1024, 2]⟩] ⟨2, ![1024, 132]⟩ 1)
    (i : Fin 1024) (k : Fin 132) :
    concatenate (⟨2, ![1024, 132]⟩ : Shape) 1 [⟨⟨2, ![1024, 128]⟩, p⟩, ⟨⟨2, ![1024, 2]⟩, a⟩, ⟨⟨2, ![1024, 2]⟩, b⟩] h (ix2 i k)
      = if h1 : k.val < 128 then p (ix2 i ⟨k.val, h1⟩)
        else if h2 : k.val < 130 then a (ix2 i ⟨k.val - 128, by omega⟩)
        else b (ix2 i ⟨k.val - 130, by omega⟩) := by
  have hk := k.isLt
  split
  · next h1 =>
    exact concatenate_apply_piece 1 [⟨⟨2, ![1024, 128]⟩, p⟩, ⟨⟨2, ![1024, 2]⟩, a⟩, ⟨⟨2, ![1024, 2]⟩, b⟩] h (ix2 i k) 0 (by simp) _ p rfl rfl 0 rfl (ix2 i ⟨k.val, h1⟩) (fun d hd => by
      match d, hd with
      | ⟨0, _⟩, _ => rfl
      | ⟨1, _⟩, hd => exact absurd rfl hd) (by show 0 + k.val = k.val; omega)
  · next h1 =>
    split
    · next h2 =>
      exact concatenate_apply_piece 1 [⟨⟨2, ![1024, 128]⟩, p⟩, ⟨⟨2, ![1024, 2]⟩, a⟩, ⟨⟨2, ![1024, 2]⟩, b⟩] h (ix2 i k) 1 (by simp) _ a rfl rfl 128 rfl (ix2 i ⟨k.val - 128, by omega⟩)
        (fun d hd => by
          match d, hd with
          | ⟨0, _⟩, _ => rfl
          | ⟨1, _⟩, hd => exact absurd rfl hd) (by show 128 + (k.val - 128) = k.val; omega)
    · next h2 =>
      exact concatenate_apply_piece 1 [⟨⟨2, ![1024, 128]⟩, p⟩, ⟨⟨2, ![1024, 2]⟩, a⟩, ⟨⟨2, ![1024, 2]⟩, b⟩] h (ix2 i k) 2 (by simp) _ b rfl rfl 130 rfl (ix2 i ⟨k.val - 130, by omega⟩)
        (fun d hd => by
          match d, hd with
          | ⟨0, _⟩, _ => rfl
          | ⟨1, _⟩, hd => exact absurd rfl hd) (by show 130 + (k.val - 130) = k.val; omega)

/-- Four columns [1024,1] joined, at column c: piece c at its only column. -/
theorem join1111 (a0 a1 a2 a3 : (⟨2, ![1024, 1]⟩ : Shape).Idx → α)
    (h : Shape.Concatenates [(⟨2, ![1024, 1]⟩ : Shape), ⟨2, ![1024, 1]⟩, ⟨2, ![1024, 1]⟩, ⟨2, ![1024, 1]⟩] ⟨2, ![1024, 4]⟩ 1)
    (i : Fin 1024) (c : Fin 4) :
    concatenate (⟨2, ![1024, 4]⟩ : Shape) 1
        [⟨⟨2, ![1024, 1]⟩, a0⟩, ⟨⟨2, ![1024, 1]⟩, a1⟩, ⟨⟨2, ![1024, 1]⟩, a2⟩, ⟨⟨2, ![1024, 1]⟩, a3⟩] h (ix2 i c)
      = if c.val = 0 then a0 (ix2 i (0 : Fin 1)) else if c.val = 1 then a1 (ix2 i (0 : Fin 1))
        else if c.val = 2 then a2 (ix2 i (0 : Fin 1)) else a3 (ix2 i (0 : Fin 1)) := by
  have hc := c.isLt
  have hi : ∀ d : Fin 2, d.cast (rfl : (2 : Nat) = 2) ≠ (1 : Fin 2) →
      ((ix2 i (0 : Fin 1) : (⟨2, ![1024, 1]⟩ : Shape).Idx) d).val = ((ix2 i c : (⟨2, ![1024, 4]⟩ : Shape).Idx) (d.cast rfl)).val :=
    fun d hd => by
      match d, hd with
      | ⟨0, _⟩, _ => rfl
      | ⟨1, _⟩, hd => exact absurd rfl hd
  split
  · next h0 =>
    exact concatenate_apply_piece 1 [⟨⟨2, ![1024, 1]⟩, a0⟩, ⟨⟨2, ![1024, 1]⟩, a1⟩, ⟨⟨2, ![1024, 1]⟩, a2⟩, ⟨⟨2, ![1024, 1]⟩, a3⟩] h (ix2 i c) 0 (by simp) _ a0 rfl rfl 0 rfl (ix2 i (0 : Fin 1)) hi
      (by show 0 + 0 = c.val; omega)
  · next h0 =>
    split
    · next h1 =>
      exact concatenate_apply_piece 1 [⟨⟨2, ![1024, 1]⟩, a0⟩, ⟨⟨2, ![1024, 1]⟩, a1⟩, ⟨⟨2, ![1024, 1]⟩, a2⟩, ⟨⟨2, ![1024, 1]⟩, a3⟩] h (ix2 i c) 1 (by simp) _ a1 rfl rfl 1 rfl (ix2 i (0 : Fin 1)) hi
        (by show 1 + 0 = c.val; omega)
    · next h1 =>
      split
      · next h2 =>
        exact concatenate_apply_piece 1 [⟨⟨2, ![1024, 1]⟩, a0⟩, ⟨⟨2, ![1024, 1]⟩, a1⟩, ⟨⟨2, ![1024, 1]⟩, a2⟩, ⟨⟨2, ![1024, 1]⟩, a3⟩] h (ix2 i c) 2 (by simp) _ a2 rfl rfl 2 rfl (ix2 i (0 : Fin 1)) hi
          (by show 2 + 0 = c.val; omega)
      · next h2 =>
        exact concatenate_apply_piece 1 [⟨⟨2, ![1024, 1]⟩, a0⟩, ⟨⟨2, ![1024, 1]⟩, a1⟩, ⟨⟨2, ![1024, 1]⟩, a2⟩, ⟨⟨2, ![1024, 1]⟩, a3⟩] h (ix2 i c) 3 (by simp) _ a3 rfl rfl 3 rfl (ix2 i (0 : Fin 1)) hi
          (by show 3 + 0 = c.val; omega)

/-! ## The maximum over the middle axis -/

/-- The reduced index (i, o) with coordinate k put back on the middle axis is (i, k, o). -/
theorem lift_mid (h : (⟨3, ![1024, 1024, 128]⟩ : Shape).Reduces [1] (⟨2, ![1024, 128]⟩ : Shape)) (i : Fin 1024) (o : Fin 128)
    (k : Fin ((⟨3, ![1024, 1024, 128]⟩ : Shape).size 1)) :
    h.lift (ix2 i o) k = ix3 i (⟨k.val, k.isLt⟩ : Fin 1024) o := by
  funext c; apply Fin.ext
  fin_cases c <;> rfl

/-- From minus infinity, the host's reduce with a maximum body over the middle axis of a [1024,1024,128] array is,
    at (i, o), the supremum of the 1024 elements (i, j, o). -/
theorem reduceMax_mid (x : (⟨3, ![1024, 1024, 128]⟩ : Shape).Idx → EReal)
    (h' : (⟨3, ![1024, 1024, 128]⟩ : Shape).ReducesTo [1] (⟨2, ![1024, 128]⟩ : Shape))
    (hu : 0 < (⟨0, ![]⟩ : Shape).numel) (i : Fin 1024) (o : Fin 128) :
    Host.reduce (FloatOps.maximumf (F := Ideal) (φ := .f32)) x (constant (F := Ideal) (⟨0, ![]⟩ : Shape) .f32 0xFF800000#32) h' hu
        (ix2 i o)
      = Finset.univ.sup fun j : Fin 1024 => x (ix3 i j o) := by
  have h : (⟨3, ![1024, 1024, 128]⟩ : Shape).Reduces [1] (⟨2, ![1024, 128]⟩ : Shape) := by decide
  refine (Host.reduce_eq_fold_single (FloatOps.maximumf (F := Ideal) (φ := .f32)) x _ h' h hu (ix2 i o)).trans ?_
  have hb : constant (F := Ideal) (⟨0, ![]⟩ : Shape) .f32 0xFF800000#32 (Shape.Idx.first hu) = (⊥ : EReal) := by
    show Ideal.ofBits .f32 0xFF800000#32 = ⊥
    simp [Ideal.ofBits, Ideal.ieee]
  rw [hb]
  have hf : (x ∘ h.lift (ix2 i o)) = fun k : Fin 1024 => x (ix3 i k o) :=
    funext fun k => congrArg x (lift_mid h i o k)
  exact congrArg (fun f => Finset.fold max (⊥ : EReal) f (Finset.univ : Finset (Fin 1024))) hf

end Cert.RefLayout

end
-- ==== Proof.RefEdge.lean ====
/-
  The reference's edge stage, read index by index: the five edge features, the distance and the neighbour mask,
  the two rectified affine edge layers, the masked activation, and its maximum over the second agent — each stage of
  the reference at coordinates (i, j, channel) is the specification's function of the same name.
-/
import proofs.«105093_j86131274154571_1_alg».proof.Proof.RefReadP
import proofs.«105093_j86131274154571_1_alg».proof.Proof.RefLayout
import proofs.«105093_j86131274154571_1_alg».proof.Proof.Spec

noncomputable section

open scoped BigOperators

namespace Cert.RefIsSpec

open Cert.ReferenceIdeal Cert.ReferenceIdeal.Read Idealize.ShloMosaic Idealize.ShloMosaic.ValueIdx Cert.Spec Cert.RefLayout

/-! ## Indices by coordinates -/

theorem ext1 {n0 : Nat} {p q : (⟨1, ![n0]⟩ : Shape).Idx} (h0 : p 0 = q 0) : p = q :=
  funext fun a => match a with | ⟨0, _⟩ => h0

theorem ext2 {n0 n1 : Nat} {p q : (⟨2, ![n0, n1]⟩ : Shape).Idx} (h0 : p 0 = q 0) (h1 : p 1 = q 1) : p = q :=
  funext fun a => match a with | ⟨0, _⟩ => h0 | ⟨1, _⟩ => h1

theorem ext3 {n0 n1 n2 : Nat} {p q : (⟨3, ![n0, n1, n2]⟩ : Shape).Idx} (h0 : p 0 = q 0) (h1 : p 1 = q 1)
    (h2 : p 2 = q 2) : p = q :=
  funext fun a => match a with | ⟨0, _⟩ => h0 | ⟨1, _⟩ => h1 | ⟨2, _⟩ => h2

/-! ## The edge features -/

/-- The broadcast difference s[i, c] - s[j, c]. -/
theorem v4_at (x0 : Arr2 1024 4) (i j : Fin 1024) (c : Fin 4) :
    val_main_v4 (F := Ideal) x0 (ix3 i j c) = pd x0 i j c := by
  rw [val_main_v4_apply, val_main_v2_apply, val_main_v0_apply, val_main_v3_apply, val_main_v1_apply]
  exact congrArg₂ (fun a b : EReal => a - b) (congrArg x0 (ext2 rfl rfl)) (congrArg x0 (ext2 rfl rfl))

/-- The identity channel: the comparison of the two 32-bit row and column counters, as 0 or 1. -/
theorem v11_at (i j : Fin 1024) : val_main_v11 (F := Ideal) (ix3 i j (0 : Fin 1)) = eye i j := by
  rw [val_main_v11_apply, val_main_v10_apply, val_main_v9_apply, val_main_v8_apply, val_main_v5_apply,
    val_main_v7_apply, val_main_c_apply, val_main_v6_apply]
  show (((IntOp.cmpi .eq (IntOp.addi (BitVec.ofNat 32 i.val) 0#32) (BitVec.ofNat 32 j.val)).toNat : ℝ) : EReal) = eye i j
  have hi := i.isLt
  have hj := j.isLt
  unfold eye IntOp.cmpi IntOp.addi
  by_cases h : i = j
  · subst h; simp
  · have hne : i.val ≠ j.val := fun e => h (Fin.ext e)
    have hb : (BitVec.ofNat 32 i.val + 0#32 == BitVec.ofNat 32 j.val) = false := by
      rw [BitVec.add_zero, beq_eq_false_iff_ne]
      intro e
      have := congrArg BitVec.toNat e
      simp only [BitVec.toNat_ofNat] at this
      omega
    rw [if_neg h, hb]
    simp

/-- The five edge features: the join of the four differences with the identity channel. -/
theorem v12_at (x0 : Arr2 1024 4) (i j : Fin 1024) (c : Fin 5) :
    val_main_v12 (F := Ideal) x0 (ix3 i j c) = x5 x0 i j c := by
  unfold val_main_v12 x5
  split
  · next hc => exact (join5_lt _ _ _ i j c hc).trans (v4_at x0 i j ⟨c.val, hc⟩)
  · next hc => exact (join5_ge _ _ _ i j c hc).trans (v11_at i j)

theorem x5_zero (x0 : Arr2 1024 4) (i j : Fin 1024) : x5 x0 i j 0 = pd x0 i j 0 := by
  unfold x5; rw [dif_pos (by decide)]; rfl

theorem x5_one (x0 : Arr2 1024 4) (i j : Fin 1024) : x5 x0 i j 1 = pd x0 i j 1 := by
  unfold x5; rw [dif_pos (by decide)]; rfl

/-! ## Distance and mask -/

/-- The norm of the first two features: the sum from zero of their two squares, then the root. -/
theorem v14_at (x0 : Arr2 1024 4) (i j : Fin 1024) :
    val_main_v14 (F := Ideal) x0 (ix3 i j (0 : Fin 1)) = dist x0 i j := by
  rw [val_main_v14_apply, val_main_call0_v2_apply, val_main_call0_v1_apply, val_main_call0_cst_apply, Fin.sum_univ_two]
  simp only [val_main_call0_v0_apply, val_main_v13_apply]
  have e0 : idx_main_v13 (idx_main_call0_v1 (idx_main_call0_v2 (ix3 i j (0 : Fin 1))) 0) = ix3 i j (0 : Fin 5) :=
    ext3 rfl rfl rfl
  have e1 : idx_main_v13 (idx_main_call0_v1 (idx_main_call0_v2 (ix3 i j (0 : Fin 1))) 1) = ix3 i j (1 : Fin 5) :=
    ext3 rfl rfl rfl
  rw [e0, e1, v12_at, v12_at, x5_zero, x5_one]
  show Ideal.sqrt (Ideal.ofBits .f32 0x00000000#32 + (pd x0 i j 0 * pd x0 i j 0 + pd x0 i j 1 * pd x0 i j 1)) = _
  rw [Ideal.ofBits_zero_f32, zero_add]
  rfl

/-- The neighbour mask: the comparison with the literal 0.5, as 0 or 1. -/
theorem v17_at (x0 : Arr2 1024 4) (i j : Fin 1024) :
    val_main_v17 (F := Ideal) x0 (ix3 i j (0 : Fin 1)) = mask x0 i j := by
  rw [val_main_v17_apply, val_main_v16_apply, v14_at, val_main_v15_apply, val_main_cst_apply]
  show (((Ideal.cmp .olt (dist x0 i j) (Ideal.ofBits .f32 0x3F000000#32)).toNat : ℝ) : EReal) = mask x0 i j
  unfold mask Ideal.cmp
  by_cases h : dist x0 i j < half
  · rw [if_pos h]; simp [h]
  · rw [if_neg h]; simp [h]

/-! ## The two edge layers -/

/-- First edge layer: the contraction of the five features with the weights, plus the bias, rectified. -/
theorem v22_at (x0 : Arr2 1024 4) (x2 : Arr2 64 5) (x3 : Arr1 64) (i j : Fin 1024) (o : Fin 64) :
    val_main_v22 (F := Ideal) x0 x2 x3 (ix3 i j o) = h1 x0 x2 x3 i j o := by
  rw [val_main_v22_apply, val_main_v21_apply, val_main_v18_apply, val_main_v20_apply, val_main_v19_apply,
    val_main_call1_v0_apply, val_main_call1_cst_apply]
  show max (∑ k : Fin 5, val_main_v12 (F := Ideal) x0 (lidx_main_v18 (ix3 i j o) k) * x2 (ridx_main_v18 (ix3 i j o) k)
      + x3 (idx_main_v19 (idx_main_v20 (ix3 i j o)))) (Ideal.ofBits .f32 0x00000000#32) = _
  rw [Ideal.ofBits_zero_f32]
  unfold h1
  refine congrArg₂ max (congrArg₂ (fun a b : EReal => a + b) (Finset.sum_congr rfl fun k _ => ?_)
    (congrArg x3 (ext1 rfl))) rfl
  rw [show lidx_main_v18 (ix3 i j o) k = ix3 i j k from ext3 rfl rfl rfl, v12_at]
  exact congrArg (fun a : EReal => x5 x0 i j k * a) (congrArg x2 (ext2 rfl rfl))

/-- Second edge layer. -/
theorem v27_at (x0 : Arr2 1024 4) (x2 : Arr2 64 5) (x3 : Arr1 64) (x4 : Arr2 128 64) (x5' : Arr1 128)
    (i j : Fin 1024) (o : Fin 128) :
    val_main_v27 (F := Ideal) x0 x2 x3 x4 x5' (ix3 i j o) = h2 x0 x2 x3 x4 x5' i j o := by
  rw [val_main_v27_apply, val_main_v26_apply, val_main_v23_apply, val_main_v25_apply, val_main_v24_apply,
    val_main_call2_v0_apply, val_main_call2_cst_apply]
  show max (∑ k : Fin 64, val_main_v22 (F := Ideal) x0 x2 x3 (lidx_main_v23 (ix3 i j o) k) * x4 (ridx_main_v23 (ix3 i j o) k)
      + x5' (idx_main_v24 (idx_main_v25 (ix3 i j o)))) (Ideal.ofBits .f32 0x00000000#32) = _
  rw [Ideal.ofBits_zero_f32]
  unfold h2
  refine congrArg₂ max (congrArg₂ (fun a b : EReal => a + b) (Finset.sum_congr rfl fun k _ => ?_)
    (congrArg x5' (ext1 rfl))) rfl
  rw [show lidx_main_v23 (ix3 i j o) k = ix3 i j k from ext3 rfl rfl rfl, v22_at]
  exact congrArg (fun a : EReal => h1 x0 x2 x3 i j k * a) (congrArg x4 (ext2 rfl rfl))

/-! ## The masked activation and its maximum -/

theorem v29_at (x0 : Arr2 1024 4) (x2 : Arr2 64 5) (x3 : Arr1 64) (x4 : Arr2 128 64) (x5' : Arr1 128)
    (i j : Fin 1024) (o : Fin 128) :
    val_main_v29 (F := Ideal) x0 x2 x3 x4 x5' (ix3 i j o) = masked x0 x2 x3 x4 x5' i j o := by
  rw [val_main_v29_apply, v27_at, val_main_v28_apply,
    show idx_main_v28 (ix3 i j o) = ix3 i j (0 : Fin 1) from ext3 rfl rfl rfl, v17_at]
  rfl

/-- The maximum over the second agent, from minus infinity: the pooled feature. -/
theorem v30_at (x0 : Arr2 1024 4) (x2 : Arr2 64 5) (x3 : Arr1 64) (x4 : Arr2 128 64) (x5' : Arr1 128)
    (i : Fin 1024) (o : Fin 128) :
    val_main_v30 (F := Ideal) x0 x2 x3 x4 x5' (ix2 i o) = pooled x0 x2 x3 x4 x5' i o := by
  unfold val_main_v30 val_main_cst_0 pooled
  refine (reduceMax_mid _ _ _ i o).trans ?_
  exact Finset.sup_congr rfl fun j _ => v29_at x0 x2 x3 x4 x5' i j o

end Cert.RefIsSpec

end
-- ==== Proof.RefHead.lean ====
/-
  The reference's head stage, read index by index: the goal offset, the 132 head features (pooled, goal offset,
  velocity), the three rectified affine layers, the logits and the gains 2 / (1 + exp (-logit)) - 1 — each stage at
  coordinates (agent, channel) is the specification's function of the same name.
-/
import proofs.«105093_j86131274154571_1_alg».proof.Proof.RefEdge

noncomputable section

open scoped BigOperators

namespace Cert.RefIsSpec

open Cert.ReferenceIdeal Cert.ReferenceIdeal.Read Idealize.ShloMosaic Idealize.ShloMosaic.ValueIdx Cert.Spec Cert.RefLayout

/-! ## The head features -/

/-- The goal offset s[i, c] - g[i, c], c < 2. -/
theorem v32_at (x0 : Arr2 1024 4) (x1 : Arr2 1024 2) (i : Fin 1024) (c : Fin 2) :
    val_main_v32 (F := Ideal) x0 x1 (ix2 i c) = sg x0 x1 i c := by
  rw [val_main_v32_apply, val_main_v31_apply]
  exact congrArg₂ (fun a b : EReal => a - b) (congrArg x0 (ext2 rfl rfl)) rfl

/-- The velocity columns s[i, c + 2], c < 2. -/
theorem v33_at (x0 : Arr2 1024 4) (i : Fin 1024) (c : Fin 2) :
    val_main_v33 (F := Ideal) x0 (ix2 i c) = x0 (ix2 i (hi4 c)) := by
  rw [val_main_v33_apply]
  exact congrArg x0 (ext2 rfl (Fin.ext (by show 2 + c.val = c.val + 2; omega)))

/-- The 132 features: the join of the pooled features, the goal offset and the velocity. -/
theorem v34_at (x0 : Arr2 1024 4) (x1 : Arr2 1024 2) (x2 : Arr2 64 5) (x3 : Arr1 64) (x4 : Arr2 128 64) (x5' : Arr1 128)
    (i : Fin 1024) (k : Fin 132) :
    val_main_v34 (F := Ideal) x0 x1 x2 x3 x4 x5' (ix2 i k) = feat x0 x1 x2 x3 x4 x5' i k := by
  unfold val_main_v34 feat
  refine (join132 _ _ _ _ i k).trans ?_
  have hk := k.isLt
  by_cases h1 : k.val < 128
  · rw [dif_pos h1, dif_pos h1]
    exact v30_at x0 x2 x3 x4 x5' i ⟨k.val, h1⟩
  · rw [dif_neg h1, dif_neg h1]
    by_cases h2 : k.val < 130
    · rw [dif_pos h2, dif_pos h2]
      exact v32_at x0 x1 i ⟨k.val - 128, by omega⟩
    · rw [dif_neg h2, dif_neg h2]
      exact (v33_at x0 i ⟨k.val - 130, by omega⟩).trans
        (congrArg x0 (ext2 rfl (Fin.ext (by show k.val - 130 + 2 = k.val - 128; omega))))

/-! ## The three rectified layers and the logits -/

/-- Head layer 1. -/
theorem v40_at (x0 : Arr2 1024 4) (x1 : Arr2 1024 2) (x2 : Arr2 64 5) (x3 : Arr1 64) (x4 : Arr2 128 64) (x5' : Arr1 128)
    (x6 : Arr2 64 132) (x7 : Arr1 64) (i : Fin 1024) (o : Fin 64) :
    val_main_v40 (F := Ideal) x0 x1 x2 x3 x4 x5' x6 x7 (ix2 i o) = z1 x0 x1 x2 x3 x4 x5' x6 x7 i o := by
  rw [val_main_v40_apply, val_main_v39_apply, val_main_v36_apply, val_main_v38_apply, val_main_v37_apply,
    val_main_call3_v0_apply, val_main_call3_cst_apply]
  show max (∑ k : Fin 132, val_main_v34 (F := Ideal) x0 x1 x2 x3 x4 x5' (lidx_main_v36 (ix2 i o) k)
        * val_main_v35 (F := Ideal) x6 (ridx_main_v36 (ix2 i o) k)
      + x7 (idx_main_v37 (idx_main_v38 (ix2 i o)))) (Ideal.ofBits .f32 0x00000000#32) = _
  rw [Ideal.ofBits_zero_f32]
  unfold z1
  refine congrArg₂ max (congrArg₂ (fun a b : EReal => a + b) (Finset.sum_congr rfl fun k _ => ?_)
    (congrArg x7 (ext1 rfl))) rfl
  rw [show lidx_main_v36 (ix2 i o) k = ix2 i k from ext2 rfl rfl, v34_at, val_main_v35_apply]
  exact congrArg (fun a : EReal => feat x0 x1 x2 x3 x4 x5' i k * a) (congrArg x6 (ext2 rfl rfl))

/-- Head layer 2. -/
theorem v46_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (i : Fin 1024) (o : Fin 128) :
    val_main_v46 (F := Ideal) x0 x1 x2 x3 x4 x5' x6 x7 x8 x9 (ix2 i o) = z2 x0 x1 x2 x3 x4 x5' x6 x7 x8 x9 i o := by
  rw [val_main_v46_apply, val_main_v45_apply, val_main_v42_apply, val_main_v44_apply, val_main_v43_apply,
    val_main_call4_v0_apply, val_main_call4_cst_apply]
  show max (∑ k : Fin 64, val_main_v40 (F := Ideal) x0 x1 x2 x3 x4 x5' x6 x7 (lidx_main_v42 (ix2 i o) k)
        * val_main_v41 (F := Ideal) x8 (ridx_main_v42 (ix2 i o) k)
      + x9 (idx_main_v43 (idx_main_v44 (ix2 i o)))) (Ideal.ofBits .f32 0x00000000#32) = _
  rw [Ideal.ofBits_zero_f32]
  unfold z2
  refine congrArg₂ max (congrArg₂ (fun a b : EReal => a + b) (Finset.sum_congr rfl fun k _ => ?_)
    (congrArg x9 (ext1 rfl))) rfl
  rw [show lidx_main_v42 (ix2 i o) k = ix2 i k from ext2 rfl rfl, v40_at, val_main_v41_apply]
  exact congrArg (fun a : EReal => z1 x0 x1 x2 x3 x4 x5' x6 x7 i k * a) (congrArg x8 (ext2 rfl rfl))

/-- Head layer 3. -/
theorem v52_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (i : Fin 1024) (o : Fin 64) :
    val_main_v52 (F := Ideal) x0 x1 x2 x3 x4 x5' x6 x7 x8 x9 x10 x11 (ix2 i o)
      = z3 x0 x1 x2 x3 x4 x5' x6 x7 x8 x9 x10 x11 i o := by
  rw [val_main_v52_apply, val_main_v51_apply, val_main_v48_apply, val_main_v50_apply, val_main_v49_apply,
    val_main_call5_v0_apply, val_main_call5_cst_apply]
  show max (∑ k : Fin 128, val_main_v46 (F := Ideal) x0 x1 x2 x3 x4 x5' x6 x7 x8 x9 (lidx_main_v48 (ix2 i o) k)
        * val_main_v47 (F := Ideal) x10 (ridx_main_v48 (ix2 i o) k)
      + x11 (idx_main_v49 (idx_main_v50 (ix2 i o)))) (Ideal.ofBits .f32 0x00000000#32) = _
  rw [Ideal.ofBits_zero_f32]
  unfold z3
  refine congrArg₂ max (congrArg₂ (fun a b : EReal => a + b) (Finset.sum_congr rfl fun k _ => ?_)
    (congrArg x11 (ext1 rfl))) rfl
  rw [show lidx_main_v48 (ix2 i o) k = ix2 i k from ext2 rfl rfl, v46_at, val_main_v47_apply]
  exact congrArg (fun a : EReal => z2 x0 x1 x2 x3 x4 x5' x6 x7 x8 x9 i k * a) (congrArg x10 (ext2 rfl rfl))

/-- The logits: the last affine layer. -/
theorem v57_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) (o : Fin 4) :
    val_main_v57 (F := Ideal) x0 x1 x2 x3 x4 x5' x6 x7 x8 x9 x10 x11 x12 x13 (ix2 i o)
      = logit x0 x1 x2 x3 x4 x5' x6 x7 x8 x9 x10 x11 x12 x13 i o := by
  rw [val_main_v57_apply, val_main_v54_apply, val_main_v56_apply, val_main_v55_apply]
  show (∑ k : Fin 64, val_main_v52 (F := Ideal) x0 x1 x2 x3 x4 x5' x6 x7 x8 x9 x10 x11 (lidx_main_v54 (ix2 i o) k)
        * val_main_v53 (F := Ideal) x12 (ridx_main_v54 (ix2 i o) k))
      + x13 (idx_main_v55 (idx_main_v56 (ix2 i o))) = _
  unfold logit
  refine congrArg₂ (fun a b : EReal => a + b) (Finset.sum_congr rfl fun k _ => ?_) (congrArg x13 (ext1 rfl))
  rw [show lidx_main_v54 (ix2 i o) k = ix2 i k from ext2 rfl rfl, v52_at, val_main_v53_apply]
  exact congrArg (fun a : EReal => z3 x0 x1 x2 x3 x4 x5' x6 x7 x8 x9 x10 x11 i k * a) (congrArg x12 (ext2 rfl rfl))

/-- The gains: 2 * (1 / (1 + exp (-logit))) - 1, the literals as printed. -/
theorem v67_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) (o : Fin 4) :
    val_main_v67 (F := Ideal) x0 x1 x2 x3 x4 x5' x6 x7 x8 x9 x10 x11 x12 x13 (ix2 i o)
      = kk x0 x1 x2 x3 x4 x5' x6 x7 x8 x9 x10 x11 x12 x13 i o := by
  rw [val_main_v67_apply, val_main_v65_apply, val_main_v64_apply, val_main_cst_3_apply, val_main_v63_apply,
    val_main_v62_apply, val_main_cst_2_apply, val_main_v61_apply, val_main_v60_apply, val_main_cst_1_apply,
    val_main_v59_apply, val_main_v58_apply, v57_at, val_main_v66_apply, val_main_cst_4_apply]
  rfl

end Cert.RefIsSpec

end
-- ==== Proof.RefOut.lean ====
/-
  The reference's output stage, read index by index: the gain rows -(k0, 0, k1, 0) and -(0, k2, 0, k3) (joins of
  single columns of the gains with zero columns, negated), the state (goal offset, velocity), the two inner products
  (sums from zero over the four columns), and their join: the reference's result is the specification G.
-/
import proofs.«105093_j86131274154571_1_alg».proof.Proof.RefHead

noncomputable section

open scoped BigOperators

namespace Cert.RefIsSpec

open Cert.ReferenceIdeal Cert.ReferenceIdeal.Read Idealize.ShloMosaic Idealize.ShloMosaic.ValueIdx Cert.Spec Cert.RefLayout

/-! ## The gain rows -/

/-- Column 0 of the gains, as a one-column array. -/
theorem v68_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) :
    val_main_v68 (F := Ideal) x0 x1 x2 x3 x4 x5' x6 x7 x8 x9 x10 x11 x12 x13 (ix2 i (0 : Fin 1)) = kk x0 x1 x2 x3 x4 x5' x6 x7 x8 x9 x10 x11 x12 x13 i 0 := by
  rw [val_main_v68_apply, show idx_main_v68 (ix2 i (0 : Fin 1)) = ix2 i (0 : Fin 4) from ext2 rfl rfl, v67_at]

/-- Column 1 of the gains, as a one-column array. -/
theorem v69_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) :
    val_main_v69 (F := Ideal) x0 x1 x2 x3 x4 x5' x6 x7 x8 x9 x10 x11 x12 x13 (ix2 i (0 : Fin 1)) = kk x0 x1 x2 x3 x4 x5' x6 x7 x8 x9 x10 x11 x12 x13 i 1 := by
  rw [val_main_v69_apply, show idx_main_v69 (ix2 i (0 : Fin 1)) = ix2 i (1 : Fin 4) from ext2 rfl rfl, v67_at]

/-- Column 2 of the gains, as a one-column array. -/
theorem v70_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) :
    val_main_v70 (F := Ideal) x0 x1 x2 x3 x4 x5' x6 x7 x8 x9 x10 x11 x12 x13 (ix2 i (0 : Fin 1)) = kk x0 x1 x2 x3 x4 x5' x6 x7 x8 x9 x10 x11 x12 x13 i 2 := by
  rw [val_main_v70_apply, show idx_main_v70 (ix2 i (0 : Fin 1)) = ix2 i (2 : Fin 4) from ext2 rfl rfl, v67_at]

/-- Column 3 of the gains, as a one-column array. -/
theorem v71_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) :
    val_main_v71 (F := Ideal) x0 x1 x2 x3 x4 x5' x6 x7 x8 x9 x10 x11 x12 x13 (ix2 i (0 : Fin 1)) = kk x0 x1 x2 x3 x4 x5' x6 x7 x8 x9 x10 x11 x12 x13 i 3 := by
  rw [val_main_v71_apply, show idx_main_v71 (ix2 i (0 : Fin 1)) = ix2 i (3 : Fin 4) from ext2 rfl rfl, v67_at]

/-- The zero column. -/
theorem v72_at (i : Fin 1024) : val_main_v72 (F := Ideal) (ix2 i (0 : Fin 1)) = 0 := by
  rw [val_main_v72_apply, val_main_cst_5_apply]
  exact Ideal.ofBits_zero_f32

/-- The x-gain row -(k0, 0, k1, 0). -/
theorem v74_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) (c : Fin 4) :
    val_main_v74 (F := Ideal) x0 x1 x2 x3 x4 x5' x6 x7 x8 x9 x10 x11 x12 x13 (ix2 i c) = gainX (kk x0 x1 x2 x3 x4 x5' x6 x7 x8 x9 x10 x11 x12 x13 i) c := by
  rw [val_main_v74_apply]
  unfold val_main_v73 gainX
  refine congrArg (fun a : EReal => -a) ((join1111 _ _ _ _ _ i c).trans ?_)
  have hc := c.isLt
  by_cases h0 : c.val = 0
  · rw [if_pos h0, if_pos h0]
    exact v68_at x0 x1 x2 x3 x4 x5' x6 x7 x8 x9 x10 x11 x12 x13 i
  · rw [if_neg h0, if_neg h0]
    by_cases h1 : c.val = 1
    · rw [if_pos h1, if_neg (by omega : ¬ c.val = 2)]
      exact v72_at i
    · rw [if_neg h1]
      by_cases h2 : c.val = 2
      · rw [if_pos h2, if_pos h2]
        exact v69_at x0 x1 x2 x3 x4 x5' x6 x7 x8 x9 x10 x11 x12 x13 i
      · rw [if_neg h2, if_neg h2]
        exact v72_at i

/-- The y-gain row -(0, k2, 0, k3). -/
theorem v76_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) (c : Fin 4) :
    val_main_v76 (F := Ideal) x0 x1 x2 x3 x4 x5' x6 x7 x8 x9 x10 x11 x12 x13 (ix2 i c) = gainY (kk x0 x1 x2 x3 x4 x5' x6 x7 x8 x9 x10 x11 x12 x13 i) c := by
  rw [val_main_v76_apply]
  unfold val_main_v75 gainY
  refine congrArg (fun a : EReal => -a) ((join1111 _ _ _ _ _ i c).trans ?_)
  have hc := c.isLt
  by_cases h0 : c.val = 0
  · rw [if_pos h0, if_neg (by omega : ¬ c.val = 1), if_neg (by omega : ¬ c.val = 3)]
    exact v72_at i
  · rw [if_neg h0]
    by_cases h1 : c.val = 1
    · rw [if_pos h1, if_pos h1]
      exact v70_at x0 x1 x2 x3 x4 x5' x6 x7 x8 x9 x10 x11 x12 x13 i
    · rw [if_neg h1, if_neg h1]
      by_cases h2 : c.val = 2
      · rw [if_pos h2, if_neg (by omega : ¬ c.val = 3)]
        exact v72_at i
      · rw [if_neg h2, if_pos (by omega : c.val = 3)]
        exact v71_at x0 x1 x2 x3 x4 x5' x6 x7 x8 x9 x10 x11 x12 x13 i

/-! ## The state and the two inner products -/

/-- The state: the join of the goal offset with the velocity. -/
theorem v78_at (x0 : Arr2 1024 4) (x1 : Arr2 1024 2) (i : Fin 1024) (c : Fin 4) :
    val_main_v78 (F := Ideal) x0 x1 (ix2 i c) = state x0 x1 i c := by
  unfold val_main_v78 state
  refine (join22 _ _ _ i c).trans ?_
  have hc := c.isLt
  by_cases h : c.val < 2
  · rw [dif_pos h, dif_pos h]
    exact v32_at x0 x1 i ⟨c.val, h⟩
  · rw [dif_neg h, dif_neg h, val_main_v77_apply]
    exact congrArg x0 (ext2 rfl (Fin.ext (by show 2 + (c.val - 2) = c.val; omega)))

/-- The x-action: the sum from zero of state times x-gain over the four columns. -/
theorem v80_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) :
    val_main_v80 (F := Ideal) x0 x1 x2 x3 x4 x5' x6 x7 x8 x9 x10 x11 x12 x13 (ix1 i) = ax x0 x1 (kk x0 x1 x2 x3 x4 x5' x6 x7 x8 x9 x10 x11 x12 x13 i) i := by
  rw [val_main_v80_apply, val_main_cst_6_apply]
  show Ideal.ofBits .f32 0x00000000#32 + ∑ k : Fin 4, val_main_v79 (F := Ideal) x0 x1 x2 x3 x4 x5' x6 x7 x8 x9 x10 x11 x12 x13 (idx_main_v80 (ix1 i) k) = _
  rw [Ideal.ofBits_zero_f32, zero_add]
  unfold ax
  refine Finset.sum_congr rfl fun k _ => ?_
  rw [show idx_main_v80 (ix1 i) k = ix2 i k from ext2 rfl rfl, val_main_v79_apply, v78_at, v74_at]
  rfl

/-- The y-action. -/
theorem v83_at (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) (i : Fin 1024) :
    val_main_v83 (F := Ideal) x0 x1 x2 x3 x4 x5' x6 x7 x8 x9 x10 x11 x12 x13 (ix1 i) = ay x0 x1 (kk x0 x1 x2 x3 x4 x5' x6 x7 x8 x9 x10 x11 x12 x13 i) i := by
  rw [val_main_v83_apply, val_main_cst_7_apply]
  show Ideal.ofBits .f32 0x00000000#32 + ∑ k : Fin 4, val_main_v82 (F := Ideal) x0 x1 x2 x3 x4 x5' x6 x7 x8 x9 x10 x11 x12 x13 (idx_main_v83 (ix1 i) k) = _
  rw [Ideal.ofBits_zero_f32, zero_add]
  unfold ay
  refine Finset.sum_congr rfl fun k _ => ?_
  rw [show idx_main_v83 (ix1 i) k = ix2 i k from ext2 rfl rfl, val_main_v82_apply, v78_at, v76_at]
  rfl

/-! ## The result -/

/-- The reference's result array is the specification: column 0 the x-action, column 1 the y-action. -/
theorem ref_eq (x0 : Arr2 1024 4) (x1 : Arr2 1024 2) (x2 : Arr2 64 5) (x3 : Arr1 64) (x4 : Arr2 128 64) (x5' : Arr1 128)
    (x6 : Arr2 64 132) (x7 : Arr1 64) (x8 : Arr2 128 64) (x9 : Arr1 128) (x10 : Arr2 64 128) (x11 : Arr1 64)
    (x12 : Arr2 4 64) (x13 : Arr1 4) :
    val_main_v85 (F := Ideal) x0 x1 x2 x3 x4 x5' x6 x7 x8 x9 x10 x11 x12 x13 = G x0 x1 x2 x3 x4 x5' x6 x7 x8 x9 x10 x11 x12 x13 := by
  funext idx
  obtain ⟨i, c, rfl⟩ : ∃ (i : Fin 1024) (c : Fin 2), idx = ix2 i c := ⟨idx 0, idx 1, eq_ix2 idx⟩
  unfold val_main_v85 G
  refine (join11 _ _ _ i c).trans ?_
  show (if c.val = 0 then _ else _) = (if c.val = 0 then _ else _)
  by_cases h : c.val = 0
  · rw [if_pos h, if_pos h, val_main_v81_apply, show idx_main_v81 (ix2 i (0 : Fin 1)) = ix1 i from ext1 rfl]
    exact v80_at x0 x1 x2 x3 x4 x5' x6 x7 x8 x9 x10 x11 x12 x13 i
  · rw [if_neg h, if_neg h, val_main_v84_apply, show idx_main_v84 (ix2 i (0 : Fin 1)) = ix1 i from ext1 rfl]
    exact v83_at x0 x1 x2 x3 x4 x5' x6 x7 x8 x9 x10 x11 x12 x13 i

end Cert.RefIsSpec

end
-- ==== Proof.RefClaims.lean ====
/-
  The reference's claims. Every weakly fair execution of the reference terminates and leaves its fourteen argument
  arrays unchanged: that is its run with what it says of the result buffer dropped. And the run's result buffer, the
  line's last stage of the argument arrays, is the specification G of them (the stages read index by index); from a
  memory that agrees with another on the arguments it is G of the other's arguments.
-/
import proofs.«105093_j86131274154571_1_alg».proof.Defs
import proofs.«105093_j86131274154571_1_alg».proof.Proof.Gen.ReferenceIdeal
import proofs.«105093_j86131274154571_1_alg».proof.Proof.Gen.Pre_finite_inputs
import proofs.«105093_j86131274154571_1_alg».proof.Proof.RefRunP
import proofs.«105093_j86131274154571_1_alg».proof.Proof.RefOut

noncomputable section

namespace Cert.RefClaims

open Idealize.ShloMosaic Idealize.ShloMosaic.TcCoe Idealize.SL.Sem

/-- The reference runs and leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

/-- The reference's run with the result named: given that what the line of host operations leaves in the result
    buffer is the last stage of the argument arrays (the equation the reading of the line provides), the run ends with
    the specification G of its own argument arrays in the result buffer and the arguments unchanged. -/
theorem ref_run
    (m' : (ℓ : Loc Cert.ReferenceIdeal.nD Cert.ReferenceIdeal.τ Cert.ReferenceIdeal.sig) → Buf (Elt Ideal) ℓ)
    (ρ' : Dev Cert.ReferenceIdeal.nD → PrngReg)
    (hafter : ∀ c : Dev Cert.ReferenceIdeal.nD,
      StableHlo.after (Cert.ReferenceIdeal.Value.ops (F := Ideal)) (StableHlo.launchContents m' c)
          (Proc.devRef .tc Cert.ReferenceIdeal.main_v85)
        = Cert.ReferenceIdeal.Read.val_main_v85 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v85)
        = Cert.Spec.G (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono
    (fun _ h c => ⟨(h c).1.trans ((hafter c).trans (Cert.RefIsSpec.ref_eq _ _ _ _ _ _ _ _ _ _ _ _ _ _)), (h c).2⟩)
    (Cert.ReferenceIdeal.Value.run (F := Ideal) m' ρ')

/-- The same run from a memory that agrees on the arguments with a memory m of the kernel: the result buffer ends at
    G of m's argument arrays — the post the value claim pairs with the kernel's. -/
theorem ref_run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (hafter : ∀ c : Dev Cert.ReferenceIdeal.nD,
      StableHlo.after (Cert.ReferenceIdeal.Value.ops (F := Ideal)) (StableHlo.launchContents m' c)
          (Proc.devRef .tc Cert.ReferenceIdeal.main_v85)
        = Cert.ReferenceIdeal.Read.val_main_v85 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v85)
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)) :=
  (θ_run Cert.ReferenceIdeal.defs _ _).mono
    (fun _ h c => ⟨(h c).1.trans (by
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]), (h c).2⟩)
    (ref_run m' ρ' hafter)

end Cert.RefClaims

end
-- ==== Proof.LibHostRead.lean ====
/-
  Reading the contents of a buffer after a long straight line of host operations.

  `StableHlo.after ops V` is what the buffers hold once the operations `ops` have run in order from
  contents `V`. When the line is in single-assignment form — operation number `k` writes exactly the
  reference `W[k]`, and nothing an operation reads or writes is written again later — the FINAL contents
  satisfy each operation's own equation: the result buffer of operation `k` holds the operation's function
  of the final contents of its operands. These are the lemmas `after_nullary_fix`, `after_unary_fix`,
  `after_binary_fix`, `after_ternary_fix`, `after_reshape_fix` below, one per builder.

  Their side conditions are made to be cheap on a literal list of a couple of hundred operations:
  * `Aligned ops W`, proved ONCE per line: the operations and the list of the references they write, paired
    in order (on literal lists it unfolds to a conjunction of equations each closed by `rfl`);
  * `ops[k]? = some (unary x y f hx hy)` for the literal position `k`, closed by `rfl`;
  * that the operands and the result are not among the references written after position `k`,
    `x ∉ W.drop (k + 1)`, and that an operand is not the result, `x ≠ y`: decided over references.
  Nothing is unfolded along the line: the cost of one reading does not grow with the operations before it.
-/
import Idealize.ShloMosaic.Lib.StableHlo
import Idealize.ShloMosaic.Lib.StableHlo.Run

noncomputable section

namespace LibHostRead

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations `ops` write exactly the references `W`, one each, paired in order. -/
def Aligned : List (HloOp τ sig Val) → List (Ref sig .tc) → Prop
  | [], [] => True
  | op :: ops, y :: W => op.writes = {Proc.devRef (τ := τ) .tc y} ∧ Aligned ops W
  | [], _ :: _ => False
  | _ :: _, [] => False

theorem Aligned.drop : ∀ {ops : List (HloOp τ sig Val)} {W : List (Ref sig .tc)}, Aligned ops W →
    ∀ n : Nat, Aligned (ops.drop n) (W.drop n)
  | _, _, h, 0 => h
  | [], [], _, _ + 1 => trivial
  | _ :: _, _ :: _, h, n + 1 => Aligned.drop h.2 n
  | [], _ :: _, h, _ + 1 => h.elim
  | _ :: _, [], h, _ + 1 => h.elim

/-- Every operation of an aligned line writes one reference, and that reference is in the list. -/
theorem Aligned.writes_of_mem : ∀ {ops : List (HloOp τ sig Val)} {W : List (Ref sig .tc)}, Aligned ops W →
    ∀ op ∈ ops, ∃ y ∈ W, op.writes = {Proc.devRef (τ := τ) .tc y}
  | [], [], _, _, hop => (List.not_mem_nil hop).elim
  | o :: _, y :: _, h, op, hop => by
    rcases List.mem_cons.mp hop with rfl | hop
    · exact ⟨y, List.mem_cons_self, h.1⟩
    · obtain ⟨z, hz, e⟩ := Aligned.writes_of_mem h.2 op hop
      exact ⟨z, List.mem_cons_of_mem _ hz, e⟩
  | [], _ :: _, h, _, _ => h.elim
  | _ :: _, [], h, _, _ => h.elim

/-- A reference not among those written after position `k` is written by no operation after position `k`. -/
theorem Aligned.not_written_after {ops : List (HloOp τ sig Val)} {W : List (Ref sig .tc)} (hA : Aligned ops W) (k : Nat)
    {r : Ref sig .tc} (hr : r ∉ W.drop (k + 1)) : ∀ op ∈ ops.drop (k + 1), Proc.devRef (τ := τ) .tc r ∉ op.writes := by
  intro op hop hmem
  obtain ⟨y, hy, e⟩ := (hA.drop (k + 1)).writes_of_mem op hop
  rw [e, Finset.mem_singleton] at hmem
  exact hr (Proc.devRef_injective _ hmem ▸ hy)

/-- The contents of a buffer after the line, when nothing after position `k` writes it: what operation `k` leaves
    there, run from the contents the operations before it leave. -/
theorem after_eq_result_of_not_written {ops : List (HloOp τ sig Val)} {k : Nat} {op : HloOp τ sig Val}
    (hk : ops[k]? = some op) (V : Valuation τ sig Val) {b : DevRef τ sig}
    (hpost : ∀ o ∈ ops.drop (k + 1), b ∉ o.writes) :
    after ops V b = op.result (after (ops.take k) V) b := by
  obtain ⟨hlt, rfl⟩ := List.getElem?_eq_some_iff.mp hk
  have hsplit : ops = ops.take k ++ ops[k] :: ops.drop (k + 1) := by
    rw [← List.drop_eq_getElem_cons hlt, List.take_append_drop]
  conv_lhs => rw [hsplit]
  rw [after_append, after_cons, after_of_forall_not_mem _ _ hpost]

section Fix

variable {ops : List (HloOp τ sig Val)} {W : List (Ref sig .tc)} (hA : Aligned ops W) (k : Nat)
include hA

/-- A constant's buffer holds the constant at the end. -/
theorem after_nullary_fix {y : Ref sig .tc} {v : y.ty.Contents Val} {hy}
    (hk : ops[k]? = some (nullary y v hy)) (hy' : y ∉ W.drop (k + 1)) (V : Valuation τ sig Val) :
    after ops V (Proc.devRef .tc y) = v := by
  rw [after_eq_result_of_not_written hk V (hA.not_written_after k hy'), nullary_result]

/-- A one-operand operation's result buffer holds, at the end, its function of the operand's final contents. -/
theorem after_unary_fix {x y : Ref sig .tc} {f : x.ty.Contents Val → y.ty.Contents Val} {hx hy}
    (hk : ops[k]? = some (unary x y f hx hy)) (hxy : x ≠ y) (hx' : x ∉ W.drop (k + 1)) (hy' : y ∉ W.drop (k + 1))
    (V : Valuation τ sig Val) :
    after ops V (Proc.devRef .tc y) = f (after ops V (Proc.devRef .tc x)) := by
  rw [after_eq_result_of_not_written hk V (hA.not_written_after k hy'), unary_result,
    after_eq_result_of_not_written hk V (hA.not_written_after k hx'), unary_result_ne _ _ _ _ _ _ hxy]

/-- A two-operand operation's. -/
theorem after_binary_fix {a b y : Ref sig .tc} {f : a.ty.Contents Val → b.ty.Contents Val → y.ty.Contents Val} {ha hb hy}
    (hk : ops[k]? = some (binary a b y f ha hb hy)) (hay : a ≠ y) (hby : b ≠ y)
    (ha' : a ∉ W.drop (k + 1)) (hb' : b ∉ W.drop (k + 1)) (hy' : y ∉ W.drop (k + 1)) (V : Valuation τ sig Val) :
    after ops V (Proc.devRef .tc y) = f (after ops V (Proc.devRef .tc a)) (after ops V (Proc.devRef .tc b)) := by
  rw [after_eq_result_of_not_written hk V (hA.not_written_after k hy'), binary_result,
    after_eq_result_of_not_written hk V (hA.not_written_after k ha'), binary_result_ne _ _ _ _ _ _ _ _ hay,
    after_eq_result_of_not_written hk V (hA.not_written_after k hb'), binary_result_ne _ _ _ _ _ _ _ _ hby]

/-- A three-operand operation's. -/
theorem after_ternary_fix {c a b y : Ref sig .tc}
    {f : c.ty.Contents Val → a.ty.Contents Val → b.ty.Contents Val → y.ty.Contents Val} {hc ha hb hy}
    (hk : ops[k]? = some (ternary c a b y f hc ha hb hy)) (hcy : c ≠ y) (hay : a ≠ y) (hby : b ≠ y)
    (hc' : c ∉ W.drop (k + 1)) (ha' : a ∉ W.drop (k + 1)) (hb' : b ∉ W.drop (k + 1)) (hy' : y ∉ W.drop (k + 1))
    (V : Valuation τ sig Val) :
    after ops V (Proc.devRef .tc y)
      = f (after ops V (Proc.devRef .tc c)) (after ops V (Proc.devRef .tc a)) (after ops V (Proc.devRef .tc b)) := by
  rw [after_eq_result_of_not_written hk V (hA.not_written_after k hy'), ternary_result,
    after_eq_result_of_not_written hk V (hA.not_written_after k hc'), ternary_result_ne _ _ _ _ _ _ _ _ _ _ hcy,
    after_eq_result_of_not_written hk V (hA.not_written_after k ha'), ternary_result_ne _ _ _ _ _ _ _ _ _ _ hay,
    after_eq_result_of_not_written hk V (hA.not_written_after k hb'), ternary_result_ne _ _ _ _ _ _ _ _ _ _ hby]

/-- A reshape's result buffer holds, at the end, the operand's final contents in row-major order at the result's shape. -/
theorem after_reshape_fix {x y : Ref sig .tc} {he : x.ty.elt = y.ty.elt} {hn : x.ty.shape.ShapeCasts y.ty.shape} {hx hy}
    (hk : ops[k]? = some (reshape x y he hn hx hy)) (hxy : x ≠ y) (hx' : x ∉ W.drop (k + 1)) (hy' : y ∉ W.drop (k + 1))
    (V : Valuation τ sig Val) :
    after ops V (Proc.devRef .tc y) = fun i => he ▸ shapeCast y.ty.shape (after ops V (Proc.devRef .tc x)) hn i := by
  rw [after_eq_result_of_not_written hk V (hA.not_written_after k hy'), reshape_result,
    after_eq_result_of_not_written hk V (hA.not_written_after k hx'), reshape_result_ne _ _ _ _ _ _ _ hxy]

end Fix

/-- A reference the line never writes keeps its contents (for the line's arguments). -/
theorem after_of_not_written {ops : List (HloOp τ sig Val)} {W : List (Ref sig .tc)} (hA : Aligned ops W)
    {r : Ref sig .tc} (hr : r ∉ W) (V : Valuation τ sig Val) :
    after ops V (Proc.devRef .tc r) = V (Proc.devRef .tc r) :=
  after_of_forall_not_mem ops V fun op hop hmem => by
    obtain ⟨y, hy, e⟩ := hA.writes_of_mem op hop
    rw [e, Finset.mem_singleton] at hmem
    exact hr (Proc.devRef_injective _ hmem ▸ hy)

end LibHostRead

end
-- ==== Proof.RefAfter.lean ====
/-
  The reference's straight line of host operations is in single-assignment form: every buffer is written by exactly
  one operation, after the operations that write its operands. So at the end of the line every buffer holds its
  operation's function of what its operands hold at the end, and, going down the line in program order, each buffer holds
  its stage function of the argument arrays. The last one is the result buffer.
-/
import proofs.«105093_j86131274154571_1_alg».proof.Proof.RefRunP
import proofs.«105093_j86131274154571_1_alg».proof.Proof.RefReadP
import proofs.«105093_j86131274154571_1_alg».proof.Proof.LibHostRead

noncomputable section

namespace Cert.RefAfter

open Cert.ReferenceIdeal Cert.ReferenceIdeal.Gen Cert.ReferenceIdeal.Value Cert.ReferenceIdeal.Read Idealize.ShloMosaic
  Idealize.ShloMosaic.TcCoe Idealize.SL.Sem Idealize.ShloMosaic.StableHlo LibHostRead

/-- An operation of several operands: its result buffer holds, at the end, its function of the operands' final contents. -/
theorem after_nary_fix {τ : Topo} {sig : RefSig} {Val : EltTy → Type} {ops : List (HloOp τ sig Val)} {W : List (Ref sig .tc)}
    (hA : Aligned ops W) (k : Nat) {n : Nat} {xs : Fin n → Ref sig .tc} {y : Ref sig .tc}
    {f : ((j : Fin n) → (xs j).ty.Contents Val) → y.ty.Contents Val} {hxs hy}
    (hk : ops[k]? = some (nary xs y f hxs hy)) (hxy : ∀ j, xs j ≠ y) (hx' : ∀ j, xs j ∉ W.drop (k + 1))
    (hy' : y ∉ W.drop (k + 1)) (V : Valuation τ sig Val) :
    after ops V (Proc.devRef .tc y) = f (fun j => after ops V (Proc.devRef .tc (xs j))) := by
  rw [after_eq_result_of_not_written hk V (hA.not_written_after k hy'), nary_result]
  refine congrArg f (funext fun j => ?_)
  rw [after_eq_result_of_not_written hk V (hA.not_written_after k (hx' j)), nary_result_ne _ _ _ _ _ _ (hxy j)]

variable {F : FTy → Type} [FloatOps F]

/-- The references the line writes, in program order. -/
abbrev written : List (Ref sig .tc) :=
  [main_v0, main_v1, main_v2, main_v3, main_v4, main_v5, main_v6, main_c, main_v7, main_v8, main_v9, main_v10, main_v11, main_v12, main_v13, main_call0_v0, main_call0_cst, main_call0_v1, main_call0_v2, main_v14, main_cst, main_v15, main_v16, main_v17, main_v18, main_v19, main_v20, main_v21, main_call1_cst, main_call1_v0, main_v22, main_v23, main_v24, main_v25, main_v26, main_call2_cst, main_call2_v0, main_v27, main_v28, main_v29, main_cst_0, main_v30, main_v31, main_v32, main_v33, main_v34, main_v35, main_v36, main_v37, main_v38, main_v39, main_call3_cst, main_call3_v0, main_v40, main_v41, main_v42, main_v43, main_v44, main_v45, main_call4_cst, main_call4_v0, main_v46, main_v47, main_v48, main_v49, main_v50, main_v51, main_call5_cst, main_call5_v0, main_v52, main_v53, main_v54, main_v55, main_v56, main_v57, main_v58, main_v59, main_cst_1, main_v60, main_v61, main_cst_2, main_v62, main_v63, main_cst_3, main_v64, main_v65, main_cst_4, main_v66, main_v67, main_v68, main_v69, main_v70, main_v71, main_cst_5, main_v72, main_v73, main_v74, main_v75, main_v76, main_v77, main_v78, main_v79, main_cst_6, main_v80, main_v81, main_v82, main_cst_7, main_v83, main_v84, main_v85]

/-- Operation number k writes exactly the k-th of them. -/
theorem aligned : Aligned (ops (F := F)) written :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, trivial⟩

section Line
variable (m : (ℓ : Loc nD τ sig) → Buf (Elt F) ℓ) (c : Dev nD)

theorem fin_main_arg0 : after (ops (F := F)) (launchContents m c) (Proc.devRef .tc main_arg0) = m ((c.tc : Thread nD τ).loc main_arg0) :=
  (after_of_not_written (aligned (F := F)) (by decide) _).trans rfl
theorem fin_main_arg1 : after (ops (F := F)) (launchContents m c) (Proc.devRef .tc main_arg1) = m ((c.tc : Thread nD τ).loc main_arg1) :=
  (after_of_not_written (aligned (F := F)) (by decide) _).trans rfl
theorem fin_main_arg2 : after (ops (F := F)) (launchContents m c) (Proc.devRef .tc main_arg2) = m ((c.tc : Thread nD τ).loc main_arg2) :=
  (after_of_not_written (aligned (F := F)) (by decide) _).trans rfl
theorem fin_main_arg3 : after (ops (F := F)) (launchContents m c) (Proc.devRef .tc main_arg3) = m ((c.tc : Thread nD τ).loc main_arg3) :=
  (after_of_not_written (aligned (F := F)) (by decide) _).trans rfl
theorem fin_main_arg4 : after (ops (F := F)) (launchContents m c) (Proc.devRef .tc main_arg4) = m ((c.tc : Thread nD τ).loc main_arg4) :=
  (after_of_not_written (aligned (F := F)) (by decide) _).trans rfl
theorem fin_main_arg5 : after (ops (F := F)) (launchContents m c) (Proc.devRef .tc main_arg5) = m ((c.tc : Thread nD τ).loc main_arg5) :=
  (after_of_not_written (aligned (F := F)) (by decide) _).trans rfl
theorem fin_main_arg6 : after (ops (F := F)) (launchContents m c) (Proc.devRef .tc main_arg6) = m ((c.tc : Thread nD τ).loc main_arg6) :=
  (after_of_not_written (aligned (F := F)) (by decide) _).trans rfl
theorem fin_main_arg7 : after (ops (F := F)) (launchContents m c) (Proc.devRef .tc main_arg7) = m ((c.tc : Thread nD τ).loc main_arg7) :=
  (after_of_not_written (aligned (F := F)) (by decide) _).trans rfl
theorem fin_main_arg8 : after (ops (F := F)) (launchContents m c) (Proc.devRef .tc main_arg8) = m ((c.tc : Thread nD τ).loc main_arg8) :=
  (after_of_not_written (aligned (F := F)) (by decide) _).trans rfl
theorem fin_main_arg9 : after (ops (F := F)) (launchContents m c) (Proc.devRef .tc main_arg9) = m ((c.tc : Thread nD τ).loc main_arg9) :=
  (after_of_not_written (aligned (F := F)) (by decide) _).trans rfl
theorem fin_main_arg10 : after (ops (F := F)) (launchContents m c) (Proc.devRef .tc main_arg10) = m ((c.tc : Thread nD τ).loc main_arg10) :=
  (after_of_not_written (aligned (F := F)) (by decide) _).trans rfl
theorem fin_main_arg11 : after (ops (F := F)) (launchContents m c) (Proc.devRef .tc main_arg11) = m ((c.tc : Thread nD τ).loc main_arg11) :=
  (after_of_not_written (aligned (F := F)) (by decide) _).trans rfl
theorem fin_main_arg12 : after (ops (F := F)) (launchContents m c) (Proc.devRef .tc main_arg12) = m ((c.tc : Thread nD τ).loc main_arg12) :=
  (after_of_not_written (aligned (F := F)) (by decide) _).trans rfl
theorem fin_main_arg13 : after (ops (F := F)) (launchContents m c) (Proc.devRef .tc main_arg13) = m ((c.tc : Thread nD τ).loc main_arg13) :=
  (after_of_not_written (aligned (F := F)) (by decide) _).trans rfl
theorem fin_main_v0 : after (ops (F := F)) (launchContents m c) (Proc.devRef .tc main_v0) = val_main_v0 (F := F) (m ((c.tc : Thread nD τ).loc main_arg0)) := by
  rw [after_unary_fix (x := main_arg0) (y := main_v0) (aligned (F := F)) 0 rfl (by decide) (by decide) (by decide), fin_main_arg0 m c]
  rfl
theorem fin_main_v1 : after (ops (F := F)) (launchContents m c) (Proc.devRef .tc main_v1) = val_main_v1 (F := F) (m ((c.tc : Thread nD τ).loc main_arg0)) := by
  rw [after_unary_fix (x := main_arg0) (y := main_v1) (aligned (F := F)) 1 rfl (by decide) (by decide) (by decide), fin_main_arg0 m c]
  rfl
theorem fin_main_v2 : after (ops (F := F)) (launchContents m c) (Proc.devRef .tc main_v2) = val_main_v2 (F := F) (m ((c.tc : Thread nD τ).loc main_arg0)) := by
  rw [after_unary_fix (x := main_v0) (y := main_v2) (aligned (F := F)) 2 rfl (by decide) (by decide) (by decide), fin_main_v0 m c]
  rfl
theorem fin_main_v3 : after (ops (F := F)) (launchContents m c) (Proc.devRef .tc main_v3) = val_main_v3 (F := F) (m ((c.tc : Thread nD τ).loc main_arg0)) := by
  rw [after_unary_fix (x := main_v1) (y := main_v3) (aligned (F := F)) 3 rfl (by decide) (by decide) (by decide), fin_main_v1 m c]
  rfl
theorem fin_main_v4 : after (ops (F := F)) (launchContents m c) (Proc.devRef .tc main_v4) = val_main_v4 (F := F) (m ((c.tc : Thread nD τ).loc main_arg0)) := by
  rw [after_binary_fix (a := main_v2) (b := main_v3) (y := main_v4) (aligned (F := F)) 4 rfl (by decide) (by decide) (by decide) (by decide) (by decide), fin_main_v2 m c, fin_main_v3 m c]
  rfl
theorem fin_main_v5 : after (ops (F := F)) (launchContents m c) (Proc.devRef .tc main_v5) = val_main_v5 (F := F) :=
  (after_nullary_fix (y := main_v5) (aligned (F := F)) 5 rfl (by decide) _).trans rfl
theorem fin_main_v6 : after (ops (F := F)) (launchContents m c) (Proc.devRef .tc main_v6) = val_main_v6 (F := F) :=
  (after_nullary_fix (y := main_v6) (aligned (F := F)) 6 rfl (by decide) _).trans rfl
theorem fin_main_c : after (ops (F := F)) (launchContents m c) (Proc.devRef .tc main_c) = val_main_c (F := F) :=
  (after_nullary_fix (y := main_c) (aligned (F := F)) 7 rfl (by decide) _).trans rfl
theorem fin_main_v7 : after (ops (F := F)) (launchContents m c) (Proc.devRef .tc main_v7) = val_main_v7 (F := F) := by
  rw [after_unary_fix (x := main_c) (y := main_v7) (aligned (F := F)) 8 rfl (by decide) (by decide) (by decide), fin_main_c m c]
  rfl
theorem fin_main_v8 : after (ops (F := F)) (launchContents m c) (Proc.devRef .tc main_v8) = val_main_v8 (F := F) := by
  rw [after_binary_fix (a := main_v5) (b := main_v7) (y := main_v8) (aligned (F := F)) 9 rfl (by decide) (by decide) (by decide) (by decide) (by decide), fin_main_v5 m c, fin_main_v7 m c]
  rfl
theorem fin_main_v9 : after (ops (F := F)) (launchContents m c) (Proc.devRef .tc main_v9) = val_main_v9 (F := F) := by
  rw [after_binary_fix (a := main_v8) (b := main_v6) (y := main_v9) (aligned (F := F)) 10 rfl (by decide) (by decide) (by decide) (by decide) (by decide), fin_main_v8 m c, fin_main_v6 m c]
  rfl
theorem fin_main_v10 : after (ops (F := F)) (launchContents m c) (Proc.devRef .tc main_v10) = val_main_v10 (F := F) := by
  rw [after_unary_fix (x := main_v9) (y := main_v10) (aligned (F := F)) 11 rfl (by decide) (by decide) (by decide), fin_main_v9 m c]
  rfl
theorem fin_main_v11 : after (ops (F := F)) (launchContents m c) (Proc.devRef .tc main_v11) = val_main_v11 (F := F) := by
  rw [after_unary_fix (x := main_v10) (y := main_v11) (aligned (F := F)) 12 rfl (by decide) (by decide) (by decide), fin_main_v10 m c]
  rfl
theorem fin_main_v12 : after (ops (F := F)) (launchContents m c) (Proc.devRef .tc main_v12) = val_main_v12 (F := F) (m ((c.tc : Thread nD τ).loc main_arg0)) := by
  rw [after_binary_fix (a := main_v4) (b := main_v11) (y := main_v12) (aligned (F := F)) 13 rfl (by decide) (by decide) (by decide) (by decide) (by decide), fin_main_v4 m c, fin_main_v11 m c]
  rfl
theorem fin_main_v13 : after (ops (F := F)) (launchContents m c) (Proc.devRef .tc main_v13) = val_main_v13 (F := F) (m ((c.tc : Thread nD τ).loc main_arg0)) := by
  rw [after_unary_fix (x := main_v12) (y := main_v13) (aligned (F := F)) 14 rfl (by decide) (by decide) (by decide), fin_main_v12 m c]
  rfl
theorem fin_main_call0_v0 : after (ops (F := F)) (launchContents m c) (Proc.devRef .tc main_call0_v0) = val_main_call0_v0 (F := F) (m ((c.tc : Thread nD τ).loc main_arg0)) := by
  rw [after_binary_fix (a := main_v13) (b := main_v13) (y := main_call0_v0) (aligned (F := F)) 15 rfl (by decide) (by decide) (by decide) (by decide) (by decide), fin_main_v13 m c]
  rfl
theorem fin_main_call0_cst : after (ops (F := F)) (launchContents m c) (Proc.devRef .tc main_call0_cst) = val_main_call0_cst (F := F) :=
  (after_nullary_fix (y := main_call0_cst) (aligned (F := F)) 16 rfl (by decide) _).trans rfl
theorem fin_main_call0_v1 : after (ops (F := F)) (launchContents m c) (Proc.devRef .tc main_call0_v1) = val_main_call0_v1 (F := F) (m ((c.tc : Thread nD τ).loc main_arg0)) := by
  rw [after_binary_fix (a := main_call0_v0) (b := main_call0_cst) (y := main_call0_v1) (aligned (F := F)) 17 rfl (by decide) (by decide) (by decide) (by decide) (by decide), fin_main_call0_v0 m c, fin_main_call0_cst m c]
  rfl
theorem fin_main_call0_v2 : after (ops (F := F)) (launchContents m c) (Proc.devRef .tc main_call0_v2) = val_main_call0_v2 (F := F) (m ((c.tc : Thread nD τ).loc main_arg0)) := by
  rw [after_unary_fix (x := main_call0_v1) (y := main_call0_v2) (aligned (F := F)) 18 rfl (by decide) (by decide) (by decide), fin_main_call0_v1 m c]
  rfl
theorem fin_main_v14 : after (ops (F := F)) (launchContents m c) (Proc.devRef .tc main_v14) = val_main_v14 (F := F) (m ((c.tc : Thread nD τ).loc main_arg0)) := by
  rw [after_unary_fix (x := main_call0_v2) (y := main_v14) (aligned (F := F)) 19 rfl (by decide) (by decide) (by decide), fin_main_call0_v2 m c]
  rfl
theorem fin_main_cst : after (ops (F := F)) (launchContents m c) (Proc.devRef .tc main_cst) = val_main_cst (F := F) :=
  (after_nullary_fix (y := main_cst) (aligned (F := F)) 20 rfl (by decide) _).trans rfl
theorem fin_main_v15 : after (ops (F := F)) (launchContents m c) (Proc.devRef .tc main_v15) = val_main_v15 (F := F) := by
  rw [after_unary_fix (x := main_cst) (y := main_v15) (aligned (F := F)) 21 rfl (by decide) (by decide) (by decide), fin_main_cst m c]
  rfl
theorem fin_main_v16 : after (ops (F := F)) (launchContents m c) (Proc.devRef .tc main_v16) = val_main_v16 (F := F) (m ((c.tc : Thread nD τ).loc main_arg0)) := by
  rw [after_binary_fix (a := main_v14) (b := main_v15) (y := main_v16) (aligned (F := F)) 22 rfl (by decide) (by decide) (by decide) (by decide) (by decide), fin_main_v14 m c, fin_main_v15 m c]
  rfl
theorem fin_main_v17 : after (ops (F := F)) (launchContents m c) (Proc.devRef .tc main_v17) = val_main_v17 (F := F) (m ((c.tc : Thread nD τ).loc main_arg0)) := by
  rw [after_unary_fix (x := main_v16) (y := main_v17) (aligned (F := F)) 23 rfl (by decide) (by decide) (by decide), fin_main_v16 m c]
  rfl
theorem fin_main_v18 : after (ops (F := F)) (launchContents m c) (Proc.devRef .tc main_v18) = val_main_v18 (F := F) (m ((c.tc : Thread nD τ).loc main_arg0)) (m ((c.tc : Thread nD τ).loc main_arg2)) := by
  rw [after_binary_fix (a := main_v12) (b := main_arg2) (y := main_v18) (aligned (F := F)) 24 rfl (by decide) (by decide) (by decide) (by decide) (by decide), fin_main_v12 m c, fin_main_arg2 m c]
  rfl
theorem fin_main_v19 : after (ops (F := F)) (launchContents m c) (Proc.devRef .tc main_v19) = val_main_v19 (F := F) (m ((c.tc : Thread nD τ).loc main_arg3)) := by
  rw [after_unary_fix (x := main_arg3) (y := main_v19) (aligned (F := F)) 25 rfl (by decide) (by decide) (by decide), fin_main_arg3 m c]
  rfl
theorem fin_main_v20 : after (ops (F := F)) (launchContents m c) (Proc.devRef .tc main_v20) = val_main_v20 (F := F) (m ((c.tc : Thread nD τ).loc main_arg3)) := by
  rw [after_unary_fix (x := main_v19) (y := main_v20) (aligned (F := F)) 26 rfl (by decide) (by decide) (by decide), fin_main_v19 m c]
  rfl
theorem fin_main_v21 : after (ops (F := F)) (launchContents m c) (Proc.devRef .tc main_v21) = val_main_v21 (F := F) (m ((c.tc : Thread nD τ).loc main_arg0)) (m ((c.tc : Thread nD τ).loc main_arg2)) (m ((c.tc : Thread nD τ).loc main_arg3)) := by
  rw [after_binary_fix (a := main_v18) (b := main_v20) (y := main_v21) (aligned (F := F)) 27 rfl (by decide) (by decide) (by decide) (by decide) (by decide), fin_main_v18 m c, fin_main_v20 m c]
  rfl
theorem fin_main_call1_cst : after (ops (F := F)) (launchContents m c) (Proc.devRef .tc main_call1_cst) = val_main_call1_cst (F := F) :=
  (after_nullary_fix (y := main_call1_cst) (aligned (F := F)) 28 rfl (by decide) _).trans rfl
theorem fin_main_call1_v0 : after (ops (F := F)) (launchContents m c) (Proc.devRef .tc main_call1_v0) = val_main_call1_v0 (F := F) := by
  rw [after_unary_fix (x := main_call1_cst) (y := main_call1_v0) (aligned (F := F)) 29 rfl (by decide) (by decide) (by decide), fin_main_call1_cst m c]
  rfl
theorem fin_main_v22 : after (ops (F := F)) (launchContents m c) (Proc.devRef .tc main_v22) = val_main_v22 (F := F) (m ((c.tc : Thread nD τ).loc main_arg0)) (m ((c.tc : Thread nD τ).loc main_arg2)) (m ((c.tc : Thread nD τ).loc main_arg3)) := by
  rw [after_binary_fix (a := main_v21) (b := main_call1_v0) (y := main_v22) (aligned (F := F)) 30 rfl (by decide) (by decide) (by decide) (by decide) (by decide), fin_main_v21 m c, fin_main_call1_v0 m c]
  rfl
theorem fin_main_v23 : after (ops (F := F)) (launchContents m c) (Proc.devRef .tc main_v23) = val_main_v23 (F := F) (m ((c.tc : Thread nD τ).loc main_arg0)) (m ((c.tc : Thread nD τ).loc main_arg2)) (m ((c.tc : Thread nD τ).loc main_arg3)) (m ((c.tc : Thread nD τ).loc main_arg4)) := by
  rw [after_binary_fix (a := main_v22) (b := main_arg4) (y := main_v23) (aligned (F := F)) 31 rfl (by decide) (by decide) (by decide) (by decide) (by decide), fin_main_v22 m c, fin_main_arg4 m c]
  rfl
theorem fin_main_v24 : after (ops (F := F)) (launchContents m c) (Proc.devRef .tc main_v24) = val_main_v24 (F := F) (m ((c.tc : Thread nD τ).loc main_arg5)) := by
  rw [after_unary_fix (x := main_arg5) (y := main_v24) (aligned (F := F)) 32 rfl (by decide) (by decide) (by decide), fin_main_arg5 m c]
  rfl
theorem fin_main_v25 : after (ops (F := F)) (launchContents m c) (Proc.devRef .tc main_v25) = val_main_v25 (F := F) (m ((c.tc : Thread nD τ).loc main_arg5)) := by
  rw [after_unary_fix (x := main_v24) (y := main_v25) (aligned (F := F)) 33 rfl (by decide) (by decide) (by decide), fin_main_v24 m c]
  rfl
theorem fin_main_v26 : after (ops (F := F)) (launchContents m c) (Proc.devRef .tc main_v26) = val_main_v26 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  rw [after_binary_fix (a := main_v23) (b := main_v25) (y := main_v26) (aligned (F := F)) 34 rfl (by decide) (by decide) (by decide) (by decide) (by decide), fin_main_v23 m c, fin_main_v25 m c]
  rfl
theorem fin_main_call2_cst : after (ops (F := F)) (launchContents m c) (Proc.devRef .tc main_call2_cst) = val_main_call2_cst (F := F) :=
  (after_nullary_fix (y := main_call2_cst) (aligned (F := F)) 35 rfl (by decide) _).trans rfl
theorem fin_main_call2_v0 : after (ops (F := F)) (launchContents m c) (Proc.devRef .tc main_call2_v0) = val_main_call2_v0 (F := F) := by
  rw [after_unary_fix (x := main_call2_cst) (y := main_call2_v0) (aligned (F := F)) 36 rfl (by decide) (by decide) (by decide), fin_main_call2_cst m c]
  rfl
theorem fin_main_v27 : after (ops (F := F)) (launchContents m c) (Proc.devRef .tc main_v27) = val_main_v27 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  rw [after_binary_fix (a := main_v26) (b := main_call2_v0) (y := main_v27) (aligned (F := F)) 37 rfl (by decide) (by decide) (by decide) (by decide) (by decide), fin_main_v26 m c, fin_main_call2_v0 m c]
  rfl
theorem fin_main_v28 : after (ops (F := F)) (launchContents m c) (Proc.devRef .tc main_v28) = val_main_v28 (F := F) (m ((c.tc : Thread nD τ).loc main_arg0)) := by
  rw [after_unary_fix (x := main_v17) (y := main_v28) (aligned (F := F)) 38 rfl (by decide) (by decide) (by decide), fin_main_v17 m c]
  rfl
theorem fin_main_v29 : after (ops (F := F)) (launchContents m c) (Proc.devRef .tc main_v29) = val_main_v29 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  rw [after_binary_fix (a := main_v27) (b := main_v28) (y := main_v29) (aligned (F := F)) 39 rfl (by decide) (by decide) (by decide) (by decide) (by decide), fin_main_v27 m c, fin_main_v28 m c]
  rfl
theorem fin_main_cst_0 : after (ops (F := F)) (launchContents m c) (Proc.devRef .tc main_cst_0) = val_main_cst_0 (F := F) :=
  (after_nullary_fix (y := main_cst_0) (aligned (F := F)) 40 rfl (by decide) _).trans rfl
theorem fin_main_v30 : after (ops (F := F)) (launchContents m c) (Proc.devRef .tc main_v30) = val_main_v30 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  rw [after_binary_fix (a := main_v29) (b := main_cst_0) (y := main_v30) (aligned (F := F)) 41 rfl (by decide) (by decide) (by decide) (by decide) (by decide), fin_main_v29 m c, fin_main_cst_0 m c]
  rfl
theorem fin_main_v31 : after (ops (F := F)) (launchContents m c) (Proc.devRef .tc main_v31) = val_main_v31 (F := F) (m ((c.tc : Thread nD τ).loc main_arg0)) := by
  rw [after_unary_fix (x := main_arg0) (y := main_v31) (aligned (F := F)) 42 rfl (by decide) (by decide) (by decide), fin_main_arg0 m c]
  rfl
theorem fin_main_v32 : after (ops (F := F)) (launchContents m c) (Proc.devRef .tc main_v32) = val_main_v32 (F := F) (m ((c.tc : Thread nD τ).loc main_arg0)) (m ((c.tc : Thread nD τ).loc main_arg1)) := by
  rw [after_binary_fix (a := main_v31) (b := main_arg1) (y := main_v32) (aligned (F := F)) 43 rfl (by decide) (by decide) (by decide) (by decide) (by decide), fin_main_v31 m c, fin_main_arg1 m c]
  rfl
theorem fin_main_v33 : after (ops (F := F)) (launchContents m c) (Proc.devRef .tc main_v33) = val_main_v33 (F := F) (m ((c.tc : Thread nD τ).loc main_arg0)) := by
  rw [after_unary_fix (x := main_arg0) (y := main_v33) (aligned (F := F)) 44 rfl (by decide) (by decide) (by decide), fin_main_arg0 m c]
  rfl
theorem fin_main_v34 : after (ops (F := F)) (launchContents m c) (Proc.devRef .tc main_v34) = val_main_v34 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (after_nary_fix (xs := ![main_v30, main_v32, main_v33]) (y := main_v34) (aligned (F := F)) 45 rfl (by decide) (by decide) (by decide) _).trans ?_
  show concatenate S1024x132 1 [⟨S1024x128, (after (ops (F := F)) (launchContents m c) (Proc.devRef .tc main_v30))⟩, ⟨S1024x2, (after (ops (F := F)) (launchContents m c) (Proc.devRef .tc main_v32))⟩, ⟨S1024x2, (after (ops (F := F)) (launchContents m c) (Proc.devRef .tc main_v33))⟩] concatenates_S1024x128_S1024x2_S1024x2_S1024x132_d1 = _
  rw [fin_main_v30 m c, fin_main_v32 m c, fin_main_v33 m c]
  rfl
theorem fin_main_v35 : after (ops (F := F)) (launchContents m c) (Proc.devRef .tc main_v35) = val_main_v35 (F := F) (m ((c.tc : Thread nD τ).loc main_arg6)) := by
  rw [after_unary_fix (x := main_arg6) (y := main_v35) (aligned (F := F)) 46 rfl (by decide) (by decide) (by decide), fin_main_arg6 m c]
  rfl
theorem fin_main_v36 : after (ops (F := F)) (launchContents m c) (Proc.devRef .tc main_v36) = val_main_v36 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [after_binary_fix (a := main_v34) (b := main_v35) (y := main_v36) (aligned (F := F)) 47 rfl (by decide) (by decide) (by decide) (by decide) (by decide), fin_main_v34 m c, fin_main_v35 m c]
  rfl
theorem fin_main_v37 : after (ops (F := F)) (launchContents m c) (Proc.devRef .tc main_v37) = val_main_v37 (F := F) (m ((c.tc : Thread nD τ).loc main_arg7)) := by
  rw [after_unary_fix (x := main_arg7) (y := main_v37) (aligned (F := F)) 48 rfl (by decide) (by decide) (by decide), fin_main_arg7 m c]
  rfl
theorem fin_main_v38 : after (ops (F := F)) (launchContents m c) (Proc.devRef .tc main_v38) = val_main_v38 (F := F) (m ((c.tc : Thread nD τ).loc main_arg7)) := by
  rw [after_unary_fix (x := main_v37) (y := main_v38) (aligned (F := F)) 49 rfl (by decide) (by decide) (by decide), fin_main_v37 m c]
  rfl
theorem fin_main_v39 : after (ops (F := F)) (launchContents m c) (Proc.devRef .tc main_v39) = val_main_v39 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_binary_fix (a := main_v36) (b := main_v38) (y := main_v39) (aligned (F := F)) 50 rfl (by decide) (by decide) (by decide) (by decide) (by decide), fin_main_v36 m c, fin_main_v38 m c]
  rfl
theorem fin_main_call3_cst : after (ops (F := F)) (launchContents m c) (Proc.devRef .tc main_call3_cst) = val_main_call3_cst (F := F) :=
  (after_nullary_fix (y := main_call3_cst) (aligned (F := F)) 51 rfl (by decide) _).trans rfl
theorem fin_main_call3_v0 : after (ops (F := F)) (launchContents m c) (Proc.devRef .tc main_call3_v0) = val_main_call3_v0 (F := F) := by
  rw [after_unary_fix (x := main_call3_cst) (y := main_call3_v0) (aligned (F := F)) 52 rfl (by decide) (by decide) (by decide), fin_main_call3_cst m c]
  rfl
theorem fin_main_v40 : after (ops (F := F)) (launchContents m c) (Proc.devRef .tc main_v40) = val_main_v40 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [after_binary_fix (a := main_v39) (b := main_call3_v0) (y := main_v40) (aligned (F := F)) 53 rfl (by decide) (by decide) (by decide) (by decide) (by decide), fin_main_v39 m c, fin_main_call3_v0 m c]
  rfl
theorem fin_main_v41 : after (ops (F := F)) (launchContents m c) (Proc.devRef .tc main_v41) = val_main_v41 (F := F) (m ((c.tc : Thread nD τ).loc main_arg8)) := by
  rw [after_unary_fix (x := main_arg8) (y := main_v41) (aligned (F := F)) 54 rfl (by decide) (by decide) (by decide), fin_main_arg8 m c]
  rfl
theorem fin_main_v42 : after (ops (F := F)) (launchContents m c) (Proc.devRef .tc main_v42) = val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [after_binary_fix (a := main_v40) (b := main_v41) (y := main_v42) (aligned (F := F)) 55 rfl (by decide) (by decide) (by decide) (by decide) (by decide), fin_main_v40 m c, fin_main_v41 m c]
  rfl
theorem fin_main_v43 : after (ops (F := F)) (launchContents m c) (Proc.devRef .tc main_v43) = val_main_v43 (F := F) (m ((c.tc : Thread nD τ).loc main_arg9)) := by
  rw [after_unary_fix (x := main_arg9) (y := main_v43) (aligned (F := F)) 56 rfl (by decide) (by decide) (by decide), fin_main_arg9 m c]
  rfl
theorem fin_main_v44 : after (ops (F := F)) (launchContents m c) (Proc.devRef .tc main_v44) = val_main_v44 (F := F) (m ((c.tc : Thread nD τ).loc main_arg9)) := by
  rw [after_unary_fix (x := main_v43) (y := main_v44) (aligned (F := F)) 57 rfl (by decide) (by decide) (by decide), fin_main_v43 m c]
  rfl
theorem fin_main_v45 : after (ops (F := F)) (launchContents m c) (Proc.devRef .tc main_v45) = val_main_v45 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_binary_fix (a := main_v42) (b := main_v44) (y := main_v45) (aligned (F := F)) 58 rfl (by decide) (by decide) (by decide) (by decide) (by decide), fin_main_v42 m c, fin_main_v44 m c]
  rfl
theorem fin_main_call4_cst : after (ops (F := F)) (launchContents m c) (Proc.devRef .tc main_call4_cst) = val_main_call4_cst (F := F) :=
  (after_nullary_fix (y := main_call4_cst) (aligned (F := F)) 59 rfl (by decide) _).trans rfl
theorem fin_main_call4_v0 : after (ops (F := F)) (launchContents m c) (Proc.devRef .tc main_call4_v0) = val_main_call4_v0 (F := F) := by
  rw [after_unary_fix (x := main_call4_cst) (y := main_call4_v0) (aligned (F := F)) 60 rfl (by decide) (by decide) (by decide), fin_main_call4_cst m c]
  rfl
theorem fin_main_v46 : after (ops (F := F)) (launchContents m c) (Proc.devRef .tc main_v46) = val_main_v46 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [after_binary_fix (a := main_v45) (b := main_call4_v0) (y := main_v46) (aligned (F := F)) 61 rfl (by decide) (by decide) (by decide) (by decide) (by decide), fin_main_v45 m c, fin_main_call4_v0 m c]
  rfl
theorem fin_main_v47 : after (ops (F := F)) (launchContents m c) (Proc.devRef .tc main_v47) = val_main_v47 (F := F) (m ((c.tc : Thread nD τ).loc main_arg10)) := by
  rw [after_unary_fix (x := main_arg10) (y := main_v47) (aligned (F := F)) 62 rfl (by decide) (by decide) (by decide), fin_main_arg10 m c]
  rfl
theorem fin_main_v48 : after (ops (F := F)) (launchContents m c) (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [after_binary_fix (a := main_v46) (b := main_v47) (y := main_v48) (aligned (F := F)) 63 rfl (by decide) (by decide) (by decide) (by decide) (by decide), fin_main_v46 m c, fin_main_v47 m c]
  rfl
theorem fin_main_v49 : after (ops (F := F)) (launchContents m c) (Proc.devRef .tc main_v49) = val_main_v49 (F := F) (m ((c.tc : Thread nD τ).loc main_arg11)) := by
  rw [after_unary_fix (x := main_arg11) (y := main_v49) (aligned (F := F)) 64 rfl (by decide) (by decide) (by decide), fin_main_arg11 m c]
  rfl
theorem fin_main_v50 : after (ops (F := F)) (launchContents m c) (Proc.devRef .tc main_v50) = val_main_v50 (F := F) (m ((c.tc : Thread nD τ).loc main_arg11)) := by
  rw [after_unary_fix (x := main_v49) (y := main_v50) (aligned (F := F)) 65 rfl (by decide) (by decide) (by decide), fin_main_v49 m c]
  rfl
theorem fin_main_v51 : after (ops (F := F)) (launchContents m c) (Proc.devRef .tc main_v51) = val_main_v51 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_binary_fix (a := main_v48) (b := main_v50) (y := main_v51) (aligned (F := F)) 66 rfl (by decide) (by decide) (by decide) (by decide) (by decide), fin_main_v48 m c, fin_main_v50 m c]
  rfl
theorem fin_main_call5_cst : after (ops (F := F)) (launchContents m c) (Proc.devRef .tc main_call5_cst) = val_main_call5_cst (F := F) :=
  (after_nullary_fix (y := main_call5_cst) (aligned (F := F)) 67 rfl (by decide) _).trans rfl
theorem fin_main_call5_v0 : after (ops (F := F)) (launchContents m c) (Proc.devRef .tc main_call5_v0) = val_main_call5_v0 (F := F) := by
  rw [after_unary_fix (x := main_call5_cst) (y := main_call5_v0) (aligned (F := F)) 68 rfl (by decide) (by decide) (by decide), fin_main_call5_cst m c]
  rfl
theorem fin_main_v52 : after (ops (F := F)) (launchContents m c) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_binary_fix (a := main_v51) (b := main_call5_v0) (y := main_v52) (aligned (F := F)) 69 rfl (by decide) (by decide) (by decide) (by decide) (by decide), fin_main_v51 m c, fin_main_call5_v0 m c]
  rfl
theorem fin_main_v53 : after (ops (F := F)) (launchContents m c) (Proc.devRef .tc main_v53) = val_main_v53 (F := F) (m ((c.tc : Thread nD τ).loc main_arg12)) := by
  rw [after_unary_fix (x := main_arg12) (y := main_v53) (aligned (F := F)) 70 rfl (by decide) (by decide) (by decide), fin_main_arg12 m c]
  rfl
theorem fin_main_v54 : after (ops (F := F)) (launchContents m c) (Proc.devRef .tc main_v54) = val_main_v54 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  rw [after_binary_fix (a := main_v52) (b := main_v53) (y := main_v54) (aligned (F := F)) 71 rfl (by decide) (by decide) (by decide) (by decide) (by decide), fin_main_v52 m c, fin_main_v53 m c]
  rfl
theorem fin_main_v55 : after (ops (F := F)) (launchContents m c) (Proc.devRef .tc main_v55) = val_main_v55 (F := F) (m ((c.tc : Thread nD τ).loc main_arg13)) := by
  rw [after_unary_fix (x := main_arg13) (y := main_v55) (aligned (F := F)) 72 rfl (by decide) (by decide) (by decide), fin_main_arg13 m c]
  rfl
theorem fin_main_v56 : after (ops (F := F)) (launchContents m c) (Proc.devRef .tc main_v56) = val_main_v56 (F := F) (m ((c.tc : Thread nD τ).loc main_arg13)) := by
  rw [after_unary_fix (x := main_v55) (y := main_v56) (aligned (F := F)) 73 rfl (by decide) (by decide) (by decide), fin_main_v55 m c]
  rfl
theorem fin_main_v57 : after (ops (F := F)) (launchContents m c) (Proc.devRef .tc main_v57) = val_main_v57 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v54) (b := main_v56) (y := main_v57) (aligned (F := F)) 74 rfl (by decide) (by decide) (by decide) (by decide) (by decide), fin_main_v54 m c, fin_main_v56 m c]
  rfl
theorem fin_main_v58 : after (ops (F := F)) (launchContents m c) (Proc.devRef .tc main_v58) = val_main_v58 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v57) (y := main_v58) (aligned (F := F)) 75 rfl (by decide) (by decide) (by decide), fin_main_v57 m c]
  rfl
theorem fin_main_v59 : after (ops (F := F)) (launchContents m c) (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v58) (y := main_v59) (aligned (F := F)) 76 rfl (by decide) (by decide) (by decide), fin_main_v58 m c]
  rfl
theorem fin_main_cst_1 : after (ops (F := F)) (launchContents m c) (Proc.devRef .tc main_cst_1) = val_main_cst_1 (F := F) :=
  (after_nullary_fix (y := main_cst_1) (aligned (F := F)) 77 rfl (by decide) _).trans rfl
theorem fin_main_v60 : after (ops (F := F)) (launchContents m c) (Proc.devRef .tc main_v60) = val_main_v60 (F := F) := by
  rw [after_unary_fix (x := main_cst_1) (y := main_v60) (aligned (F := F)) 78 rfl (by decide) (by decide) (by decide), fin_main_cst_1 m c]
  rfl
theorem fin_main_v61 : after (ops (F := F)) (launchContents m c) (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v60) (b := main_v59) (y := main_v61) (aligned (F := F)) 79 rfl (by decide) (by decide) (by decide) (by decide) (by decide), fin_main_v60 m c, fin_main_v59 m c]
  rfl
theorem fin_main_cst_2 : after (ops (F := F)) (launchContents m c) (Proc.devRef .tc main_cst_2) = val_main_cst_2 (F := F) :=
  (after_nullary_fix (y := main_cst_2) (aligned (F := F)) 80 rfl (by decide) _).trans rfl
theorem fin_main_v62 : after (ops (F := F)) (launchContents m c) (Proc.devRef .tc main_v62) = val_main_v62 (F := F) := by
  rw [after_unary_fix (x := main_cst_2) (y := main_v62) (aligned (F := F)) 81 rfl (by decide) (by decide) (by decide), fin_main_cst_2 m c]
  rfl
theorem fin_main_v63 : after (ops (F := F)) (launchContents m c) (Proc.devRef .tc main_v63) = val_main_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v62) (b := main_v61) (y := main_v63) (aligned (F := F)) 82 rfl (by decide) (by decide) (by decide) (by decide) (by decide), fin_main_v62 m c, fin_main_v61 m c]
  rfl
theorem fin_main_cst_3 : after (ops (F := F)) (launchContents m c) (Proc.devRef .tc main_cst_3) = val_main_cst_3 (F := F) :=
  (after_nullary_fix (y := main_cst_3) (aligned (F := F)) 83 rfl (by decide) _).trans rfl
theorem fin_main_v64 : after (ops (F := F)) (launchContents m c) (Proc.devRef .tc main_v64) = val_main_v64 (F := F) := by
  rw [after_unary_fix (x := main_cst_3) (y := main_v64) (aligned (F := F)) 84 rfl (by decide) (by decide) (by decide), fin_main_cst_3 m c]
  rfl
theorem fin_main_v65 : after (ops (F := F)) (launchContents m c) (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v64) (b := main_v63) (y := main_v65) (aligned (F := F)) 85 rfl (by decide) (by decide) (by decide) (by decide) (by decide), fin_main_v64 m c, fin_main_v63 m c]
  rfl
theorem fin_main_cst_4 : after (ops (F := F)) (launchContents m c) (Proc.devRef .tc main_cst_4) = val_main_cst_4 (F := F) :=
  (after_nullary_fix (y := main_cst_4) (aligned (F := F)) 86 rfl (by decide) _).trans rfl
theorem fin_main_v66 : after (ops (F := F)) (launchContents m c) (Proc.devRef .tc main_v66) = val_main_v66 (F := F) := by
  rw [after_unary_fix (x := main_cst_4) (y := main_v66) (aligned (F := F)) 87 rfl (by decide) (by decide) (by decide), fin_main_cst_4 m c]
  rfl
theorem fin_main_v67 : after (ops (F := F)) (launchContents m c) (Proc.devRef .tc main_v67) = val_main_v67 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v65) (b := main_v66) (y := main_v67) (aligned (F := F)) 88 rfl (by decide) (by decide) (by decide) (by decide) (by decide), fin_main_v65 m c, fin_main_v66 m c]
  rfl
theorem fin_main_v68 : after (ops (F := F)) (launchContents m c) (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v67) (y := main_v68) (aligned (F := F)) 89 rfl (by decide) (by decide) (by decide), fin_main_v67 m c]
  rfl
theorem fin_main_v69 : after (ops (F := F)) (launchContents m c) (Proc.devRef .tc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v67) (y := main_v69) (aligned (F := F)) 90 rfl (by decide) (by decide) (by decide), fin_main_v67 m c]
  rfl
theorem fin_main_v70 : after (ops (F := F)) (launchContents m c) (Proc.devRef .tc main_v70) = val_main_v70 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v67) (y := main_v70) (aligned (F := F)) 91 rfl (by decide) (by decide) (by decide), fin_main_v67 m c]
  rfl
theorem fin_main_v71 : after (ops (F := F)) (launchContents m c) (Proc.devRef .tc main_v71) = val_main_v71 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v67) (y := main_v71) (aligned (F := F)) 92 rfl (by decide) (by decide) (by decide), fin_main_v67 m c]
  rfl
theorem fin_main_cst_5 : after (ops (F := F)) (launchContents m c) (Proc.devRef .tc main_cst_5) = val_main_cst_5 (F := F) :=
  (after_nullary_fix (y := main_cst_5) (aligned (F := F)) 93 rfl (by decide) _).trans rfl
theorem fin_main_v72 : after (ops (F := F)) (launchContents m c) (Proc.devRef .tc main_v72) = val_main_v72 (F := F) := by
  rw [after_unary_fix (x := main_cst_5) (y := main_v72) (aligned (F := F)) 94 rfl (by decide) (by decide) (by decide), fin_main_cst_5 m c]
  rfl
theorem fin_main_v73 : after (ops (F := F)) (launchContents m c) (Proc.devRef .tc main_v73) = val_main_v73 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (after_nary_fix (xs := ![main_v68, main_v72, main_v69, main_v72]) (y := main_v73) (aligned (F := F)) 95 rfl (by decide) (by decide) (by decide) _).trans ?_
  show concatenate S1024x4 1 [⟨S1024x1, (after (ops (F := F)) (launchContents m c) (Proc.devRef .tc main_v68))⟩, ⟨S1024x1, (after (ops (F := F)) (launchContents m c) (Proc.devRef .tc main_v72))⟩, ⟨S1024x1, (after (ops (F := F)) (launchContents m c) (Proc.devRef .tc main_v69))⟩, ⟨S1024x1, (after (ops (F := F)) (launchContents m c) (Proc.devRef .tc main_v72))⟩] concatenates_S1024x1_S1024x1_S1024x1_S1024x1_S1024x4_d1 = _
  rw [fin_main_v68 m c, fin_main_v72 m c, fin_main_v69 m c]
  rfl
theorem fin_main_v74 : after (ops (F := F)) (launchContents m c) (Proc.devRef .tc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v73) (y := main_v74) (aligned (F := F)) 96 rfl (by decide) (by decide) (by decide), fin_main_v73 m c]
  rfl
theorem fin_main_v75 : after (ops (F := F)) (launchContents m c) (Proc.devRef .tc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (after_nary_fix (xs := ![main_v72, main_v70, main_v72, main_v71]) (y := main_v75) (aligned (F := F)) 97 rfl (by decide) (by decide) (by decide) _).trans ?_
  show concatenate S1024x4 1 [⟨S1024x1, (after (ops (F := F)) (launchContents m c) (Proc.devRef .tc main_v72))⟩, ⟨S1024x1, (after (ops (F := F)) (launchContents m c) (Proc.devRef .tc main_v70))⟩, ⟨S1024x1, (after (ops (F := F)) (launchContents m c) (Proc.devRef .tc main_v72))⟩, ⟨S1024x1, (after (ops (F := F)) (launchContents m c) (Proc.devRef .tc main_v71))⟩] concatenates_S1024x1_S1024x1_S1024x1_S1024x1_S1024x4_d1 = _
  rw [fin_main_v72 m c, fin_main_v70 m c, fin_main_v71 m c]
  rfl
theorem fin_main_v76 : after (ops (F := F)) (launchContents m c) (Proc.devRef .tc main_v76) = val_main_v76 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v75) (y := main_v76) (aligned (F := F)) 98 rfl (by decide) (by decide) (by decide), fin_main_v75 m c]
  rfl
theorem fin_main_v77 : after (ops (F := F)) (launchContents m c) (Proc.devRef .tc main_v77) = val_main_v77 (F := F) (m ((c.tc : Thread nD τ).loc main_arg0)) := by
  rw [after_unary_fix (x := main_arg0) (y := main_v77) (aligned (F := F)) 99 rfl (by decide) (by decide) (by decide), fin_main_arg0 m c]
  rfl
theorem fin_main_v78 : after (ops (F := F)) (launchContents m c) (Proc.devRef .tc main_v78) = val_main_v78 (F := F) (m ((c.tc : Thread nD τ).loc main_arg0)) (m ((c.tc : Thread nD τ).loc main_arg1)) := by
  rw [after_binary_fix (a := main_v32) (b := main_v77) (y := main_v78) (aligned (F := F)) 100 rfl (by decide) (by decide) (by decide) (by decide) (by decide), fin_main_v32 m c, fin_main_v77 m c]
  rfl
theorem fin_main_v79 : after (ops (F := F)) (launchContents m c) (Proc.devRef .tc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v78) (b := main_v74) (y := main_v79) (aligned (F := F)) 101 rfl (by decide) (by decide) (by decide) (by decide) (by decide), fin_main_v78 m c, fin_main_v74 m c]
  rfl
theorem fin_main_cst_6 : after (ops (F := F)) (launchContents m c) (Proc.devRef .tc main_cst_6) = val_main_cst_6 (F := F) :=
  (after_nullary_fix (y := main_cst_6) (aligned (F := F)) 102 rfl (by decide) _).trans rfl
theorem fin_main_v80 : after (ops (F := F)) (launchContents m c) (Proc.devRef .tc main_v80) = val_main_v80 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v79) (b := main_cst_6) (y := main_v80) (aligned (F := F)) 103 rfl (by decide) (by decide) (by decide) (by decide) (by decide), fin_main_v79 m c, fin_main_cst_6 m c]
  rfl
theorem fin_main_v81 : after (ops (F := F)) (launchContents m c) (Proc.devRef .tc main_v81) = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v80) (y := main_v81) (aligned (F := F)) 104 rfl (by decide) (by decide) (by decide), fin_main_v80 m c]
  rfl
theorem fin_main_v82 : after (ops (F := F)) (launchContents m c) (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v78) (b := main_v76) (y := main_v82) (aligned (F := F)) 105 rfl (by decide) (by decide) (by decide) (by decide) (by decide), fin_main_v78 m c, fin_main_v76 m c]
  rfl
theorem fin_main_cst_7 : after (ops (F := F)) (launchContents m c) (Proc.devRef .tc main_cst_7) = val_main_cst_7 (F := F) :=
  (after_nullary_fix (y := main_cst_7) (aligned (F := F)) 106 rfl (by decide) _).trans rfl
theorem fin_main_v83 : after (ops (F := F)) (launchContents m c) (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v82) (b := main_cst_7) (y := main_v83) (aligned (F := F)) 107 rfl (by decide) (by decide) (by decide) (by decide) (by decide), fin_main_v82 m c, fin_main_cst_7 m c]
  rfl
theorem fin_main_v84 : after (ops (F := F)) (launchContents m c) (Proc.devRef .tc main_v84) = val_main_v84 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_unary_fix (x := main_v83) (y := main_v84) (aligned (F := F)) 108 rfl (by decide) (by decide) (by decide), fin_main_v83 m c]
  rfl
theorem fin_main_v85 : after (ops (F := F)) (launchContents m c) (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_binary_fix (a := main_v81) (b := main_v84) (y := main_v85) (aligned (F := F)) 109 rfl (by decide) (by decide) (by decide) (by decide) (by decide), fin_main_v81 m c, fin_main_v84 m c]
  rfl

end Line

/-- At the end of the line the result buffer holds the last stage of the argument arrays. -/
theorem after_eq (m : (ℓ : Loc nD τ sig) → Buf (Elt F) ℓ) (c : Dev nD) :
    after (ops (F := F)) (launchContents m c) (Proc.devRef .tc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) :=
  fin_main_v85 m c

end Cert.RefAfter

end
-- ==== Proof.lean ====
/-
  The five claims of this certificate.

  The kernel evaluates a message-passing layer over 1024 agents on an 8 × 16 grid: at grid point (i, j) it forms the
  pairwise differences between the 128 agents of query block i and the 64 agents of neighbour block j, appends the
  identity channel, masks each pair by the distance of its first two coordinates against one half, runs the two pointwise
  layers with their rectifiers on every pair, and takes the masked maximum over the 64 neighbours into a 128 × 128
  accumulator kept in scratch between points — reset to zero where j = 0, combined by the elementwise maximum
  elsewhere. Where j = 15 it evaluates the four dense layers of the head on the accumulated maxima and the agents' own
  state, the logistic gain, and the two weighted sums, and stores the 128 × 2 block of the result.

  Frames (all three programs run to the end and leave their fourteen arguments unchanged): for the kernel, at the word
  level and idealized alike, the body is run once per case of its two branches (j = 0, 0 < j < 15, j = 15), the
  accumulator's contents tracked from point to point, and the region launched with the first operand — which two windows
  read — held half and half by them; for the reference, its run with the result dropped.

  The idealization rewrote nothing, so it preserves the word-level program trivially.

  Values, over the extended reals: every masked value is a rectified value times a mask in {0, 1}, hence nonnegative,
  so the zero the accumulator starts from does not change the maximum, and the maximum over sixteen blocks of 64
  neighbours is the maximum over all 1024; sums may be reassociated freely; a matrix product into a zero accumulator is the
  plain contraction; a change of float format is the identity; the logistic is 1 / (1 + exp (−x)) on both sides, and
  0 − x is −x. So the kernel's result array and the reference's are one function of the arguments, the specification
  `Cert.Spec.G`.
-/
import proofs.«105093_j86131274154571_1_alg».proof.Defs
import proofs.«105093_j86131274154571_1_alg».proof.Proof.Gen.Kernel
import proofs.«105093_j86131274154571_1_alg».proof.Proof.Gen.KernelIdeal
import proofs.«105093_j86131274154571_1_alg».proof.Proof.Gen.ReferenceIdeal
import proofs.«105093_j86131274154571_1_alg».proof.Proof.Gen.Pre_finite_inputs
import proofs.«105093_j86131274154571_1_alg».proof.Proof.FrameRunW
import proofs.«105093_j86131274154571_1_alg».proof.Proof.KernelFinal
import proofs.«105093_j86131274154571_1_alg».proof.Proof.RefClaims
import proofs.«105093_j86131274154571_1_alg».proof.Proof.RefAfter
import Idealize.ShloMosaic.Adequacy
import Idealize.ShloMosaic.Init

noncomputable section

namespace Cert.Proof

open Idealize.ShloMosaic Idealize.SL.Sem

/-- The word-level kernel runs to its end and leaves its arguments unchanged. -/
theorem frame_p : @Cert.frame_Kernel Cert.Kernel.Gen.facts Cert.Pre_finite_inputs.Gen.facts :=
  fun m ρ _ => Cert.Kernel.Frm.frame m ρ

/-- So does the idealized kernel. -/
theorem frame_pi : @Cert.frame_KernelIdeal Cert.KernelIdeal.Gen.facts Cert.Pre_finite_inputs.Gen.facts :=
  fun m ρ _ => Cert.KernelIdeal.Frm.frame m ρ

/-- Run from memories that agree on the arguments, the idealized kernel and the idealized reference end with equal
    results: both result arrays are the specification's function of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KVal.Gres m c, Cert.KernelIdeal.KVal.run m ρ, ?_⟩
  refine (θ_run Cert.ReferenceIdeal.defs _ _).mono (fun _ h c => ⟨(h c).1.trans ?_, (h c).2⟩)
    (Cert.RefClaims.ref_run m' ρ' (Cert.RefAfter.after_eq m'))
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_p, frame_pi, Cert.RefClaims.frame_ri, trivial, algebraic⟩

end Cert.Proof

end
